-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S1x4096x512 : Shape := ⟨3, ![1, 4096, 512]⟩
abbrev S8x64x512 : Shape := ⟨3, ![8, 64, 512]⟩
abbrev S8x64 : Shape := ⟨2, ![8, 64]⟩
abbrev S8x64x128 : Shape := ⟨3, ![8, 64, 128]⟩
abbrev S512x512 : Shape := ⟨2, ![512, 512]⟩
abbrev S512 : Shape := ⟨1, ![512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1x4096x512 : S_.BroadcastsInDim S1x4096x512 (![] : Fin 0 → Fin S1x4096x512.rank)
  reducesTo_S1x4096x512_S_d0_1_2 : S1x4096x512.ReducesTo [0, 1, 2] S_
  bcast_S_S8x64x512 : S_.BroadcastsInDim S8x64x512 (![] : Fin 0 → Fin S8x64x512.rank)
  reducesTo_S8x64x512_S_d0_1_2 : S8x64x512.ReducesTo [0, 1, 2] S_
  bcast_S_S8x64 : S_.BroadcastsInDim S8x64 (![] : Fin 0 → Fin S8x64.rank)
  reducesTo_S8x64_S_d0_1 : S8x64.ReducesTo [0, 1] S_
  bcast_S_S8x64x128 : S_.BroadcastsInDim S8x64x128 (![] : Fin 0 → Fin S8x64x128.rank)
  reducesTo_S8x64x128_S_d0_1_2 : S8x64x128.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S8x64x128 .f32) (main_arg5 : FVec F S8x64 .f32) (main_arg6 : FVec F S512x512 .f32) (main_arg7 : FVec F S512 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8x64x128 .f32 := Host.absf main_arg4
  let main_cst_6 : FVec F S_ .f32 := constant S_ .f32 0x7F800000#32
  let main_v20 : FVec F S8x64x128 .f32 := broadcastInDim S8x64x128 ![] bcast_S_S8x64x128 main_cst_6
  let main_v21 : IVec S8x64x128 1 := cmpf .olt main_v19 main_v20
  let main_c_7 : IVec S_ 1 := constantI S_ 1 1#1
  let main_v22 : IVec S_ 1 := (fun x v => Host.reduce IntOp.andi x v reducesTo_S8x64x128_S_d0_1_2 h_S_) main_v21 main_c_7
  let main_v23 : IVec S_ 1 := andi main_v18 main_v22
  let main_v24 : FVec F S8x64 .f32 := Host.absf main_arg5
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S2048x512 .f32) (main_arg1 : FVec F S1x4096x512 .f32) (main_arg2 : FVec F S8x64x512 .f32) (main_arg3 : FVec F S8x64 .f32) (main_arg4 : FVec F S8x64x128 .f32) (main_arg5 : FVec F S8x64 .f32) (main_arg6 : FVec F S512x512 .f32) (main_arg7 : FVec F S512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S1x4096x512 .f32 := Host.absf main_arg1
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : IVec S_ 1 := andi main_v3 main_v7
  let main_v9 : FVec F S8x64x512 .f32 := Host.absf main_arg2
  let main_cst_2 : FVec F S_ .f32 := constant S_ .f32 0x7F800000#32
  let main_v10 : FVec F S8x64x512 .f32 := broadcastInDim S8x64x512 ![] bcast_S_S8x64x512 main_cst_2
  let main_v11 : IVec S8x64x512 1 := cmpf .olt main_v9 main_v10
  let main_c_3 : IVec S_ 1 := constantI S_ 1 1#1
  let main_v12 : IVec S_ 1 := (fun x v => Host.reduce IntOp.andi x v reducesTo_S8x64x512_S_d0_1_2 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg4 main_arg5 main_arg6 main_arg7 main_v13 main_v16
-- ==== Kernel.lean ====
abbrev S2048x512 : Shape := ⟨2, ![2048, 512]⟩
abbrev S1x4096x512 : Shape := ⟨3, ![1, 4096, 512]⟩
abbrev S8x64x512 : Shape := ⟨3, ![8, 64, 512]⟩
abbrev S8x64 : Shape := ⟨2, ![8, 64]⟩
abbrev S8x64x128 : Shape := ⟨3, ![8, 64, 128]⟩
abbrev S512x512 : Shape := ⟨2, ![512, 512]⟩
abbrev S512 : Shape := ⟨1, ![512]⟩
abbrev S4096x512 : Shape := ⟨2, ![4096, 512]⟩
abbrev S8x4096x64 : Shape := ⟨3, ![8, 4096, 64]⟩
abbrev S8x512x64 : Shape := ⟨3, ![8, 512, 64]⟩
abbrev S1x64x512 : Shape := ⟨3, ![1, 64, 512]⟩
abbrev S64x512 : Shape := ⟨2, ![64, 512]⟩
abbrev S1x64 : Shape := ⟨2, ![1, 64]⟩
abbrev S64 : Shape := ⟨1, ![64]⟩
abbrev S512x64 : Shape := ⟨2, ![512, 64]⟩
abbrev S1x512x64 : Shape := ⟨3, ![1, 512, 64]⟩
abbrev S2048x32768 : Shape := ⟨2, ![2048, 32768]⟩
abbrev S64x32768 : Shape := ⟨2, ![64, 32768]⟩
abbrev S64x64 : Shape := ⟨2, ![64, 64]⟩
abbrev S1x4096x64 : Shape := ⟨3, ![1, 4096, 64]⟩
abbrev S4096x64 : Shape := ⟨2, ![4096, 64]⟩
abbrev S64x4096 : Shape := ⟨2, ![64, 4096]⟩
abbrev S64x1 : Shape := ⟨2, ![64, 1]⟩
abbrev S64x128 : Shape := ⟨2, ![64, 128]⟩
abbrev S1x64x128 : Shape := ⟨3, ![1, 64, 128]⟩
abbrev S128x64 : Shape := ⟨2, ![128, 64]⟩
abbrev S1x512 : Shape := ⟨2, ![1, 512]⟩
abbrev S2048x8x4096 : Shape := ⟨3, ![2048, 8, 4096]⟩

abbrev nBuf : Space → Nat
  | .hbm => 17
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S1x4096x512, .f32⟩
  | .hbm, ⟨2, _⟩ => ⟨S8x64x512, .f32⟩
  | .hbm, ⟨3, _⟩ => ⟨S8x64, .f32⟩
  | .hbm, ⟨4, _⟩ => ⟨S8x64x128, .f32⟩
  | .hbm, ⟨5, _⟩ => ⟨S8x64, .f32⟩
  | .hbm, ⟨6, _⟩ => ⟨S512x512, .f32⟩
  | .hbm, ⟨7, _⟩ => ⟨S512, .f32⟩
  | .hbm, ⟨8, _⟩ => ⟨S4096x512, .f32⟩
  | .hbm, ⟨9, _⟩ => ⟨S8x64x512, .bf16⟩
  | .hbm, ⟨10, _⟩ => ⟨S8x64x128, .bf16⟩
  | .hbm, ⟨11, _⟩ => ⟨S512x512, .f32⟩
  | .hbm, ⟨12, _⟩ => ⟨S512x512, .bf16⟩
  | .hbm, ⟨13, _⟩ => ⟨S8x4096x64, .bf16⟩
  | .hbm, ⟨14, _⟩ => ⟨S2048x512, .f32⟩
  | .hbm, ⟨15, _⟩ => ⟨S2048x32768, .f32⟩
  | .hbm, ⟨16, _⟩ => ⟨S2048x8x4096, .f32⟩
  | .local _ .vmem, ⟨0, _⟩ => ⟨S512x512, .f32⟩
  | .local _ .vmem, ⟨1, _⟩ => ⟨S512x512, .f32⟩
  | .local _ .vmem, ⟨2, _⟩ => ⟨S8x64x512, .bf16⟩
  | .local _ .vmem, ⟨3, _⟩ => ⟨S8x64, .f32⟩
  | .local _ .vmem, ⟨4, _⟩ => ⟨S8x512x64, .bf16⟩
  | .local _ .vmem, ⟨5, _⟩ => ⟨S8x512x64, .bf16⟩
  | .local _ .vmem, ⟨6, _⟩ => ⟨S64x512, .f32⟩
  | .local _ .vmem, ⟨7, _⟩ => ⟨S64x512, .f32⟩
  | .local _ .vmem, ⟨8, _⟩ => ⟨S8x64x512, .bf16⟩
  | .local _ .vmem, ⟨9, _⟩ => ⟨S8x64, .f32⟩
  | .local _ .vmem, ⟨10, _⟩ => ⟨S8x4096x64, .bf16⟩
  | .local _ .vmem, ⟨11, _⟩ => ⟨S8x64x128, .bf16⟩
  | .local _ .vmem, ⟨12, _⟩ => ⟨S8x64, .f32⟩
  | .local _ .vmem, ⟨13, _⟩ => ⟨S512x512, .bf16⟩
  | .local _ .vmem, ⟨14, _⟩ => ⟨S512, .f32⟩
  | .local _ .vmem, ⟨15, _⟩ => ⟨S64x512, .f32⟩
  | .local _ .vmem, ⟨16, _⟩ => ⟨S64x512, .f32⟩
  | .local _ .vmem, ⟨17, _⟩ => ⟨S64x32768, .f32⟩
  | .local _ .vmem, ⟨18, _⟩ => ⟨S64x32768, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x64x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x32768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S1x4096x512_S4096x512 : S1x4096x512.ShapeCasts S4096x512
  bitsLt_bf16_f32 : FTy.bits .bf16 < FTy.bits .f32
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S8x64x512_S1x64x512_0_0_0 : ∀ a, (![0, 0, 0] : Fin 3 → Nat) a + S1x64x512.size a ≤ S8x64x512.size a
  h_S1x64x512 : 0 < S1x64x512.numel
  shapeCasts_S1x64x512_S64x512 : S1x64x512.ShapeCasts S64x512
  inb_S8x64_S1x64_0_0 : ∀ a, (![0, 0] : Fin 2 → Nat) a + S1x64.size a ≤ S8x64.size a
  h_S1x64 : 0 < S1x64.numel
  shapeCasts_S1x64_S64 : S1x64.ShapeCasts S64
  transposes_S64x512_p1_0_S512x64 : S64x512.Transposes [1, 0] S512x64
  shapeCasts_S64_S1x64 : S64.ShapeCasts S1x64
  broadcasts_S1x64_S512x64 : S1x64.Broadcasts S512x64
  inb_S8x512x64_S1x512x64_0_0_0 : ∀ a, (![0, 0, 0] : Fin 3 → Nat) a + S1x512x64.size a ≤ S8x512x64.size a
  h_S1x512x64 : 0 < S1x512x64.numel
  shapeCasts_S1x512x64_S512x64 : S1x512x64.ShapeCasts S512x64
  shapeCasts_S512x64_S1x512x64 : S512x64.ShapeCasts S1x512x64
  packedbf16_S8x512x64_S1x512x64_0_0_0 : (Rect.unit (s := S8x512x64) ![0, 0, 0] S1x512x64.size inb_S8x512x64_S1x512x64_0_0_0).PackedRows (EltTy.packing .bf16)
  inb_S8x64x512_S1x64x512_1_0_0 : ∀ a, (![1, 0, 0] : Fin 3 → Nat) a + S1x64x512.size a ≤ S8x64x512.size a
  inb_S8x64_S1x64_1_0 : ∀ a, (![1, 0] : Fin 2 → Nat) a + S1x64.size a ≤ S8x64.size a
  inb_S8x512x64_S1x512x64_1_0_0 : ∀ a, (![1, 0, 0] : Fin 3 → Nat) a + S1x512x64.size a ≤ S8x512x64.size a
  packedbf16_S8x512x64_S1x512x64_1_0_0 : (Rect.unit (s := S8x512x64) ![1, 0, 0] S1x512x64.size inb_S8x512x64_S1x512x64_1_0_0).PackedRows (EltTy.packing .bf16)
  inb_S8x64x512_S1x64x512_2_0_0 : ∀ a, (![2, 0, 0] : Fin 3 → Nat) a + S1x64x512.size a ≤ S8x64x512.size a
  inb_S8x64_S1x64_2_0 : ∀ a, (![2, 0] : Fin 2 → Nat) a + S1x64.size a ≤ S8x64.size a
  inb_S8x512x64_S1x512x64_2_0_0 : ∀ a, (![2, 0, 0] : Fin 3 → Nat) a + S1x512x64.size a ≤ S8x512x64.size a
  packedbf16_S8x512x64_S1x512x64_2_0_0 : (Rect.unit (s := S8x512x64) ![2, 0, 0] S1x512x64.size inb_S8x512x64_S1x512x64_2_0_0).PackedRows (EltTy.packing .bf16)
  inb_S8x64x512_S1x64x512_3_0_0 : ∀ a, (![3, 0, 0] : Fin 3 → Nat) a + S1x64x512.size a ≤ S8x64x512.size a
  inb_S8x64_S1x64_3_0 : ∀ a, (![3, 0] : Fin 2 → Nat) a + S1x64.size a ≤ S8x64.size a
  inb_S8x512x64_S1x512x64_3_0_0 : ∀ a, (![3, 0, 0] : Fin 3 → Nat) a + S1x512x64.size a ≤ S8x512x64.size a
  packedbf16_S8x512x64_S1x512x64_3_0_0 : (Rect.unit (s := S8x512x64) ![3, 0, 0] S1x512x64.size inb_S8x512x64_S1x512x64_3_0_0).PackedRows (EltTy.packing .bf16)
  inb_S8x64x512_S1x64x512_4_0_0 : ∀ a, (![4, 0, 0] : Fin 3 → Nat) a + S1x64x512.size a ≤ S8x64x512.size a
  inb_S8x64_S1x64_4_0 : ∀ a, (![4, 0] : Fin 2 → Nat) a + S1x64.size a ≤ S8x64.size a
  inb_S8x512x64_S1x512x64_4_0_0 : ∀ a, (![4, 0, 0] : Fin 3 → Nat) a + S1x512x64.size a ≤ S8x512x64.size a
  packedbf16_S8x512x64_S1x512x64_4_0_0 : (Rect.unit (s := S8x512x64) ![4, 0, 0] S1x512x64.size inb_S8x512x64_S1x512x64_4_0_0).PackedRows (EltTy.packing .bf16)
  inb_S8x64x512_S1x64x512_5_0_0 : ∀ a, (![5, 0, 0] : Fin 3 → Nat) a + S1x64x512.size a ≤ S8x64x512.size a
  inb_S8x64_S1x64_5_0 : ∀ a, (![5, 0] : Fin 2 → Nat) a + S1x64.size a ≤ S8x64.size a
  inb_S8x512x64_S1x512x64_5_0_0 : ∀ a, (![5, 0, 0] : Fin 3 → Nat) a + S1x512x64.size a ≤ S8x512x64.size a
  packedbf16_S8x512x64_S1x512x64_5_0_0 : (Rect.unit (s := S8x512x64) ![5, 0, 0] S1x512x64.size inb_S8x512x64_S1x512x64_5_0_0).PackedRows (EltTy.packing .bf16)
  inb_S8x64x512_S1x64x512_6_0_0 : ∀ a, (![6, 0, 0] : Fin 3 → Nat) a + S1x64x512.size a ≤ S8x64x512.size a
  inb_S8x64_S1x64_6_0 : ∀ a, (![6, 0] : Fin 2 → Nat) a + S1x64.size a ≤ S8x64.size a
  inb_S8x512x64_S1x512x64_6_0_0 : ∀ a, (![6, 0, 0] : Fin 3 → Nat) a + S1x512x64.size a ≤ S8x512x64.size a
  packedbf16_S8x512x64_S1x512x64_6_0_0 : (Rect.unit (s := S8x512x64) ![6, 0, 0] S1x512x64.size inb_S8x512x64_S1x512x64_6_0_0).PackedRows (EltTy.packing .bf16)
  inb_S8x64x512_S1x64x512_7_0_0 : ∀ a, (![7, 0, 0] : Fin 3 → Nat) a + S1x64x512.size a ≤ S8x64x512.size a
  inb_S8x64_S1x64_7_0 : ∀ a, (![7, 0] : Fin 2 → Nat) a + S1x64.size a ≤ S8x64.size a
  inb_S8x512x64_S1x512x64_7_0_0 : ∀ a, (![7, 0, 0] : Fin 3 → Nat) a + S1x512x64.size a ≤ S8x512x64.size a
  packedbf16_S8x512x64_S1x512x64_7_0_0 : (Rect.unit (s := S8x512x64) ![7, 0, 0] S1x512x64.size inb_S8x512x64_S1x512x64_7_0_0).PackedRows (EltTy.packing .bf16)
  inb_S64x512_S64x512_0_0 : ∀ a, (![0, 0] : Fin 2 → Nat) a + S64x512.size a ≤ S64x512.size a
  h_S64x512 : 0 < S64x512.numel
  broadcasts_S1x64_S64x64 : S1x64.Broadcasts S64x64
  inb_S8x4096x64_S1x4096x64_0_0_0 : ∀ a, (![0, 0, 0] : Fin 3 → Nat) a + S1x4096x64.size a ≤ S8x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  reduces_S64x4096_S64 : S64x4096.Reduces [1] S64
  shapeCasts_S64_S64x1 : S64.ShapeCasts S64x1
  broadcasts_S64x1_S64x4096 : S64x1.Broadcasts S64x4096
  inb_S64x32768_S64x4096_0_0 : ∀ a, (![0, 0] : Fin 2 → Nat) a + S64x4096.size a ≤ S64x32768.size a
  h_S64x4096 : 0 < S64x4096.numel
  concatenates_S64x64_S64x64_S64x128_d1 : Shape.Concatenates [S64x64, S64x64] S64x128 1
  inb_S8x64x128_S1x64x128_0_0_0 : ∀ a, (![0, 0, 0] : Fin 3 → Nat) a + S1x64x128.size a ≤ S8x64x128.size a
  h_S1x64x128 : 0 < S1x64x128.numel
  shapeCasts_S1x64x128_S64x128 : S1x64x128.ShapeCasts S64x128
  transposes_S64x128_p1_0_S128x64 : S64x128.Transposes [1, 0] S128x64
  inb_S8x4096x64_S1x4096x64_1_0_0 : ∀ a, (![1, 0, 0] : Fin 3 → Nat) a + S1x4096x64.size a ≤ S8x4096x64.size a
  inb_S64x32768_S64x4096_0_4096 : ∀ a, (![0, 4096] : Fin 2 → Nat) a + S64x4096.size a ≤ S64x32768.size a
  inb_S8x64x128_S1x64x128_1_0_0 : ∀ a, (![1, 0, 0] : Fin 3 → Nat) a + S1x64x128.size a ≤ S8x64x128.size a
  inb_S8x4096x64_S1x4096x64_2_0_0 : ∀ a, (![2, 0, 0] : Fin 3 → Nat) a + S1x4096x64.size a ≤ S8x4096x64.size a
  inb_S64x32768_S64x4096_0_8192 : ∀ a, (![0, 8192] : Fin 2 → Nat) a + S64x4096.size a ≤ S64x32768.size a
  inb_S8x64x128_S1x64x128_2_0_0 : ∀ a, (![2, 0, 0] : Fin 3 → Nat) a + S1x64x128.size a ≤ S8x64x128.size a
  inb_S8x4096x64_S1x4096x64_3_0_0 : ∀ a, (![3, 0, 0] : Fin 3 → Nat) a + S1x4096x64.size a ≤ S8x4096x64.size a
  inb_S64x32768_S64x4096_0_12288 : ∀ a, (![0, 12288] : Fin 2 → Nat) a + S64x4096.size a ≤ S64x32768.size a
  inb_S8x64x128_S1x64x128_3_0_0 : ∀ a, (![3, 0, 0] : Fin 3 → Nat) a + S1x64x128.size a ≤ S8x64x128.size a
  inb_S8x4096x64_S1x4096x64_4_0_0 : ∀ a, (![4, 0, 0] : Fin 3 → Nat) a + S1x4096x64.size a ≤ S8x4096x64.size a
  inb_S64x32768_S64x4096_0_16384 : ∀ a, (![0, 16384] : Fin 2 → Nat) a + S64x4096.size a ≤ S64x32768.size a
  inb_S8x64x128_S1x64x128_4_0_0 : ∀ a, (![4, 0, 0] : Fin 3 → Nat) a + S1x64x128.size a ≤ S8x64x128.size a
  inb_S8x4096x64_S1x4096x64_5_0_0 : ∀ a, (![5, 0, 0] : Fin 3 → Nat) a + S1x4096x64.size a ≤ S8x4096x64.size a
  inb_S64x32768_S64x4096_0_20480 : ∀ a, (![0, 20480] : Fin 2 → Nat) a + S64x4096.size a ≤ S64x32768.size a
  inb_S8x64x128_S1x64x128_5_0_0 : ∀ a, (![5, 0, 0] : Fin 3 → Nat) a + S1x64x128.size a ≤ S8x64x128.size a
  inb_S8x4096x64_S1x4096x64_6_0_0 : ∀ a, (![6, 0, 0] : Fin 3 → Nat) a + S1x4096x64.size a ≤ S8x4096x64.size a
  inb_S64x32768_S64x4096_0_24576 : ∀ a, (![0, 24576] : Fin 2 → Nat) a + S64x4096.size a ≤ S64x32768.size a
  inb_S8x64x128_S1x64x128_6_0_0 : ∀ a, (![6, 0, 0] : Fin 3 → Nat) a + S1x64x128.size a ≤ S8x64x128.size a
  inb_S8x4096x64_S1x4096x64_7_0_0 : ∀ a, (![7, 0, 0] : Fin 3 → Nat) a + S1x4096x64.size a ≤ S8x4096x64.size a
  inb_S64x32768_S64x4096_0_28672 : ∀ a, (![0, 28672] : Fin 2 → Nat) a + S64x4096.size a ≤ S64x32768.size a
  inb_S8x64x128_S1x64x128_7_0_0 : ∀ a, (![7, 0, 0] : Fin 3 → Nat) a + S1x64x128.size a ≤ S8x64x128.size a
  concatenates_S64x64_S64x64_S64x64_S64x64_S64x64_S64x64_S64x64_S64x64_S64x512_d1 : Shape.Concatenates [S64x64, S64x64, S64x64, S64x64, S64x64, S64x64, S64x64, S64x64] S64x512 1
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  shapeCasts_S2048x32768_S2048x8x4096 : S2048x32768.ShapeCasts S2048x8x4096
  dot_S512x512_S512x64_S512x64_1_0_0_1_n_n_wf : DotDims.WF S512x512 S512x64 S512x64 [1] [0] [0] [1] [] []
  dot_S64x512_S512x64_S64x64_1_0_0_1_n_n_wf : DotDims.WF S64x512 S512x64 S64x64 [1] [0] [0] [1] [] []
  dot_S64x64_S64x4096_S64x4096_1_0_0_1_n_n_wf : DotDims.WF S64x64 S64x4096 S64x4096 [1] [0] [0] [1] [] []
  dot_S64x4096_S4096x64_S64x64_1_0_0_1_n_n_wf : DotDims.WF S64x4096 S4096x64 S64x64 [1] [0] [0] [1] [] []
  dot_S64x128_S128x64_S64x64_1_0_0_1_n_n_wf : DotDims.WF S64x128 S128x64 S64x64 [1] [0] [0] [1] [] []
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64x512.size a ≤ S8x64x512.size a
  hwx0_1 : ∀ i : grid0.Coords, EltTy.bits .bf16 = 32 ∨ (Rect.block (s := S8x64x512) S8x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x64.size a ≤ S8x4096x64.size a
  hwx0_3 : ∀ i : grid0.Coords, EltTy.bits .bf16 = 32 ∨ (Rect.block (s := S8x4096x64) S8x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S2048x512.size a
  hwx1_0 : ∀ i : grid1.Coords, EltTy.bits .f32 = 32 ∨ (Rect.block (s := S2048x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64x512.size a ≤ S8x64x512.size a
  hwx1_1 : ∀ i : grid1.Coords, EltTy.bits .bf16 = 32 ∨ (Rect.block (s := S8x64x512) S8x64x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4096x64.size a ≤ S8x4096x64.size a
  hwx1_3 : ∀ i : grid1.Coords, EltTy.bits .bf16 = 32 ∨ (Rect.block (s := S8x4096x64) S8x4096x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x64x128.size a ≤ S8x64x128.size a
  hwx1_4 : ∀ i : grid1.Coords, EltTy.bits .bf16 = 32 ∨ (Rect.block (s := S8x64x128) S8x64x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x64.size a ≤ S8x64.size a
  hwx1_5 : ∀ i : grid1.Coords, EltTy.bits .f32 = 32 ∨ (Rect.block (s := S8x64) S8x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x512.size a ≤ S2048x512.size a
  hwx1_8 : ∀ i : grid1.Coords, EltTy.bits .f32 = 32 ∨ (Rect.block (s := S2048x512) S64x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S64x32768.size a ≤ S2048x32768.size a
  hwx1_9 : ∀ i : grid1.Coords, EltTy.bits .f32 = 32 ∨ (Rect.block (s := S2048x32768) S64x32768.size (cc1_transform_9 i) (hinb1_9 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x4096x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S8x64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S8x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6_0) S64x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v6_1) S64x32768.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S2048x512 : Shape := ⟨2, ![2048, 512]⟩
abbrev S1x4096x512 : Shape := ⟨3, ![1, 4096, 512]⟩
abbrev S8x64x512 : Shape := ⟨3, ![8, 64, 512]⟩
abbrev S8x64 : Shape := ⟨2, ![8, 64]⟩
abbrev S8x64x128 : Shape := ⟨3, ![8, 64, 128]⟩
abbrev S512x512 : Shape := ⟨2, ![512, 512]⟩
abbrev S512 : Shape := ⟨1, ![512]⟩
abbrev S4096x512 : Shape := ⟨2, ![4096, 512]⟩
abbrev S_ : Shape := ⟨0, ![]⟩
abbrev S6144x512 : Shape := ⟨2, ![6144, 512]⟩
abbrev S8x64x6144 : Shape := ⟨3, ![8, 64, 6144]⟩
abbrev S8x6144x64 : Shape := ⟨3, ![8, 6144, 64]⟩
abbrev S8x1x64 : Shape := ⟨3, ![8, 1, 64]⟩
abbrev S8x2048x64 : Shape := ⟨3, ![8, 2048, 64]⟩
abbrev S8x4096x64 : Shape := ⟨3, ![8, 4096, 64]⟩
abbrev S8x2048x4096 : Shape := ⟨3, ![8, 2048, 4096]⟩
abbrev S8x2048 : Shape := ⟨2, ![8, 2048]⟩
abbrev S8x2048x1 : Shape := ⟨3, ![8, 2048, 1]⟩
abbrev S8x2048x128 : Shape := ⟨3, ![8, 2048, 128]⟩
abbrev S2048x8x64 : Shape := ⟨3, ![2048, 8, 64]⟩
abbrev S1x512 : Shape := ⟨2, ![1, 512]⟩
abbrev S2048x8x4096 : Shape := ⟨3, ![2048, 8, 4096]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x4096x512, .f32⟩
  | .hbm, ⟨2, _⟩ => ⟨S8x64x512, .f32⟩
  | .hbm, ⟨3, _⟩ => ⟨S8x64, .f32⟩
  | .hbm, ⟨4, _⟩ => ⟨S8x64x128, .f32⟩
  | .hbm, ⟨5, _⟩ => ⟨S8x64, .f32⟩
  | .hbm, ⟨6, _⟩ => ⟨S512x512, .f32⟩
  | .hbm, ⟨7, _⟩ => ⟨S512, .f32⟩
  | .hbm, ⟨8, _⟩ => ⟨S4096x512, .f32⟩
  | .hbm, ⟨9, _⟩ => ⟨S_, .f32⟩
  | .hbm, ⟨10, _⟩ => ⟨S_, .f32⟩
  | .hbm, ⟨11, _⟩ => ⟨S6144x512, .f32⟩
  | .hbm, ⟨12, _⟩ => ⟨S8x64x6144, .f32⟩
  | .hbm, ⟨13, _⟩ => ⟨S8x6144x64, .f32⟩
  | .hbm, ⟨14, _⟩ => ⟨S8x1x64, .f32⟩
  | .hbm, ⟨15, _⟩ => ⟨S8x6144x64, .f32⟩
  | .hbm, ⟨16, _⟩ => ⟨S8x6144x64, .f32⟩
  | .hbm, ⟨17, _⟩ => ⟨S8x2048x64, .f32⟩
  | .hbm, ⟨18, _⟩ => ⟨S8x4096x64, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048x1, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S8x2048x4096, .f32⟩
  | .hbm, ⟨35, _⟩ => ⟨S8x2048x4096, .f32⟩
  | .hbm, ⟨36, _⟩ => ⟨S8x2048x64, .f32⟩
  | .hbm, ⟨37, _⟩ => ⟨S8x2048x128, .f32⟩
  | .hbm, ⟨38, _⟩ => ⟨S8x2048x64, .f32⟩
  | .hbm, ⟨39, _⟩ => ⟨S8x1x64, .f32⟩
  | .hbm, ⟨40, _⟩ => ⟨S8x2048x64, .f32⟩
  | .hbm, ⟨41, _⟩ => ⟨S8x2048x64, .f32⟩
  | .hbm, ⟨42, _⟩ => ⟨S_, .f32⟩
  | .hbm, ⟨43, _⟩ => ⟨S8x2048x64, .f32⟩
  | .hbm, ⟨44, _⟩ => ⟨S8x2048x64, .f32⟩
  | .hbm, ⟨45, _⟩ => ⟨S2048x8x64, .f32⟩
  | .hbm, ⟨46, _⟩ => ⟨S2048x512, .f32⟩
  | .hbm, ⟨47, _⟩ => ⟨S512x512, .f32⟩
  | .hbm, ⟨48, _⟩ => ⟨S2048x512, .f32⟩
  | .hbm, ⟨49, _⟩ => ⟨S2048x512, .f32⟩
  | .hbm, ⟨50, _⟩ => ⟨S1x512, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S2048x512, .f32⟩
  | .hbm, ⟨55, _⟩ => ⟨S2048x512, .f32⟩
  | .hbm, ⟨56, _⟩ => ⟨S2048x8x4096, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_cst : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call1_cst : Ref sig .tc := ⟨.hbm, 53, rfl⟩
abbrev main_call1_v0 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  shapeCasts_S1x4096x512_S4096x512 : S1x4096x512.ShapeCasts S4096x512
  concatenates_S2048x512_S4096x512_S6144x512_d0 : Shape.Concatenates [S2048x512, S4096x512] S6144x512 0
  transposes_S8x64x6144_S8x6144x64_0_2_1 : S8x64x6144.Transposes [0, 2, 1] S8x6144x64
  bcast_S8x64_S8x1x64_0_2 : S8x64.BroadcastsInDim S8x1x64 (![0, 2] : Fin 2 → Fin S8x1x64.rank)
  bcast_S8x1x64_S8x6144x64_0_1_2 : S8x1x64.BroadcastsInDim S8x6144x64 (![0, 1, 2] : Fin 3 → Fin S8x6144x64.rank)
  slices_S8x6144x64_S8x2048x64_0_0_0 : S8x6144x64.Slices ![0, 0, 0] S8x2048x64
  slices_S8x6144x64_S8x4096x64_0_2048_0 : S8x6144x64.Slices ![0, 2048, 0] S8x4096x64
  bcast_S_S8x2048x4096 : S_.BroadcastsInDim S8x2048x4096 (![] : Fin 0 → Fin S8x2048x4096.rank)
  reducesTo_S8x2048x4096_S8x2048_d2 : S8x2048x4096.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  concatenates_S8x2048x64_S8x2048x64_S8x2048x128_d2 : Shape.Concatenates [S8x2048x64, S8x2048x64] S8x2048x128 2
  bcast_S8x1x64_S8x2048x64_0_1_2 : S8x1x64.BroadcastsInDim S8x2048x64 (![0, 1, 2] : Fin 3 → Fin S8x2048x64.rank)
  bcast_S_S8x2048x64 : S_.BroadcastsInDim S8x2048x64 (![] : Fin 0 → Fin S8x2048x64.rank)
  transposes_S8x2048x64_S2048x8x64_1_0_2 : S8x2048x64.Transposes [1, 0, 2] S2048x8x64
  shapeCasts_S2048x8x64_S2048x512 : S2048x8x64.ShapeCasts S2048x512
  transposes_S512x512_S512x512_1_0 : S512x512.Transposes [1, 0] S512x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  transposes_S8x2048x4096_S2048x8x4096_1_0_2 : S8x2048x4096.Transposes [1, 0, 2] S2048x8x4096
  dot_S8x64x512_S6144x512_S8x64x6144_2_1_01_0_n_n_wf : DotDims.WF S8x64x512 S6144x512 S8x64x6144 [2] [1] [0, 1] [0] [] []
  dot_S8x2048x64_S8x4096x64_S8x2048x4096_2_2_1_1_0_0_wf : DotDims.WF S8x2048x64 S8x4096x64 S8x2048x4096 [2] [2] [1] [1] [0] [0]
  dot_S8x2048x4096_S8x4096x64_S8x2048x64_2_1_1_2_0_0_wf : DotDims.WF S8x2048x4096 S8x4096x64 S8x2048x64 [2] [1] [1] [2] [0] [0]
  dot_S8x2048x128_S8x64x128_S8x2048x64_2_2_1_1_0_0_wf : DotDims.WF S8x2048x128 S8x64x128 S8x2048x64 [2] [2] [1] [1] [0] [0]
  dot_S2048x512_S512x512_S2048x512_1_0_0_1_n_n_wf : DotDims.WF S2048x512 S512x512 S2048x512 [1] [0] [0] [1] [] []

variable [Facts₀]

def dot_S8x64x512_S6144x512_S8x64x6144_2_1_01_0_n_n : DotDims S8x64x512 S6144x512 S8x64x6144 where
  lhsContracting := [2]
  rhsContracting := [1]
  lhsNonContracting := [0, 1]
  rhsNonContracting := [0]
  lhsBatch := []
  rhsBatch := []
  wf := dot_S8x64x512_S6144x512_S8x64x6144_2_1_01_0_n_n_wf
def dot_S8x2048x64_S8x4096x64_S8x2048x4096_2_2_1_1_0_0 : DotDims S8x2048x64 S8x4096x64 S8x2048x4096 where
  lhsContracting := [2]
  rhsContracting := [2]
  lhsNonContracting := [1]
  rhsNonContracting := [1]
  lhsBatch := [0]
  rhsBatch := [0]
  wf := dot_S8x2048x64_S8x4096x64_S8x2048x4096_2_2_1_1_0_0_wf
def dot_S8x2048x4096_S8x4096x64_S8x2048x64_2_1_1_2_0_0 : DotDims S8x2048x4096 S8x4096x64 S8x2048x64 where
  lhsContracting := [2]
  rhsContracting := [1]
  lhsNonContracting := [1]
  rhsNonContracting := [2]
  lhsBatch := [0]
  rhsBatch := [0]
  wf := dot_S8x2048x4096_S8x4096x64_S8x2048x64_2_1_1_2_0_0_wf
def dot_S8x2048x128_S8x64x128_S8x2048x64_2_2_1_1_0_0 : DotDims S8x2048x128 S8x64x128 S8x2048x64 where
  lhsContracting := [2]
  rhsContracting := [2]
  lhsNonContracting := [1]
  rhsNonContracting := [1]
  lhsBatch := [0]
  rhsBatch := [0]
  wf := dot_S8x2048x128_S8x64x128_S8x2048x64_2_2_1_1_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

class Facts : Prop extends Facts₀ where

variable [Facts]
-- ==== Proof.Heads.lean ====
/-
  The kernel's arithmetic for ONE head, as vector functions of the blocks it loads, at any float instance.
  The two bodies repeat these operations once per head (the attention body also shares the query block across heads),
  so each store's payload is a composition of the functions below applied to that head's slices of the weights.

  Region 0 (the keys): `embRows` — a 512-row block times the head's 64×512 weight slice, transposed, plus the bias row.
  Region 1 (attention), for a 64-row query block: `embQ` the embedded queries; `keys` the head's 4096×64 key slice;
  `scores` the queries scaled by 0.125 against the transposed keys; `expo` the exponentials of the scores minus their row maximum;
  `normd` those divided by their row sum; `weights` the three composed; `catted` the attended keys and the embedded queries side by side;
  `fuse` the head's fusing layer with its relu; `final` the eight fused blocks side by side through the output projection, the residual,
  the bias and the relu.
-/
import proofs.«169984_j1580547972770_2_alg».proof.Proof.Gen.KernelIdeal

noncomputable section

namespace Cert.KernelIdeal.Heads

open Cert.KernelIdeal Cert.KernelIdeal.Gen Idealize.ShloMosaic

variable {F : FTy → Type} [FloatOps F]

/-- Region 0, one head: the 512 rows of the block embedded, as the 1×512×64 slab the body stores. -/
def embRows (x : FVec F S512x512 .bf16) (w : Vec F S1x64x512 .bf16) (b : Vec F S1x64 .f32) : FVec F S1x512x64 .bf16 :=
  shapeCast S1x512x64 (truncf .bf16 (addf (matmul dot_S512x512_S512x64_S512x64_1_0_0_1_n_n none x (transpose S512x64 [1, 0] (shapeCast S64x512 w shapeCasts_S1x64x512_S64x512) transposes_S64x512_p1_0_S512x64) (constant S512x64 .f32 0x00000000#32)) (broadcastTo S512x64 (shapeCast S1x64 (shapeCast S64 b shapeCasts_S1x64_S64) shapeCasts_S64_S1x64) broadcasts_S1x64_S512x64)) bitsLt_bf16_f32) shapeCasts_S512x64_S1x512x64

/-- Region 1, one head: the 64 query rows embedded. -/
def embQ (x : FVec F S64x512 .bf16) (w : Vec F S1x64x512 .bf16) (b : Vec F S1x64 .f32) : FVec F S64x64 .f32 :=
  addf (matmul dot_S64x512_S512x64_S64x64_1_0_0_1_n_n none x (transpose S512x64 [1, 0] (shapeCast S64x512 w shapeCasts_S1x64x512_S64x512) transposes_S64x512_p1_0_S512x64) (constant S64x64 .f32 0x00000000#32)) (broadcastTo S64x64 (shapeCast S1x64 (shapeCast S64 b shapeCasts_S1x64_S64) shapeCasts_S64_S1x64) broadcasts_S1x64_S64x64)

/-- One head's keys: the leading unit axis dropped. -/
def keys (k : Vec F S1x4096x64 .bf16) : FVec F S4096x64 .bf16 :=
  shapeCast S4096x64 k shapeCasts_S1x4096x64_S4096x64

/-- The scores: the embedded queries times 0.125, against the transposed keys. -/
def scores (q : FVec F S64x64 .f32) (k : FVec F S4096x64 .bf16) : FVec F S64x4096 .f32 :=
  matmul dot_S64x64_S64x4096_S64x4096_1_0_0_1_n_n none (truncf .bf16 (mulf q (broadcast S64x64 (Scalar.ofBits .f32 0x3E000000#32))) bitsLt_bf16_f32) (transpose S64x4096 [1, 0] k transposes_S4096x64_p1_0_S64x4096) (constant S64x4096 .f32 0x00000000#32)

/-- The exponentials of the scores minus their row maximum. -/
def expo (s : FVec F S64x4096 .f32) : FVec F S64x4096 .f32 :=
  exp (subf s (broadcastTo S64x4096 (shapeCast S64x1 (multiReduction .maximumf [1] S64 s 0xFF800000#32 reduces_S64x4096_S64 (.inl rfl) rfl) shapeCasts_S64_S64x1) broadcasts_S64x1_S64x4096))

/-- A block divided by its row sums. -/
def normd (p : FVec F S64x4096 .f32) : FVec F S64x4096 .f32 :=
  divf p (broadcastTo S64x4096 (shapeCast S64x1 (multiReduction .add [1] S64 p 0x00000000#32 reduces_S64x4096_S64 (.inl rfl) rfl) shapeCasts_S64_S64x1) broadcasts_S64x1_S64x4096)

/-- The attention weights of the query block against one head's keys. -/
def weights (q : FVec F S64x64 .f32) (k : FVec F S4096x64 .bf16) : FVec F S64x4096 .f32 :=
  normd (expo (scores q k))

/-- The attended keys and the embedded queries side by side. -/
def catted (q : FVec F S64x64 .f32) (w : FVec F S64x4096 .f32) (k : FVec F S4096x64 .bf16) : FVec F S64x128 .bf16 :=
  concatenate S64x128 1 [⟨S64x64, truncf .bf16 (matmul dot_S64x4096_S4096x64_S64x64_1_0_0_1_n_n none (truncf .bf16 w bitsLt_bf16_f32) k (constant S64x64 .f32 0x00000000#32)) bitsLt_bf16_f32⟩, ⟨S64x64, truncf .bf16 q bitsLt_bf16_f32⟩] concatenates_S64x64_S64x64_S64x128_d1

/-- One head's fusing layer: the 128-wide block against the transposed weight slice, plus the bias row, relu. -/
def fuse (ct : FVec F S64x128 .bf16) (wfc : Vec F S1x64x128 .bf16) (bfc : Vec F S1x64 .f32) : FVec F S64x64 .f32 :=
  maximumf (addf (matmul dot_S64x128_S128x64_S64x64_1_0_0_1_n_n none ct (transpose S128x64 [1, 0] (shapeCast S64x128 wfc shapeCasts_S1x64x128_S64x128) transposes_S64x128_p1_0_S128x64) (constant S64x64 .f32 0x00000000#32)) (broadcastTo S64x64 (shapeCast S1x64 (shapeCast S64 bfc shapeCasts_S1x64_S64) shapeCasts_S64_S1x64) broadcasts_S1x64_S64x64)) (broadcast S64x64 (Scalar.ofBits .f32 0x00000000#32))

/-- One head's fused block from the query block and the head's slices. -/
def headFused (x : FVec F S64x512 .bf16) (w : Vec F S1x64x512 .bf16) (b : Vec F S1x64 .f32) (k : Vec F S1x4096x64 .bf16)
    (wfc : Vec F S1x64x128 .bf16) (bfc : Vec F S1x64 .f32) : FVec F S64x64 .bf16 :=
  truncf .bf16 (fuse (catted (embQ x w b) (weights (embQ x w b) (keys k)) (keys k)) wfc bfc) bitsLt_bf16_f32

/-- The output block: the eight fused blocks side by side through the output projection, plus the residual, the bias row, relu. -/
def final (m0 m1 m2 m3 m4 m5 m6 m7 : FVec F S64x64 .bf16) (wo : Vec F S512x512 .bf16) (x : Vec F S64x512 .f32) (bo : Vec F S512 .f32) :
    FVec F S64x512 .f32 :=
  maximumf (addf (addf x (matmul dot_S64x512_S512x512_S64x512_1_0_0_1_n_n none (concatenate S64x512 1 [⟨S64x64, m0⟩, ⟨S64x64, m1⟩, ⟨S64x64, m2⟩, ⟨S64x64, m3⟩, ⟨S64x64, m4⟩, ⟨S64x64, m5⟩, ⟨S64x64, m6⟩, ⟨S64x64, m7⟩] concatenates_S64x64_S64x64_S64x64_S64x64_S64x64_S64x64_S64x64_S64x64_S64x512_d1) (shapeCast S512x512 wo shapeCasts_S512x512_S512x512) (constant S64x512 .f32 0x00000000#32))) (broadcastTo S64x512 (shapeCast S1x512 bo shapeCasts_S512_S1x512) broadcasts_S1x512_S64x512)) (broadcast S64x512 (Scalar.ofBits .f32 0x00000000#32))

end Cert.KernelIdeal.Heads

end
-- ==== Proof.Spec.lean ====
/-
  What the two programs compute, one query row at a time, on the extended reals.

  A row `r` of 512 features is embedded per head `h` as `emb We be r h e = (Σ_f r_f · We_{h,e,f}) + be_{h,e}` (64 coordinates).
  The keys `K h p` are the 4096 embedded rows of the second input. For one query row and one head:
  the scores are `s_p = Σ_e (q_e · 1/8) · K_{p,e}` (the scale sits on the query), the weights
  `w_p = exp (s_p − max s) / Σ_p' exp (s_p' − max s)`, the attended vector `a_e = Σ_p w_p · K_{p,e}`, the head's fused
  vector `max ((Σ_c cat_c · Wf_{e,c}) + bf_e) 0` over `cat = a ++ q` (128 coordinates), and the output row
  `max ((r_c + Σ_j fused_j · WoT_{j,c}) + bo_c) 0` with `fused` the eight heads' vectors side by side (512 coordinates).
  Nothing here depends on how many query rows there are: a block of rows and the whole array are read with the same functions.
-/
import Idealize.ShloMosaic.PureOps.Ideal
import Idealize.ShloMosaic.Lib.ValueIdx

noncomputable section

namespace Cert.Spec

open Idealize.ShloMosaic

/-- The scale on the query: the float `0.125`, exactly 1/8. -/
abbrev scale : EReal := Ideal.ofBits .f32 0x3E000000#32

/-- One 512-vector embedded by head `h`: `(Σ_f r_f · We_{h,e,f}) + be_{h,e}`. -/
def emb (We : Fin 8 → Fin 64 → Fin 512 → EReal) (be : Fin 8 → Fin 64 → EReal) (r : Fin 512 → EReal) (h : Fin 8) (e : Fin 64) : EReal :=
  (∑ f : Fin 512, r f * We h e f) + be h e

/-- The scores of one embedded query against one head's keys, the scale on the query. -/
def score (q : Fin 64 → EReal) (k : Fin 4096 → Fin 64 → EReal) (p : Fin 4096) : EReal :=
  ∑ e : Fin 64, (q e * scale) * k p e

/-- The softmax of a row of scores: the maximum is folded from −∞. -/
def weight (s : Fin 4096 → EReal) (p : Fin 4096) : EReal :=
  Ideal.div (Ideal.exp (s p - Finset.univ.fold max ⊥ s)) (∑ p' : Fin 4096, Ideal.exp (s p' - Finset.univ.fold max ⊥ s))

/-- The keys averaged by the weights. -/
def attend (w : Fin 4096 → EReal) (k : Fin 4096 → Fin 64 → EReal) (e : Fin 64) : EReal :=
  ∑ p : Fin 4096, w p * k p e

/-- Two 64-vectors side by side. -/
def cat (a q : Fin 64 → EReal) (c : Fin 128) : EReal :=
  if hc : c.val < 64 then a ⟨c.val, hc⟩ else q ⟨c.val - 64, by have := c.isLt; omega⟩

/-- One head's fusing layer on the 128-vector `ct`. -/
def mlp (Wf : Fin 64 → Fin 128 → EReal) (bf : Fin 64 → EReal) (ct : Fin 128 → EReal) (e : Fin 64) : EReal :=
  max ((∑ c : Fin 128, ct c * Wf e c) + bf e) 0

section Row

variable (We : Fin 8 → Fin 64 → Fin 512 → EReal) (be : Fin 8 → Fin 64 → EReal) (K : Fin 8 → Fin 4096 → Fin 64 → EReal)
  (Wf : Fin 8 → Fin 64 → Fin 128 → EReal) (bf : Fin 8 → Fin 64 → EReal) (WoT : Fin 512 → Fin 512 → EReal) (bo : Fin 512 → EReal)
  (r : Fin 512 → EReal)

/-- Head `h`'s attention weights of the query row `r`. -/
def headW (h : Fin 8) (p : Fin 4096) : EReal :=
  weight (score (emb We be r h) (K h)) p

/-- Head `h`'s fused vector of the query row `r`. -/
def headMlp (h : Fin 8) (e : Fin 64) : EReal :=
  mlp (Wf h) (bf h) (cat (attend (headW We be K r h) (K h)) (emb We be r h)) e

/-- The eight heads' fused vectors side by side: coordinate `j` is head `j / 64`, coordinate `j % 64`. -/
def fused (j : Fin 512) : EReal :=
  headMlp We be K Wf bf r ⟨j.val / 64, by have := j.isLt; omega⟩ ⟨j.val % 64, Nat.mod_lt _ (by norm_num)⟩

/-- The output row: residual, output projection (`WoT j c` the weight from fused coordinate `j` to output `c`), bias, relu. -/
def outRow (c : Fin 512) : EReal :=
  max ((r c + ∑ j : Fin 512, fused We be K Wf bf r j * WoT j c) + bo c) 0

end Row

/-! ## The two results as functions of the eight argument arrays -/

section Arrays

open Idealize.ShloMosaic.ValueIdx

variable (A0 : (⟨2, ![2048, 512]⟩ : Shape).Idx → EReal) (A1 : (⟨3, ![1, 4096, 512]⟩ : Shape).Idx → EReal)
  (A2 : (⟨3, ![8, 64, 512]⟩ : Shape).Idx → EReal) (A3 : (⟨2, ![8, 64]⟩ : Shape).Idx → EReal)
  (A4 : (⟨3, ![8, 64, 128]⟩ : Shape).Idx → EReal) (A5 : (⟨2, ![8, 64]⟩ : Shape).Idx → EReal)
  (A6 : (⟨2, ![512, 512]⟩ : Shape).Idx → EReal) (A7 : (⟨1, ![512]⟩ : Shape).Idx → EReal)

/-- The embedding weights and biases by coordinates. -/
def embW : Fin 8 → Fin 64 → Fin 512 → EReal := fun h e f => A2 (ix3 h e f)
def embB : Fin 8 → Fin 64 → EReal := fun h e => A3 (ix2 h e)

/-- The embedded keys: row `p` of the second input (its leading axis has one entry) embedded by head `h`. -/
def keysArr : Fin 8 → Fin 4096 → Fin 64 → EReal :=
  fun h p e => emb (embW A2) (embB A3) (fun f => A1 (ix3 (0 : Fin 1) p f)) h e

/-- The attention weights, [query row, head, key]. -/
def wArr : (⟨3, ![2048, 8, 4096]⟩ : Shape).Idx → EReal :=
  fun i => headW (embW A2) (embB A3) (keysArr A1 A2 A3) (fun f => A0 (ix2 (i 0) f)) (i 1) (i 2)

/-- The output rows, [query row, coordinate]; the output projection is read transposed: weight (j → c) is `A6 (c, j)`. -/
def outArr : (⟨2, ![2048, 512]⟩ : Shape).Idx → EReal :=
  fun i => outRow (embW A2) (embB A3) (keysArr A1 A2 A3) (fun h e c => A4 (ix3 h e c)) (fun h e => A5 (ix2 h e))
    (fun j c => A6 (ix2 c j)) (fun c => A7 (ix1 c)) (fun f => A0 (ix2 (i 0) f)) (i 1)

end Arrays

end Cert.Spec

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.HeadsAt.lean ====
/-
  The per-head vector functions of the kernel, read at an index on the extended reals: each is the corresponding
  row-level function of the specification applied to the rows of its operands. Changes of float format are the identity
  here, a matrix product into a zero accumulator is the plain sum over the contracted coordinate, a row maximum is the fold
  of `max` from −∞ over the row and a row sum the plain sum, and a keep-dims column is read at its row.
-/
import proofs.«169984_j1580547972770_2_alg».proof.Proof.Heads
import proofs.«169984_j1580547972770_2_alg».proof.Proof.Spec
import proofs.«169984_j1580547972770_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Heads

open Cert.KernelIdeal Cert.KernelIdeal.Gen Idealize.ShloMosaic Idealize.ShloMosaic.ValueIdx

/-! ## A plain matrix product read at an index -/

section Plain

variable {M K N : ℕ} (D : DotDims ⟨2, ![M, K]⟩ ⟨2, ![K, N]⟩ ⟨2, ![M, N]⟩)

/-- A coordinate of a rank-2 index depends on the axis only through its number. -/
private theorem idx2_val_congr {n0 n1 : ℕ} (j : (⟨2, ![n0, n1]⟩ : Shape).Idx) (p q : ℕ) (hp : p < 2) (hq : q < 2) (h : p = q) :
    (j ⟨p, hp⟩).val = (j ⟨q, hq⟩).val := by subst h; rfl

/-- In a plain product (rows × contraction against contraction × columns) the left operand's row is the result's row. -/
private theorem plain_lhs0 (hlb : D.lhsBatch = []) (hln : D.lhsNonContracting = [0])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  exact idx2_val_congr j _ _ _ _ (by simp [hlb, hln])

/-- … and the right operand's column is the result's column. -/
private theorem plain_rhs1 (hrb : D.rhsBatch = []) (hlb : D.lhsBatch = []) (hln : D.lhsNonContracting = [0]) (hrn : D.rhsNonContracting = [1])
    (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  exact idx2_val_congr j _ _ _ _ (by simp [hlb, hln, hrn])

/-- A plain matrix product into the zero accumulator, read at (r, c): the sum over the contracted coordinate k of the
    left operand at (r, k) times the right operand at (k, c). -/
private theorem matmul_plain_apply {φ₁ φ₂ : FTy}
    (hlb : D.lhsBatch = []) (hrb : D.rhsBatch = []) (hln : D.lhsNonContracting = [0]) (hrn : D.rhsNonContracting = [1])
    (hlc : D.lhsContracting = [1]) (hrc : D.rhsContracting = [0])
    (hr : D.contr.rank = 1) (hs : D.contr.size ⟨0, by omega⟩ = K)
    (lhs : FVec Ideal ⟨2, ![M, K]⟩ φ₁) (rhs : FVec Ideal ⟨2, ![K, N]⟩ φ₂) (r : Fin M) (c : Fin N) :
    matmul D none lhs rhs (constant ⟨2, ![M, N]⟩ .f32 0x00000000#32) (ix2 r c) = ∑ k : Fin K, lhs (ix2 r k) * rhs (ix2 k c) := by
  refine (Ideal.matmul_constant_zero_apply D none lhs rhs (ix2 r c)).trans ?_
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact plain_lhs0 D hlb hln _ _
    | ⟨1, _⟩ => exact (D.lhsIdx_val_of_single hlc _ _).trans hk)
  have er : D.rhsIdx (ix2 r c) ((contrEquiv1 D K hr hs).symm k) = ix2 k c := funext fun a => Fin.ext (by
    match a with
    | ⟨0, _⟩ => exact (D.rhsIdx_val_of_single hrc _ _).trans hk
    | ⟨1, _⟩ => exact plain_rhs1 D hrb hlb hln hrn _ _)
  rw [el, er]

end Plain

/-! ## The weight slices and bias rows read at an index -/

/-- A head's 64×512 weight slice, its unit axis dropped and transposed, read at (f, e): the slice at (0, e, f). -/
private theorem wT512_apply (w : Vec Ideal S1x64x512 .bf16) (f : Fin 512) (e : Fin 64) :
    transpose S512x64 [1, 0] (shapeCast S64x512 w shapeCasts_S1x64x512_S64x512) transposes_S64x512_p1_0_S512x64 (ix2 f e)
      = w (ix3 (0 : Fin 1) e f) := by
  refine (transpose_apply [1, 0] _ transposes_S64x512_p1_0_S512x64 (ix2 f e) (ix2 e f) fun b => ?_).trans ?_
  · match b with
    | ⟨0, _⟩ => rfl
    | ⟨1, _⟩ => rfl
  · refine shapeCast_apply w shapeCasts_S1x64x512_S64x512 (ix2 e f) (ix3 (0 : Fin 1) e f) ?_
    rw [Shape.rowMajor_val_three, Shape.rowMajor_val_two]
    show (0 * 64 + e.val) * 512 + f.val = e.val * 512 + f.val
    omega

/-- A head's 64×128 fusing slice, its unit axis dropped and transposed, read at (c, e): the slice at (0, e, c). -/
private theorem wT128_apply (w : Vec Ideal S1x64x128 .bf16) (c : Fin 128) (e : Fin 64) :
    transpose S128x64 [1, 0] (shapeCast S64x128 w shapeCasts_S1x64x128_S64x128) transposes_S64x128_p1_0_S128x64 (ix2 c e)
      = w (ix3 (0 : Fin 1) e c) := by
  refine (transpose_apply [1, 0] _ transposes_S64x128_p1_0_S128x64 (ix2 c e) (ix2 e c) fun b => ?_).trans ?_
  · match b with
    | ⟨0, _⟩ => rfl
    | ⟨1, _⟩ => rfl
  · refine shapeCast_apply w shapeCasts_S1x64x128_S64x128 (ix2 e c) (ix3 (0 : Fin 1) e c) ?_
    rw [Shape.rowMajor_val_three, Shape.rowMajor_val_two]
    show (0 * 64 + e.val) * 128 + c.val = e.val * 128 + c.val
    omega

/-- A 1×64 bias row flattened, restored and laid along the R rows of an R×64 block, read at (r, e): the row at (0, e). -/
private theorem bias_apply {R : ℕ} (b : Vec Ideal S1x64 .f32) (hb : S1x64.Broadcasts ⟨2, ![R, 64]⟩) (r : Fin R) (e : Fin 64) :
    broadcastTo ⟨2, ![R, 64]⟩ (shapeCast S1x64 (shapeCast S64 b shapeCasts_S1x64_S64) shapeCasts_S64_S1x64) hb (ix2 r e)
      = b (ix2 (0 : Fin 1) e) := by
  refine (broadcastTo_apply _ hb (ix2 r e) (ix2 (0 : Fin 1) e) fun ax => ?_).trans ?_
  · match ax with
    | ⟨0, _⟩ => rfl
    | ⟨1, _⟩ => rfl
  · refine (shapeCast_apply _ shapeCasts_S64_S1x64 (ix2 (0 : Fin 1) e) (ix1 e) ?_).trans ?_
    · rw [Shape.rowMajor_val_one, Shape.rowMajor_val_two]
      show e.val = 0 * 64 + e.val
      omega
    · refine shapeCast_apply b shapeCasts_S1x64_S64 (ix1 e) (ix2 (0 : Fin 1) e) ?_
      rw [Shape.rowMajor_val_one, Shape.rowMajor_val_two]
      show 0 * 64 + e.val = e.val
      omega

/-! ## Row maxima, row sums and the softmax's three stages read at an index -/

/-- The index a row reduction of a 64×4096 block reads at row r and reduced coordinate k is (r, k). -/
private theorem lift_row (r : Fin 64) (k : Fin 4096) :
    reduces_S64x4096_S64.lift (ix1 r) k = ix2 r k :=
  funext fun a => Fin.ext (by
    match a with
    | ⟨0, _⟩ => rfl
    | ⟨1, _⟩ => rfl)

/-- The f32 word of −∞ is the bottom of the extended reals. -/
private theorem ofBits_negInf : Ideal.ofBits .f32 0xFF800000#32 = ⊥ := by simp [Ideal.ofBits, Ideal.ieee]

/-- The row sums of a 64×4096 block kept as a column and laid along the columns, read at (r, p): the sum of row r. -/
private theorem rowSum_apply (v : FVec Ideal S64x4096 .f32) (r : Fin 64) (p : Fin 4096) :
    broadcastTo S64x4096 (shapeCast S64x1 (multiReduction .add [1] S64 v 0x00000000#32 reduces_S64x4096_S64 (.inl rfl) rfl) shapeCasts_S64_S64x1) broadcasts_S64x1_S64x4096 (ix2 r p)
      = ∑ p' : Fin 4096, v (ix2 r p') := by
  refine (Cert.Keepdims.broadcastTo_a1_ab_apply _ broadcasts_S64x1_S64x4096 r p).trans ?_
  refine (Cert.Keepdims.shapeCast_a_a1_apply _ shapeCasts_S64_S64x1 r (0 : Fin 1)).trans ?_
  refine (Ideal.multiReduction_add_single v _ reduces_S64x4096_S64 (.inl rfl) rfl (ix1 r)).trans ?_
  exact Finset.sum_congr rfl fun k _ => congrArg v (lift_row r k)

/-- The row maxima likewise: the fold of max from −∞ over row r. -/
private theorem rowMax_apply (v : FVec Ideal S64x4096 .f32) (r : Fin 64) (p : Fin 4096) :
    broadcastTo S64x4096 (shapeCast S64x1 (multiReduction .maximumf [1] S64 v 0xFF800000#32 reduces_S64x4096_S64 (.inl rfl) rfl) shapeCasts_S64_S64x1) broadcasts_S64x1_S64x4096 (ix2 r p)
      = Finset.univ.fold max ⊥ (fun p' : Fin 4096 => v (ix2 r p')) := by
  refine (Cert.Keepdims.broadcastTo_a1_ab_apply _ broadcasts_S64x1_S64x4096 r p).trans ?_
  refine (Cert.Keepdims.shapeCast_a_a1_apply _ shapeCasts_S64_S64x1 r (0 : Fin 1)).trans ?_
  refine (Ideal.multiReduction_maximumf_single v _ reduces_S64x4096_S64 (.inl rfl) rfl (ix1 r)).trans ?_
  have hf : (v ∘ reduces_S64x4096_S64.lift (ix1 r)) = fun p' : Fin 4096 => v (ix2 r p') :=
    funext fun k => congrArg v (lift_row r k)
  exact congrArg₂ (fun b f => Finset.univ.fold max b f) ofBits_negInf hf

/-- The keys transposed, read at (e, p): the keys at (p, e). -/
private theorem kT_apply (k : FVec Ideal S4096x64 .bf16) (e : Fin 64) (p : Fin 4096) :
    transpose S64x4096 [1, 0] k transposes_S4096x64_p1_0_S64x4096 (ix2 e p) = k (ix2 p e) :=
  transpose_apply [1, 0] k transposes_S4096x64_p1_0_S64x4096 (ix2 e p) (ix2 p e) fun b => by
    match b with
    | ⟨0, _⟩ => rfl
    | ⟨1, _⟩ => rfl

/-- Entry (r, p) of the scores: the scaled query row r against key row p. -/
private theorem scores_apply (q : FVec Ideal S64x64 .f32) (k : FVec Ideal S4096x64 .bf16) (r : Fin 64) (p : Fin 4096) :
    scores q k (ix2 r p) = Cert.Spec.score (fun e => q (ix2 r e)) (fun p e => k (ix2 p e)) p := by
  unfold scores Cert.Spec.score
  refine (matmul_plain_apply dot_S64x64_S64x4096_S64x4096_1_0_0_1_n_n rfl rfl rfl rfl rfl rfl rfl rfl _ _ r p).trans ?_
  exact Finset.sum_congr rfl fun e _ => congrArg₂ (· * ·) rfl (kT_apply k e p)

/-- Entry (r, p) of the exponentials: the score less its row's maximum, exponentiated. -/
private theorem expo_apply (s : FVec Ideal S64x4096 .f32) (r : Fin 64) (p : Fin 4096) :
    expo s (ix2 r p) = Ideal.exp (s (ix2 r p) - Finset.univ.fold max ⊥ (fun p' : Fin 4096 => s (ix2 r p'))) := by
  unfold expo
  exact congrArg Ideal.exp (congrArg (s (ix2 r p) - ·) (rowMax_apply s r p))

/-- Entry (r, p) of a block divided by its row sums. -/
private theorem normd_apply (v : FVec Ideal S64x4096 .f32) (r : Fin 64) (p : Fin 4096) :
    normd v (ix2 r p) = Ideal.div (v (ix2 r p)) (∑ p' : Fin 4096, v (ix2 r p')) := by
  unfold normd
  exact congrArg (Ideal.div (v (ix2 r p))) (rowSum_apply v r p)

/-! ## The output layer's operands read at an index -/

/-- The output bias, a 512-vector as a 1×512 row laid along the 64 rows, read at (r, c): the vector at c. -/
private theorem biasOut_apply (bo : Vec Ideal S512 .f32) (r : Fin 64) (c : Fin 512) :
    broadcastTo S64x512 (shapeCast S1x512 bo shapeCasts_S512_S1x512) broadcasts_S1x512_S64x512 (ix2 r c) = bo (ix1 c) := by
  refine (broadcastTo_apply _ broadcasts_S1x512_S64x512 (ix2 r c) (ix2 (0 : Fin 1) c) fun ax => ?_).trans ?_
  · match ax with
    | ⟨0, _⟩ => rfl
    | ⟨1, _⟩ => rfl
  · refine shapeCast_apply bo shapeCasts_S512_S1x512 (ix2 (0 : Fin 1) c) (ix1 c) ?_
    rw [Shape.rowMajor_val_one, Shape.rowMajor_val_two]
    show c.val = 0 * 512 + c.val
    omega

/-- The eight fused blocks side by side, read at (r, j): block j / 64 at (r, j % 64). -/
private theorem cat8_apply (m0 m1 m2 m3 m4 m5 m6 m7 : FVec Ideal S64x64 .bf16) (r : Fin 64) (j : Fin 512) :
    concatenate S64x512 1 [⟨S64x64, m0⟩, ⟨S64x64, m1⟩, ⟨S64x64, m2⟩, ⟨S64x64, m3⟩, ⟨S64x64, m4⟩, ⟨S64x64, m5⟩, ⟨S64x64, m6⟩, ⟨S64x64, m7⟩] concatenates_S64x64_S64x64_S64x64_S64x64_S64x64_S64x64_S64x64_S64x64_S64x512_d1 (ix2 r j)
      = (![m0, m1, m2, m3, m4, m5, m6, m7] ⟨j.val / 64, by have := j.isLt; omega⟩) (ix2 r ⟨j.val % 64, Nat.mod_lt _ (by norm_num)⟩) := by
  refine concatenate_ofFn_apply (t := S64x512) (s₁ := S64x64) 1 ![m0, m1, m2, m3, m4, m5, m6, m7] concatenates_S64x64_S64x64_S64x64_S64x64_S64x64_S64x64_S64x64_S64x64_S64x512_d1 rfl 64 rfl (ix2 r j)
    ⟨j.val / 64, by have := j.isLt; omega⟩ rfl (ix2 r ⟨j.val % 64, Nat.mod_lt _ (by norm_num)⟩) rfl (fun b hb => ?_)
  match b, hb with
  | ⟨0, _⟩, _ => rfl
  | ⟨1, _⟩, hb => exact absurd rfl hb

/-! ## The seven readings -/

/-- Region 0: entry (0, n, e) of a head's slab is row `n` of the block against row `e` of the weight slice, plus the bias. -/
theorem embRows_apply (x : FVec Ideal S512x512 .bf16) (w : Vec Ideal S1x64x512 .bf16) (b : Vec Ideal S1x64 .f32)
    (n : Fin 512) (e : Fin 64) :
    embRows x w b (ix3 (0 : Fin 1) n e) = (∑ f : Fin 512, x (ix2 n f) * w (ix3 (0 : Fin 1) e f)) + b (ix2 (0 : Fin 1) e) := by
  unfold embRows
  refine (shapeCast_apply _ shapeCasts_S512x64_S1x512x64 (ix3 (0 : Fin 1) n e) (ix2 n e) ?_).trans ?_
  · rw [Shape.rowMajor_val_three, Shape.rowMajor_val_two]
    show n.val * 64 + e.val = (0 * 512 + n.val) * 64 + e.val
    omega
  · rw [truncf_apply, addf_apply]
    congr 1
    · refine (matmul_plain_apply dot_S512x512_S512x64_S512x64_1_0_0_1_n_n rfl rfl rfl rfl rfl rfl rfl rfl x _ n e).trans ?_
      exact Finset.sum_congr rfl fun f _ => congrArg (x (ix2 n f) * ·) (wT512_apply w f e)
    · exact bias_apply b broadcasts_S1x64_S512x64 n e

/-- Entry (r, e) of the embedded queries. -/
theorem embQ_apply (x : FVec Ideal S64x512 .bf16) (w : Vec Ideal S1x64x512 .bf16) (b : Vec Ideal S1x64 .f32)
    (r : Fin 64) (e : Fin 64) :
    embQ x w b (ix2 r e) = (∑ f : Fin 512, x (ix2 r f) * w (ix3 (0 : Fin 1) e f)) + b (ix2 (0 : Fin 1) e) := by
  unfold embQ
  rw [addf_apply]
  congr 1
  · refine (matmul_plain_apply dot_S64x512_S512x64_S64x64_1_0_0_1_n_n rfl rfl rfl rfl rfl rfl rfl rfl x _ r e).trans ?_
    exact Finset.sum_congr rfl fun f _ => congrArg (x (ix2 r f) * ·) (wT512_apply w f e)
  · exact bias_apply b broadcasts_S1x64_S64x64 r e

/-- The keys with the unit axis dropped. -/
theorem keys_apply (k : Vec Ideal S1x4096x64 .bf16) (p : Fin 4096) (e : Fin 64) :
    keys k (ix2 p e) = k (ix3 (0 : Fin 1) p e) := by
  unfold keys
  refine shapeCast_apply k shapeCasts_S1x4096x64_S4096x64 (ix2 p e) (ix3 (0 : Fin 1) p e) ?_
  rw [Shape.rowMajor_val_three, Shape.rowMajor_val_two]
  show (0 * 4096 + p.val) * 64 + e.val = p.val * 64 + e.val
  omega

/-- Entry (r, p) of the attention weights: the softmax of row `r`'s scores. -/
theorem weights_apply (q : FVec Ideal S64x64 .f32) (k : FVec Ideal S4096x64 .bf16) (r : Fin 64) (p : Fin 4096) :
    weights q k (ix2 r p) = Cert.Spec.weight (Cert.Spec.score (fun e => q (ix2 r e)) (fun p e => k (ix2 p e))) p := by
  unfold weights Cert.Spec.weight
  rw [normd_apply]
  simp only [expo_apply, scores_apply]

/-- Entry (r, c) of the attended keys and the embedded queries side by side. -/
theorem catted_apply (q : FVec Ideal S64x64 .f32) (w : FVec Ideal S64x4096 .f32) (k : FVec Ideal S4096x64 .bf16)
    (r : Fin 64) (c : Fin 128) :
    catted q w k (ix2 r c)
      = Cert.Spec.cat (Cert.Spec.attend (fun p => w (ix2 r p)) (fun p e => k (ix2 p e))) (fun e => q (ix2 r e)) c := by
  unfold catted Cert.Spec.cat
  by_cases hc : c.val < 64
  · rw [dif_pos hc]
    refine (concatenate_pair_apply_left 1 _ _ concatenates_S64x64_S64x64_S64x128_d1 (ix2 r c) rfl (ix2 r ⟨c.val, hc⟩) fun b => ?_).trans ?_
    · match b with
      | ⟨0, _⟩ => rfl
      | ⟨1, _⟩ => rfl
    · unfold Cert.Spec.attend
      exact matmul_plain_apply dot_S64x4096_S4096x64_S64x64_1_0_0_1_n_n rfl rfl rfl rfl rfl rfl rfl rfl
        (truncf .bf16 w bitsLt_bf16_f32) k r ⟨c.val, hc⟩
  · rw [dif_neg hc]
    refine (concatenate_pair_apply_right 1 _ _ concatenates_S64x64_S64x64_S64x128_d1 (ix2 r c) rfl rfl
      (ix2 r ⟨c.val - 64, by have := c.isLt; omega⟩) (fun b hb => ?_) ?_).trans ?_
    · match b, hb with
      | ⟨0, _⟩, _ => rfl
      | ⟨1, _⟩, hb => exact absurd rfl hb
    · show c.val - 64 + 64 = c.val
      omega
    · rfl

/-- Entry (r, e) of a head's fusing layer. -/
theorem fuse_apply (ct : FVec Ideal S64x128 .bf16) (wfc : Vec Ideal S1x64x128 .bf16) (bfc : Vec Ideal S1x64 .f32)
    (r : Fin 64) (e : Fin 64) :
    fuse ct wfc bfc (ix2 r e)
      = Cert.Spec.mlp (fun e c => wfc (ix3 (0 : Fin 1) e c)) (fun e => bfc (ix2 (0 : Fin 1) e)) (fun c => ct (ix2 r c)) e := by
  unfold fuse Cert.Spec.mlp
  rw [maximumf_apply, addf_apply, broadcast_apply]
  refine congrArg₂ max (congrArg₂ (· + ·) ?_ ?_) Ideal.ofBits_zero_f32
  · refine (matmul_plain_apply dot_S64x128_S128x64_S64x64_1_0_0_1_n_n rfl rfl rfl rfl rfl rfl rfl rfl ct _ r e).trans ?_
    exact Finset.sum_congr rfl fun c _ => congrArg (ct (ix2 r c) * ·) (wT128_apply wfc c e)
  · exact bias_apply bfc broadcasts_S1x64_S64x64 r e

/-- Entry (r, c) of the output block: fused coordinate `j` sits in block `j / 64` at column `j % 64`. -/
theorem final_apply (m0 m1 m2 m3 m4 m5 m6 m7 : FVec Ideal S64x64 .bf16) (wo : Vec Ideal S512x512 .bf16)
    (x : Vec Ideal S64x512 .f32) (bo : Vec Ideal S512 .f32) (r : Fin 64) (c : Fin 512) :
    final m0 m1 m2 m3 m4 m5 m6 m7 wo x bo (ix2 r c)
      = max ((x (ix2 r c) + ∑ j : Fin 512,
              (![m0, m1, m2, m3, m4, m5, m6, m7] ⟨j.val / 64, by have := j.isLt; omega⟩) (ix2 r ⟨j.val % 64, Nat.mod_lt _ (by norm_num)⟩)
                * wo (ix2 j c)) + bo (ix1 c)) 0 := by
  unfold final
  rw [maximumf_apply, addf_apply, addf_apply, broadcast_apply]
  refine congrArg₂ max (congrArg₂ (· + ·) (congrArg (x (ix2 r c) + ·) ?_) (biasOut_apply bo r c)) Ideal.ofBits_zero_f32
  refine (matmul_plain_apply dot_S64x512_S512x512_S64x512_1_0_0_1_n_n rfl rfl rfl rfl rfl rfl rfl rfl _ _ r c).trans ?_
  refine Finset.sum_congr rfl fun j _ => congrArg₂ (· * ·) (cat8_apply m0 m1 m2 m3 m4 m5 m6 m7 r j) ?_
  exact shapeCast_apply wo shapeCasts_S512x512_S512x512 (ix2 j c) (ix2 j c) rfl

end Cert.KernelIdeal.Heads

end
-- ==== Proof.PayEq0.lean ====
/-
  Region 0: each stored slab is the one-head embedding `Heads.embRows` of the narrowed input block and the head's slices.
-/
import proofs.«169984_j1580547972770_2_alg».proof.Proof.Gen.KernelIdeal.Frame
import proofs.«169984_j1580547972770_2_alg».proof.Proof.Heads

noncomputable section

namespace Cert.KernelIdeal.PayEq

open Cert.KernelIdeal Cert.KernelIdeal.Gen Idealize.ShloMosaic

variable {F : FTy → Type} [FloatOps F]

/-- Head 0's slab is the head function of the narrowed block. -/
theorem k0_pay3_eq (v0 : Vec F S512x512 .f32) (w : Vec F S1x64x512 .bf16) (b : Vec F S1x64 .f32) :
    k0_pay3 v0 w b = Heads.embRows (k0_pay2 v0) w b := rfl

/-- Head 1's slab. -/
theorem k0_pay4_eq (v0 : Vec F S512x512 .f32) (w : Vec F S1x64x512 .bf16) (b : Vec F S1x64 .f32) :
    k0_pay4 v0 w b = Heads.embRows (k0_pay2 v0) w b := rfl

/-- Head 2's slab: the weight slice arrives with its unit axis already dropped. -/
theorem k0_pay6_eq (x : FVec F S512x512 .bf16) (w : Vec F S1x64x512 .bf16) (b : Vec F S1x64 .f32) :
    k0_pay6 x (k0_pay5 w) b = Heads.embRows x w b := rfl

/-- Head 3's slab. -/
theorem k0_pay7_eq (x : FVec F S512x512 .bf16) (w : Vec F S1x64x512 .bf16) (b : Vec F S1x64 .f32) :
    k0_pay7 x w b = Heads.embRows x w b := rfl

/-- Head 4's slab. -/
theorem k0_pay8_eq (x : FVec F S512x512 .bf16) (w : Vec F S1x64x512 .bf16) (b : Vec F S1x64 .f32) :
    k0_pay8 x w b = Heads.embRows x w b := rfl

/-- Head 5's slab. -/
theorem k0_pay9_eq (x : FVec F S512x512 .bf16) (w : Vec F S1x64x512 .bf16) (b : Vec F S1x64 .f32) :
    k0_pay9 x w b = Heads.embRows x w b := rfl

/-- Head 6's slab. -/
theorem k0_pay10_eq (x : FVec F S512x512 .bf16) (w : Vec F S1x64x512 .bf16) (b : Vec F S1x64 .f32) :
    k0_pay10 x w b = Heads.embRows x w b := rfl

/-- Head 7's slab: the product and the bias row arrive separately. -/
theorem k0_pay1_eq (x : FVec F S512x512 .bf16) (w : Vec F S1x64x512 .bf16) (b : Vec F S1x64 .f32) :
    k0_pay1 (k0_pay11 x w) (k0_pay12 b) = Heads.embRows x w b := rfl

end Cert.KernelIdeal.PayEq

end
-- ==== Proof.PayEqIdx.lean ====
/-
  Where a unit-stride rectangle places an index given by its coordinates: at the offsets plus the coordinates, axis by axis.
-/
import Idealize.ShloMosaic.Lib.ValueIdx
import Idealize.ShloMosaic.Lib.Pipeline.Value

namespace Cert.KernelIdeal.PayEq

open Idealize.ShloMosaic Idealize.ShloMosaic.ValueIdx

/-- A unit-stride rectangle of a rank-3 shape places (a, b, c) at the offsets plus the coordinates. -/
theorem idx_unit3 {n0 n1 n2 m0 m1 m2 : Nat} (o0 o1 o2 : Nat)
    (inb : ∀ a, (![o0, o1, o2] : Fin 3 → Nat) a + (![m0, m1, m2] : Fin 3 → Nat) a ≤ (⟨3, ![n0, n1, n2]⟩ : Shape).size a)
    (a : Fin m0) (b : Fin m1) (c : Fin m2) (a' : Fin n0) (b' : Fin n1) (c' : Fin n2)
    (ha : a'.val = o0 + a.val) (hb : b'.val = o1 + b.val) (hc : c'.val = o2 + c.val) :
    (Rect.unit (s := ⟨3, ![n0, n1, n2]⟩) ![o0, o1, o2] ![m0, m1, m2] inb).idx (ix3 a b c) = ix3 a' b' c' := by
  funext d
  match d with
  | ⟨0, _⟩ => exact Fin.ext (by show o0 + 1 * a.val = a'.val; omega)
  | ⟨1, _⟩ => exact Fin.ext (by show o1 + 1 * b.val = b'.val; omega)
  | ⟨2, _⟩ => exact Fin.ext (by show o2 + 1 * c.val = c'.val; omega)

/-- A unit-stride rectangle of a rank-2 shape places (a, b) at the offsets plus the coordinates. -/
theorem idx_unit2 {n0 n1 m0 m1 : Nat} (o0 o1 : Nat)
    (inb : ∀ a, (![o0, o1] : Fin 2 → Nat) a + (![m0, m1] : Fin 2 → Nat) a ≤ (⟨2, ![n0, n1]⟩ : Shape).size a)
    (a : Fin m0) (b : Fin m1) (a' : Fin n0) (b' : Fin n1)
    (ha : a'.val = o0 + a.val) (hb : b'.val = o1 + b.val) :
    (Rect.unit (s := ⟨2, ![n0, n1]⟩) ![o0, o1] ![m0, m1] inb).idx (ix2 a b) = ix2 a' b' := by
  funext d
  match d with
  | ⟨0, _⟩ => exact Fin.ext (by show o0 + 1 * a.val = a'.val; omega)
  | ⟨1, _⟩ => exact Fin.ext (by show o1 + 1 * b.val = b'.val; omega)

/-- A unit-stride rectangle of a rank-1 shape places a at the offset plus the coordinate. -/
theorem idx_unit1 {n0 m0 : Nat} (o0 : Nat)
    (inb : ∀ a, (![o0] : Fin 1 → Nat) a + (![m0] : Fin 1 → Nat) a ≤ (⟨1, ![n0]⟩ : Shape).size a)
    (a : Fin m0) (a' : Fin n0) (ha : a'.val = o0 + a.val) :
    (Rect.unit (s := ⟨1, ![n0]⟩) ![o0] ![m0] inb).idx (ix1 a) = ix1 a' := by
  funext d
  match d with
  | ⟨0, _⟩ => exact Fin.ext (by show o0 + 1 * a.val = a'.val; omega)

/-- The zero offsets of a rank-2 shape, as the constant function. -/
theorem offsets_zero2 : (![0, 0] : Fin 2 → Nat) = fun _ => 0 :=
  funext fun a => match a with | ⟨0, _⟩ => rfl | ⟨1, _⟩ => rfl

end Cert.KernelIdeal.PayEq
-- ==== Proof.PayEqBlk0.lean ====
/-
  Region 0's output block as one function of the block index: entry (h, n, e) is row `n` of the input block embedded by head `h`,
  and each stored slab is the tile of that function under the head's rectangle.
-/
import proofs.«169984_j1580547972770_2_alg».proof.Proof.Gen.KernelIdeal.Frame
import proofs.«169984_j1580547972770_2_alg».proof.Proof.HeadsAt
import proofs.«169984_j1580547972770_2_alg».proof.Proof.PayEq0
import proofs.«169984_j1580547972770_2_alg».proof.Proof.PayEqIdx

noncomputable section

namespace Cert.KernelIdeal.PayEq

open Cert.KernelIdeal Cert.KernelIdeal.Gen Idealize.ShloMosaic Idealize.ShloMosaic.ValueIdx

/-- The narrowed block of region 0 reads the block. -/
theorem k0_pay2_apply (v : Vec Ideal S512x512 .f32) (i : S512x512.Idx) : k0_pay2 v i = v i := by
  unfold k0_pay2
  rw [shapeCast_self]
  rfl

/-- Region 0's output block as one function of the block index. -/
def G0 (x0 : Vec Ideal S512x512 .f32) (x1 : Vec Ideal S8x64x512 .bf16) (x2 : Vec Ideal S8x64 .f32) : Vec Ideal S8x512x64 .bf16 :=
  fun y => Cert.Spec.emb (fun h e f => x1 (ix3 h e f)) (fun h e => x2 (ix2 h e)) (fun f => x0 (ix2 (y 1 : Fin 512) f)) (y 0 : Fin 8) (y 2 : Fin 64)

/-- Head `h`'s slab is the tile of that function under the head's rectangle. -/
theorem piece0 (x0 : Vec Ideal S512x512 .f32) (x1 : Vec Ideal S8x64x512 .bf16) (x2 : Vec Ideal S8x64 .f32) (h : Fin 8)
    (inbW : ∀ a, (![h.val, 0, 0] : Fin 3 → Nat) a + S1x64x512.size a ≤ S8x64x512.size a)
    (inbB : ∀ a, (![h.val, 0] : Fin 2 → Nat) a + S1x64.size a ≤ S8x64.size a)
    (inbO : ∀ a, (![h.val, 0, 0] : Fin 3 → Nat) a + S1x512x64.size a ≤ S8x512x64.size a)
    (x : (Rect.unit (s := S8x512x64) ![h.val, 0, 0] S1x512x64.size inbO).shape.Idx) :
    Heads.embRows (k0_pay2 (View.ld x0 r0_0)) (View.ld x1 (Rect.unit (s := S8x64x512) ![h.val, 0, 0] S1x64x512.size inbW))
        (View.ld x2 (Rect.unit (s := S8x64) ![h.val, 0] S1x64.size inbB)) x
      = G0 x0 x1 x2 ((Rect.unit (s := S8x512x64) ![h.val, 0, 0] S1x512x64.size inbO).emb x) := by
  obtain ⟨a, n, e, rfl⟩ : ∃ (a : Fin 1) (n : Fin 512) (e : Fin 64), x = ix3 a n e := ⟨x 0, x 1, x 2, eq_ix3 x⟩
  obtain rfl : a = 0 := Subsingleton.elim _ _
  refine (Heads.embRows_apply _ _ _ n e).trans ?_
  have eO : (Rect.unit (s := S8x512x64) ![h.val, 0, 0] S1x512x64.size inbO).emb (ix3 (0 : Fin 1) n e) = ix3 h n e :=
    idx_unit3 h.val 0 0 inbO 0 n e h n e (by simp) (by simp) (by simp)
  have eX : ∀ f : Fin 512, k0_pay2 (View.ld x0 r0_0) (ix2 n f) = x0 (ix2 n f) := fun f =>
    (k0_pay2_apply _ _).trans (congrArg x0 (idx_unit2 0 0 _ n f n f (by simp) (by simp)))
  have eW : ∀ f : Fin 512, View.ld x1 (Rect.unit (s := S8x64x512) ![h.val, 0, 0] S1x64x512.size inbW) (ix3 (0 : Fin 1) e f) = x1 (ix3 h e f) := fun f =>
    congrArg x1 (idx_unit3 h.val 0 0 inbW 0 e f h e f (by simp) (by simp) (by simp))
  have eB : View.ld x2 (Rect.unit (s := S8x64) ![h.val, 0] S1x64.size inbB) (ix2 (0 : Fin 1) e) = x2 (ix2 h e) :=
    congrArg x2 (idx_unit2 h.val 0 inbB 0 e h e (by simp) (by simp))
  rw [eO, eB]
  simp only [eX, eW]
  rfl

end Cert.KernelIdeal.PayEq

end
-- ==== Proof.PayEq1.lean ====
/-
  Region 1: each stored weights piece is `Heads.weights` of the narrowed query block and the head's slices, each fused block
  `Heads.headFused` of the same, and the stored output block `Heads.final` of the eight fused blocks. The body is cut into parts
  at fixed statement counts, so a head's chain is split across the payloads differently from head to head; unfolded, it is the same
  composition every time.
-/
import proofs.«169984_j1580547972770_2_alg».proof.Proof.Gen.KernelIdeal.Frame
import proofs.«169984_j1580547972770_2_alg».proof.Proof.Heads

noncomputable section

namespace Cert.KernelIdeal.PayEq

open Cert.KernelIdeal Cert.KernelIdeal.Gen Idealize.ShloMosaic

variable {F : FTy → Type} [FloatOps F]

/-! ## The attention weights, head by head -/

/-- Head 0 narrows the query block itself. -/
theorem k1_pay5_eq (v0 : Vec F S64x512 .f32) (w : Vec F S1x64x512 .bf16) (b : Vec F S1x64 .f32) (k : Vec F S1x4096x64 .bf16) :
    k1_pay5 v0 w b k = Heads.weights (Heads.embQ (k1_pay2 v0) w b) (Heads.keys k) := rfl

/-- Head 1. -/
theorem k1_pay11_eq (x : FVec F S64x512 .bf16) (w : Vec F S1x64x512 .bf16) (b : Vec F S1x64 .f32) (k : Vec F S1x4096x64 .bf16) :
    k1_pay11 x w b k = Heads.weights (Heads.embQ x w b) (Heads.keys k) := rfl

/-- Head 2. -/
theorem k1_pay17_eq (x : FVec F S64x512 .bf16) (w : Vec F S1x64x512 .bf16) (b : Vec F S1x64 .f32) (k : Vec F S1x4096x64 .bf16) :
    k1_pay17 x w b k = Heads.weights (Heads.embQ x w b) (Heads.keys k) := rfl

/-- Head 3: the exponentials and their normalisation arrive separately. -/
theorem k1_pay23_eq (x : FVec F S64x512 .bf16) (w : Vec F S1x64x512 .bf16) (b : Vec F S1x64 .f32) (k : Vec F S1x4096x64 .bf16) :
    k1_pay23 (k1_pay22 x w b k) = Heads.weights (Heads.embQ x w b) (Heads.keys k) := rfl

/-- Head 4: the scaled queries, the transposed keys and the zero accumulator arrive separately. -/
theorem k1_pay30_eq (x : FVec F S64x512 .bf16) (w : Vec F S1x64x512 .bf16) (b : Vec F S1x64 .f32) (k : Vec F S1x4096x64 .bf16) :
    k1_pay30 (k1_pay27 x w b) (k1_pay29 k) (constant S64x4096 .f32 0x00000000#32) = Heads.weights (Heads.embQ x w b) (Heads.keys k) := rfl

/-- Head 5: the scaled queries arrive separately. -/
theorem k1_pay36_eq (x : FVec F S64x512 .bf16) (w : Vec F S1x64x512 .bf16) (b : Vec F S1x64 .f32) (k : Vec F S1x4096x64 .bf16) :
    k1_pay36 (k1_pay34 x w b) k = Heads.weights (Heads.embQ x w b) (Heads.keys k) := rfl

/-- Head 6: the product and the bias row arrive separately. -/
theorem k1_pay42_eq (x : FVec F S64x512 .bf16) (w : Vec F S1x64x512 .bf16) (b : Vec F S1x64 .f32) (k : Vec F S1x4096x64 .bf16) :
    k1_pay42 (k1_pay38 x w) (k1_pay39 b) k = Heads.weights (Heads.embQ x w b) (Heads.keys k) := rfl

/-- Head 7: the weight slice arrives with its unit axis already dropped. -/
theorem k1_pay47_eq (x : FVec F S64x512 .bf16) (w : Vec F S1x64x512 .bf16) (b : Vec F S1x64 .f32) (k : Vec F S1x4096x64 .bf16) :
    k1_pay47 x (k1_pay44 w) b k = Heads.weights (Heads.embQ x w b) (Heads.keys k) := rfl

/-! ## The fused blocks, head by head -/

/-- Head 0 narrows the query block itself. -/
theorem k1_pay8_eq (v0 : Vec F S64x512 .f32) (w : Vec F S1x64x512 .bf16) (b : Vec F S1x64 .f32) (k : Vec F S1x4096x64 .bf16)
    (wfc : Vec F S1x64x128 .bf16) (bfc : Vec F S1x64 .f32) :
    k1_pay8 (k1_pay6 v0 w b k) (k1_pay7 wfc) bfc = Heads.headFused (k1_pay2 v0) w b k wfc bfc := rfl

/-- Head 1. -/
theorem k1_pay13_eq (x : FVec F S64x512 .bf16) (w : Vec F S1x64x512 .bf16) (b : Vec F S1x64 .f32) (k : Vec F S1x4096x64 .bf16) (wfc : Vec F S1x64x128 .bf16) (bfc : Vec F S1x64 .f32) :
    k1_pay13 (k1_pay12 x w b k) wfc bfc = Heads.headFused x w b k wfc bfc := rfl

/-- Head 2. -/
theorem k1_pay18_eq (x : FVec F S64x512 .bf16) (w : Vec F S1x64x512 .bf16) (b : Vec F S1x64 .f32) (k : Vec F S1x4096x64 .bf16) (wfc : Vec F S1x64x128 .bf16) (bfc : Vec F S1x64 .f32) :
    k1_pay18 (k1_pay15 x w b) (k1_pay16 k) (k1_pay17 x w b k) wfc bfc = Heads.headFused x w b k wfc bfc := rfl

/-- Head 3. -/
theorem k1_pay24_eq (x : FVec F S64x512 .bf16) (w : Vec F S1x64x512 .bf16) (b : Vec F S1x64 .f32) (k : Vec F S1x4096x64 .bf16) (wfc : Vec F S1x64x128 .bf16) (bfc : Vec F S1x64 .f32) :
    k1_pay24 (k1_pay20 x w b) (k1_pay21 k) (k1_pay22 x w b k) wfc bfc = Heads.headFused x w b k wfc bfc := rfl

/-- Head 4. -/
theorem k1_pay31_eq (x : FVec F S64x512 .bf16) (w : Vec F S1x64x512 .bf16) (b : Vec F S1x64 .f32) (k : Vec F S1x4096x64 .bf16) (wfc : Vec F S1x64x128 .bf16) (bfc : Vec F S1x64 .f32) :
    k1_pay31 (k1_pay26 x w b) (k1_pay27 x w b) (k1_pay28 k) (k1_pay29 k) (constant S64x4096 .f32 0x00000000#32) wfc bfc = Heads.headFused x w b k wfc bfc := rfl

/-- Head 5. -/
theorem k1_pay37_eq (x : FVec F S64x512 .bf16) (w : Vec F S1x64x512 .bf16) (b : Vec F S1x64 .f32) (k : Vec F S1x4096x64 .bf16) (wfc : Vec F S1x64x128 .bf16) (bfc : Vec F S1x64 .f32) :
    k1_pay37 (k1_pay33 x w b) (k1_pay34 x w b) k wfc bfc = Heads.headFused x w b k wfc bfc := rfl

/-- Head 6. -/
theorem k1_pay43_eq (x : FVec F S64x512 .bf16) (w : Vec F S1x64x512 .bf16) (b : Vec F S1x64 .f32) (k : Vec F S1x4096x64 .bf16) (wfc : Vec F S1x64x128 .bf16) (bfc : Vec F S1x64 .f32) :
    k1_pay43 (k1_pay38 x w) (k1_pay39 b) k wfc bfc = Heads.headFused x w b k wfc bfc := rfl

/-- The output block: head 7's fused block is narrowed inside the last payload. -/
theorem k1_pay1_eq (m0 m1 m2 m3 m4 m5 m6 : FVec F S64x64 .bf16) (x : FVec F S64x512 .bf16) (w : Vec F S1x64x512 .bf16) (b : Vec F S1x64 .f32) (k : Vec F S1x4096x64 .bf16) (wfc : Vec F S1x64x128 .bf16) (bfc : Vec F S1x64 .f32)
    (wo : Vec F S512x512 .bf16) (x0 : Vec F S64x512 .f32) (bo : Vec F S512 .f32) :
    k1_pay1 m0 m1 m2 m3 m4 m5 m6 (k1_pay48 x (k1_pay44 w) b k wfc bfc) wo x0 bo
      = Heads.final m0 m1 m2 m3 m4 m5 m6 (Heads.headFused x w b k wfc bfc) wo x0 bo := rfl

end Cert.KernelIdeal.PayEq

end
-- ==== Proof.PayEqBlk1.lean ====
/-
  Region 1, read at a row: one head's embedded queries, keys, attention weights and fused block, as functions of the slices the head
  loads, are the specification's row-level functions at that head; the weights block is one function of the block index, of which each
  stored piece is the tile under the head's rectangle; and the output block's row follows from the rows of the eight fused blocks.
-/
import proofs.«169984_j1580547972770_2_alg».proof.Proof.Gen.KernelIdeal.Frame
import proofs.«169984_j1580547972770_2_alg».proof.Proof.HeadsAt
import proofs.«169984_j1580547972770_2_alg».proof.Proof.PayEq1
import proofs.«169984_j1580547972770_2_alg».proof.Proof.PayEqIdx

noncomputable section

namespace Cert.KernelIdeal.PayEq

open Cert.KernelIdeal Cert.KernelIdeal.Gen Idealize.ShloMosaic Idealize.ShloMosaic.ValueIdx

/-! ## Region 1: one head's functions of the loaded slices, read at a row -/

/-- The narrowed query block reads the block. -/
theorem xb_apply (x0 : Vec Ideal S64x512 .f32) (r : Fin 64) (f : Fin 512) : (k1_pay2 (View.ld x0 r1_0)) (ix2 r f) = x0 (ix2 r f) :=
  congrArg x0 (idx_unit2 0 0 _ r f r f (by simp) (by simp))

/-- Row `r` of head `h`'s embedded queries is the embedding of row `r` of the query block. -/
theorem embQ_row (x0 : Vec Ideal S64x512 .f32) (x1 : Vec Ideal S8x64x512 .bf16) (x2 : Vec Ideal S8x64 .f32) (h : Fin 8)
    (inbW : ∀ a, (![h.val, 0, 0] : Fin 3 → Nat) a + S1x64x512.size a ≤ S8x64x512.size a) (inbB : ∀ a, (![h.val, 0] : Fin 2 → Nat) a + S1x64.size a ≤ S8x64.size a) (r : Fin 64) :
    (fun e => Heads.embQ (k1_pay2 (View.ld x0 r1_0)) (View.ld x1 (Rect.unit (s := S8x64x512) ![h.val, 0, 0] S1x64x512.size inbW)) (View.ld x2 (Rect.unit (s := S8x64) ![h.val, 0] S1x64.size inbB)) (ix2 r e))
      = Cert.Spec.emb (fun h e f => x1 (ix3 h e f)) (fun h e => x2 (ix2 h e)) (fun f => x0 (ix2 r f)) h := by
  funext e
  refine (Heads.embQ_apply _ _ _ r e).trans ?_
  have eX := xb_apply x0 r
  have eW : ∀ f : Fin 512, (View.ld x1 (Rect.unit (s := S8x64x512) ![h.val, 0, 0] S1x64x512.size inbW)) (ix3 (0 : Fin 1) e f) = x1 (ix3 h e f) := fun f =>
    congrArg x1 (idx_unit3 h.val 0 0 inbW 0 e f h e f (by simp) (by simp) (by simp))
  have eB : (View.ld x2 (Rect.unit (s := S8x64) ![h.val, 0] S1x64.size inbB)) (ix2 (0 : Fin 1) e) = x2 (ix2 h e) :=
    congrArg x2 (idx_unit2 h.val 0 inbB 0 e h e (by simp) (by simp))
  rw [eB]
  simp only [eX, eW]
  rfl

/-- Head `h`'s keys are the head's slab of the key array. -/
theorem keys_rows (x3 : Vec Ideal S8x4096x64 .bf16) (h : Fin 8) (inbK : ∀ a, (![h.val, 0, 0] : Fin 3 → Nat) a + S1x4096x64.size a ≤ S8x4096x64.size a) :
    (fun p e => Heads.keys (View.ld x3 (Rect.unit (s := S8x4096x64) ![h.val, 0, 0] S1x4096x64.size inbK)) (ix2 p e)) = fun (p : Fin 4096) (e : Fin 64) => x3 (ix3 h p e) := by
  funext p e
  exact (Heads.keys_apply _ p e).trans (congrArg x3 (idx_unit3 h.val 0 0 inbK 0 p e h p e (by simp) (by simp) (by simp)))

/-- Entry (r, p) of head `h`'s attention weights. -/
theorem weights_row (x0 : Vec Ideal S64x512 .f32) (x1 : Vec Ideal S8x64x512 .bf16) (x2 : Vec Ideal S8x64 .f32) (x3 : Vec Ideal S8x4096x64 .bf16) (h : Fin 8)
    (inbW : ∀ a, (![h.val, 0, 0] : Fin 3 → Nat) a + S1x64x512.size a ≤ S8x64x512.size a) (inbB : ∀ a, (![h.val, 0] : Fin 2 → Nat) a + S1x64.size a ≤ S8x64.size a) (inbK : ∀ a, (![h.val, 0, 0] : Fin 3 → Nat) a + S1x4096x64.size a ≤ S8x4096x64.size a) (r : Fin 64) (p : Fin 4096) :
    Heads.weights (Heads.embQ (k1_pay2 (View.ld x0 r1_0)) (View.ld x1 (Rect.unit (s := S8x64x512) ![h.val, 0, 0] S1x64x512.size inbW)) (View.ld x2 (Rect.unit (s := S8x64) ![h.val, 0] S1x64.size inbB))) (Heads.keys (View.ld x3 (Rect.unit (s := S8x4096x64) ![h.val, 0, 0] S1x4096x64.size inbK))) (ix2 r p)
      = Cert.Spec.headW (fun h e f => x1 (ix3 h e f)) (fun h e => x2 (ix2 h e)) (fun h p e => x3 (ix3 h p e)) (fun f => x0 (ix2 r f)) h p := by
  refine (Heads.weights_apply _ _ r p).trans ?_
  rw [embQ_row x0 x1 x2 h inbW inbB r, keys_rows x3 h inbK]
  rfl

/-- Entry (r, e) of head `h`'s fused block. -/
theorem headFused_row (x0 : Vec Ideal S64x512 .f32) (x1 : Vec Ideal S8x64x512 .bf16) (x2 : Vec Ideal S8x64 .f32) (x3 : Vec Ideal S8x4096x64 .bf16)
    (x4 : Vec Ideal S8x64x128 .bf16) (x5 : Vec Ideal S8x64 .f32) (h : Fin 8)
    (inbW : ∀ a, (![h.val, 0, 0] : Fin 3 → Nat) a + S1x64x512.size a ≤ S8x64x512.size a) (inbB : ∀ a, (![h.val, 0] : Fin 2 → Nat) a + S1x64.size a ≤ S8x64.size a) (inbK : ∀ a, (![h.val, 0, 0] : Fin 3 → Nat) a + S1x4096x64.size a ≤ S8x4096x64.size a) (inbF : ∀ a, (![h.val, 0, 0] : Fin 3 → Nat) a + S1x64x128.size a ≤ S8x64x128.size a) (r : Fin 64) (e : Fin 64) :
    Heads.headFused (k1_pay2 (View.ld x0 r1_0)) (View.ld x1 (Rect.unit (s := S8x64x512) ![h.val, 0, 0] S1x64x512.size inbW)) (View.ld x2 (Rect.unit (s := S8x64) ![h.val, 0] S1x64.size inbB)) (View.ld x3 (Rect.unit (s := S8x4096x64) ![h.val, 0, 0] S1x4096x64.size inbK)) (View.ld x4 (Rect.unit (s := S8x64x128) ![h.val, 0, 0] S1x64x128.size inbF)) (View.ld x5 (Rect.unit (s := S8x64) ![h.val, 0] S1x64.size inbB)) (ix2 r e)
      = Cert.Spec.headMlp (fun h e f => x1 (ix3 h e f)) (fun h e => x2 (ix2 h e)) (fun h p e => x3 (ix3 h p e)) (fun h e c => x4 (ix3 h e c)) (fun h e => x5 (ix2 h e)) (fun f => x0 (ix2 r f)) h e := by
  unfold Heads.headFused
  change Heads.fuse (F := Ideal) _ _ _ (ix2 r e) = _
  refine (Heads.fuse_apply _ _ _ r e).trans ?_
  have eC : (fun c => Heads.catted (Heads.embQ (k1_pay2 (View.ld x0 r1_0)) (View.ld x1 (Rect.unit (s := S8x64x512) ![h.val, 0, 0] S1x64x512.size inbW)) (View.ld x2 (Rect.unit (s := S8x64) ![h.val, 0] S1x64.size inbB)))
        (Heads.weights (Heads.embQ (k1_pay2 (View.ld x0 r1_0)) (View.ld x1 (Rect.unit (s := S8x64x512) ![h.val, 0, 0] S1x64x512.size inbW)) (View.ld x2 (Rect.unit (s := S8x64) ![h.val, 0] S1x64.size inbB))) (Heads.keys (View.ld x3 (Rect.unit (s := S8x4096x64) ![h.val, 0, 0] S1x4096x64.size inbK)))) (Heads.keys (View.ld x3 (Rect.unit (s := S8x4096x64) ![h.val, 0, 0] S1x4096x64.size inbK))) (ix2 r c))
      = Cert.Spec.cat (Cert.Spec.attend (Cert.Spec.headW (fun h e f => x1 (ix3 h e f)) (fun h e => x2 (ix2 h e)) (fun h p e => x3 (ix3 h p e)) (fun f => x0 (ix2 r f)) h) (fun (p : Fin 4096) (e : Fin 64) => x3 (ix3 h p e)))
          (Cert.Spec.emb (fun h e f => x1 (ix3 h e f)) (fun h e => x2 (ix2 h e)) (fun f => x0 (ix2 r f)) h) := by
    funext c
    refine (Heads.catted_apply _ _ _ r c).trans ?_
    have ew : (fun p => Heads.weights (Heads.embQ (k1_pay2 (View.ld x0 r1_0)) (View.ld x1 (Rect.unit (s := S8x64x512) ![h.val, 0, 0] S1x64x512.size inbW)) (View.ld x2 (Rect.unit (s := S8x64) ![h.val, 0] S1x64.size inbB))) (Heads.keys (View.ld x3 (Rect.unit (s := S8x4096x64) ![h.val, 0, 0] S1x4096x64.size inbK))) (ix2 r p))
        = Cert.Spec.headW (fun h e f => x1 (ix3 h e f)) (fun h e => x2 (ix2 h e)) (fun h p e => x3 (ix3 h p e)) (fun f => x0 (ix2 r f)) h := funext fun p => weights_row x0 x1 x2 x3 h inbW inbB inbK r p
    rw [ew, keys_rows x3 h inbK, embQ_row x0 x1 x2 h inbW inbB r]
  have eWF : (fun e c => (View.ld x4 (Rect.unit (s := S8x64x128) ![h.val, 0, 0] S1x64x128.size inbF)) (ix3 (0 : Fin 1) e c)) = fun (e : Fin 64) (c : Fin 128) => x4 (ix3 h e c) := by
    funext e c
    exact congrArg x4 (idx_unit3 h.val 0 0 inbF 0 e c h e c (by simp) (by simp) (by simp))
  have eBF : (fun e => (View.ld x5 (Rect.unit (s := S8x64) ![h.val, 0] S1x64.size inbB)) (ix2 (0 : Fin 1) e)) = fun (e : Fin 64) => x5 (ix2 h e) := by
    funext e
    exact congrArg x5 (idx_unit2 h.val 0 inbB 0 e h e (by simp) (by simp))
  rw [eC, eWF, eBF]
  rfl

/-! ## Region 1: the weights block as one function of the block index -/

/-- Entry (r, c) of the weights block: head `c / 4096`'s weight of row `r` on key `c % 4096`. -/
def G9 (x0 : Vec Ideal S64x512 .f32) (x1 : Vec Ideal S8x64x512 .bf16) (x2 : Vec Ideal S8x64 .f32) (x3 : Vec Ideal S8x4096x64 .bf16) : Vec Ideal S64x32768 .f32 :=
  fun y => Cert.Spec.headW (fun h e f => x1 (ix3 h e f)) (fun h e => x2 (ix2 h e)) (fun h p e => x3 (ix3 h p e)) (fun f => x0 (ix2 (y 0 : Fin 64) f))
    ⟨(y 1 : Fin 32768).val / 4096, by have : (y 1 : Fin 32768).val < 32768 := idx2_lt1 y; omega⟩ ⟨(y 1 : Fin 32768).val % 4096, Nat.mod_lt _ (by norm_num)⟩

/-- At column `h · 4096 + p` that is head `h`'s weight on key `p`. -/
theorem G9_at (x0 : Vec Ideal S64x512 .f32) (x1 : Vec Ideal S8x64x512 .bf16) (x2 : Vec Ideal S8x64 .f32) (x3 : Vec Ideal S8x4096x64 .bf16) (r : Fin 64) (h : Fin 8) (p : Fin 4096) (hlt : h.val * 4096 + p.val < 32768) :
    G9 x0 x1 x2 x3 (ix2 r (⟨h.val * 4096 + p.val, hlt⟩ : Fin 32768))
      = Cert.Spec.headW (fun h e f => x1 (ix3 h e f)) (fun h e => x2 (ix2 h e)) (fun h p e => x3 (ix3 h p e)) (fun f => x0 (ix2 r f)) h p := by
  have hp := p.isLt
  have e1 : ∀ hh, (⟨(h.val * 4096 + p.val) / 4096, hh⟩ : Fin 8) = h := fun _ => Fin.ext (by
    show (h.val * 4096 + p.val) / 4096 = h.val; omega)
  have e2 : ∀ hh, (⟨(h.val * 4096 + p.val) % 4096, hh⟩ : Fin 4096) = p := fun _ => Fin.ext (by
    show (h.val * 4096 + p.val) % 4096 = p.val; omega)
  show Cert.Spec.headW _ _ _ _ (⟨(h.val * 4096 + p.val) / 4096, _⟩ : Fin 8) (⟨(h.val * 4096 + p.val) % 4096, _⟩ : Fin 4096) = _
  rw [e1, e2]

/-- Head `h`'s weights piece is the tile of that function under the head's rectangle. -/
theorem piece9 (x0 : Vec Ideal S64x512 .f32) (x1 : Vec Ideal S8x64x512 .bf16) (x2 : Vec Ideal S8x64 .f32) (x3 : Vec Ideal S8x4096x64 .bf16) (h : Fin 8) (o : Nat) (ho : o = h.val * 4096)
    (inbW : ∀ a, (![h.val, 0, 0] : Fin 3 → Nat) a + S1x64x512.size a ≤ S8x64x512.size a) (inbB : ∀ a, (![h.val, 0] : Fin 2 → Nat) a + S1x64.size a ≤ S8x64.size a) (inbK : ∀ a, (![h.val, 0, 0] : Fin 3 → Nat) a + S1x4096x64.size a ≤ S8x4096x64.size a)
    (inbO : ∀ a, (![0, o] : Fin 2 → Nat) a + S64x4096.size a ≤ S64x32768.size a)
    (x : (Rect.unit (s := S64x32768) ![0, o] S64x4096.size inbO).shape.Idx) :
    Heads.weights (Heads.embQ (k1_pay2 (View.ld x0 r1_0)) (View.ld x1 (Rect.unit (s := S8x64x512) ![h.val, 0, 0] S1x64x512.size inbW)) (View.ld x2 (Rect.unit (s := S8x64) ![h.val, 0] S1x64.size inbB))) (Heads.keys (View.ld x3 (Rect.unit (s := S8x4096x64) ![h.val, 0, 0] S1x4096x64.size inbK))) x
      = G9 x0 x1 x2 x3 ((Rect.unit (s := S64x32768) ![0, o] S64x4096.size inbO).emb x) := by
  obtain ⟨r, p, rfl⟩ : ∃ (r : Fin 64) (p : Fin 4096), x = ix2 r p := ⟨x 0, x 1, eq_ix2 x⟩
  refine (weights_row x0 x1 x2 x3 h inbW inbB inbK r p).trans ?_
  have hlt : h.val * 4096 + p.val < 32768 := by have := h.isLt; have := p.isLt; omega
  have eO : (Rect.unit (s := S64x32768) ![0, o] S64x4096.size inbO).emb (ix2 r p) = ix2 r (⟨h.val * 4096 + p.val, hlt⟩ : Fin 32768) :=
    idx_unit2 0 o inbO r p r ⟨h.val * 4096 + p.val, hlt⟩ (by simp) (by simp [ho])
  rw [eO]
  exact (G9_at x0 x1 x2 x3 r h p hlt).symm

/-! ## Region 1: the output block from the rows of the eight fused blocks -/

/-- Entry (r, c) of the output block, given what row `r` of each fused block is. -/
theorem final_row (m0 m1 m2 m3 m4 m5 m6 m7 : FVec Ideal S64x64 .bf16) (wo : Vec Ideal S512x512 .bf16)
    (x : Vec Ideal S64x512 .f32) (bo : Vec Ideal S512 .f32) (M : Fin 8 → Fin 64 → EReal) (r : Fin 64)
    (hm : ∀ (h : Fin 8) (e : Fin 64), (![m0, m1, m2, m3, m4, m5, m6, m7] h) (ix2 r e) = M h e) (c : Fin 512) :
    Heads.final m0 m1 m2 m3 m4 m5 m6 m7 wo x bo (ix2 r c)
      = max ((x (ix2 r c) + ∑ j : Fin 512, M ⟨j.val / 64, by have := j.isLt; omega⟩ ⟨j.val % 64, Nat.mod_lt _ (by norm_num)⟩ * wo (ix2 j c))
          + bo (ix1 c)) 0 := by
  refine (Heads.final_apply m0 m1 m2 m3 m4 m5 m6 m7 wo x bo r c).trans ?_
  simp only [hm]

end Cert.KernelIdeal.PayEq

end
-- ==== Proof.Pay.lean ====
/-
  What each region's body leaves in its output block, read at an index, in the specification's terms.
  Region 0: entry (h, n, e) of the 8×512×64 block is row `n` of the input block embedded by head `h`.
  Region 1: entry (r, h·4096 + p) of the 64×32768 weights block is head `h`'s attention weight of query row `r` on key `p`;
  entry (r, c) of the 64×512 output block is coordinate `c` of query row `r`'s output row.
  Each stored piece is one head's function of that head's slices of the weight blocks, so the pieces are tiles of one function of the
  block index.
-/
import proofs.«169984_j1580547972770_2_alg».proof.Proof.Gen.KernelIdeal.Frame
import proofs.«169984_j1580547972770_2_alg».proof.Proof.HeadsAt
import proofs.«169984_j1580547972770_2_alg».proof.Proof.PayEqBlk0
import proofs.«169984_j1580547972770_2_alg».proof.Proof.PayEqBlk1

noncomputable section

namespace Cert.KernelIdeal.Pay

open Cert.KernelIdeal Cert.KernelIdeal.Gen Idealize.ShloMosaic Idealize.ShloMosaic.ValueIdx

/-- Region 0's output block at (h, n, e). -/
theorem out0_3_apply (x0 : Vec Ideal S512x512 .f32) (x1 : Vec Ideal S8x64x512 .bf16) (x2 : Vec Ideal S8x64 .f32)
    (h : Fin 8) (n : Fin 512) (e : Fin 64) :
    Gen.out0_3 (F := Ideal) x0 x1 x2 (ix3 h n e)
      = Cert.Spec.emb (fun h e f => x1 (ix3 h e f)) (fun h e => x2 (ix2 h e)) (fun f => x0 (ix2 n f)) h e := by
  unfold Gen.out0_3
  rw [PayEq.k0_pay1_eq, PayEq.k0_pay10_eq, PayEq.k0_pay9_eq, PayEq.k0_pay8_eq, PayEq.k0_pay7_eq, PayEq.k0_pay6_eq,
    PayEq.k0_pay4_eq, PayEq.k0_pay3_eq]
  refine (View.canon_apply_of_pieces (PayEq.G0 x0 x1 x2) _ ?_ (ix3 h n e) (Gen.cover0_3 _ _ _ _ _ _ _ _ _)).trans rfl
  intro p hp
  simp only [List.mem_cons, List.not_mem_nil, or_false] at hp
  rcases hp with rfl | rfl | rfl | rfl | rfl | rfl | rfl | rfl
  · exact fun x => PayEq.piece0 x0 x1 x2 ⟨7, by omega⟩ inb_S8x64x512_S1x64x512_7_0_0 inb_S8x64_S1x64_7_0 inb_S8x512x64_S1x512x64_7_0_0 x
  · exact fun x => PayEq.piece0 x0 x1 x2 ⟨6, by omega⟩ inb_S8x64x512_S1x64x512_6_0_0 inb_S8x64_S1x64_6_0 inb_S8x512x64_S1x512x64_6_0_0 x
  · exact fun x => PayEq.piece0 x0 x1 x2 ⟨5, by omega⟩ inb_S8x64x512_S1x64x512_5_0_0 inb_S8x64_S1x64_5_0 inb_S8x512x64_S1x512x64_5_0_0 x
  · exact fun x => PayEq.piece0 x0 x1 x2 ⟨4, by omega⟩ inb_S8x64x512_S1x64x512_4_0_0 inb_S8x64_S1x64_4_0 inb_S8x512x64_S1x512x64_4_0_0 x
  · exact fun x => PayEq.piece0 x0 x1 x2 ⟨3, by omega⟩ inb_S8x64x512_S1x64x512_3_0_0 inb_S8x64_S1x64_3_0 inb_S8x512x64_S1x512x64_3_0_0 x
  · exact fun x => PayEq.piece0 x0 x1 x2 ⟨2, by omega⟩ inb_S8x64x512_S1x64x512_2_0_0 inb_S8x64_S1x64_2_0 inb_S8x512x64_S1x512x64_2_0_0 x
  · exact fun x => PayEq.piece0 x0 x1 x2 ⟨1, by omega⟩ inb_S8x64x512_S1x64x512_1_0_0 inb_S8x64_S1x64_1_0 inb_S8x512x64_S1x512x64_1_0_0 x
  · exact fun x => PayEq.piece0 x0 x1 x2 ⟨0, by omega⟩ inb_S8x64x512_S1x64x512_0_0_0 inb_S8x64_S1x64_0_0 inb_S8x512x64_S1x512x64_0_0_0 x

/-- Region 1's weights block at (r, h·4096 + p). -/
theorem out1_9_apply (x0 : Vec Ideal S64x512 .f32) (x1 : Vec Ideal S8x64x512 .bf16) (x2 : Vec Ideal S8x64 .f32) (x3 : Vec Ideal S8x4096x64 .bf16)
    (x4 : Vec Ideal S8x64x128 .bf16) (x5 : Vec Ideal S8x64 .f32) (x6 : Vec Ideal S512x512 .bf16) (x7 : Vec Ideal S512 .f32)
    (r : Fin 64) (h : Fin 8) (p : Fin 4096) :
    Gen.out1_9 (F := Ideal) x0 x1 x2 x3 x4 x5 x6 x7 (ix2 r (⟨h.val * 4096 + p.val, by have := h.isLt; have := p.isLt; omega⟩ : Fin 32768))
      = Cert.Spec.headW (fun h e f => x1 (ix3 h e f)) (fun h e => x2 (ix2 h e)) (fun h p e => x3 (ix3 h p e)) (fun f => x0 (ix2 r f)) h p := by
  unfold Gen.out1_9
  rw [PayEq.k1_pay47_eq, PayEq.k1_pay42_eq, PayEq.k1_pay36_eq, PayEq.k1_pay30_eq, PayEq.k1_pay23_eq, PayEq.k1_pay17_eq,
    PayEq.k1_pay11_eq, PayEq.k1_pay5_eq]
  refine (View.canon_apply_of_pieces (PayEq.G9 x0 x1 x2 x3) _ ?_ _ (Gen.cover1_9 _ _ _ _ _ _ _ _ _)).trans
    (PayEq.G9_at x0 x1 x2 x3 r h p _)
  intro q hq
  simp only [List.mem_cons, List.not_mem_nil, or_false] at hq
  rcases hq with rfl | rfl | rfl | rfl | rfl | rfl | rfl | rfl
  · exact fun x => PayEq.piece9 x0 x1 x2 x3 ⟨7, by omega⟩ 28672 rfl inb_S8x64x512_S1x64x512_7_0_0 inb_S8x64_S1x64_7_0
      inb_S8x4096x64_S1x4096x64_7_0_0 inb_S64x32768_S64x4096_0_28672 x
  · exact fun x => PayEq.piece9 x0 x1 x2 x3 ⟨6, by omega⟩ 24576 rfl inb_S8x64x512_S1x64x512_6_0_0 inb_S8x64_S1x64_6_0
      inb_S8x4096x64_S1x4096x64_6_0_0 inb_S64x32768_S64x4096_0_24576 x
  · exact fun x => PayEq.piece9 x0 x1 x2 x3 ⟨5, by omega⟩ 20480 rfl inb_S8x64x512_S1x64x512_5_0_0 inb_S8x64_S1x64_5_0
      inb_S8x4096x64_S1x4096x64_5_0_0 inb_S64x32768_S64x4096_0_20480 x
  · exact fun x => PayEq.piece9 x0 x1 x2 x3 ⟨4, by omega⟩ 16384 rfl inb_S8x64x512_S1x64x512_4_0_0 inb_S8x64_S1x64_4_0
      inb_S8x4096x64_S1x4096x64_4_0_0 inb_S64x32768_S64x4096_0_16384 x
  · exact fun x => PayEq.piece9 x0 x1 x2 x3 ⟨3, by omega⟩ 12288 rfl inb_S8x64x512_S1x64x512_3_0_0 inb_S8x64_S1x64_3_0
      inb_S8x4096x64_S1x4096x64_3_0_0 inb_S64x32768_S64x4096_0_12288 x
  · exact fun x => PayEq.piece9 x0 x1 x2 x3 ⟨2, by omega⟩ 8192 rfl inb_S8x64x512_S1x64x512_2_0_0 inb_S8x64_S1x64_2_0
      inb_S8x4096x64_S1x4096x64_2_0_0 inb_S64x32768_S64x4096_0_8192 x
  · exact fun x => PayEq.piece9 x0 x1 x2 x3 ⟨1, by omega⟩ 4096 rfl inb_S8x64x512_S1x64x512_1_0_0 inb_S8x64_S1x64_1_0
      inb_S8x4096x64_S1x4096x64_1_0_0 inb_S64x32768_S64x4096_0_4096 x
  · exact fun x => PayEq.piece9 x0 x1 x2 x3 ⟨0, by omega⟩ 0 rfl inb_S8x64x512_S1x64x512_0_0_0 inb_S8x64_S1x64_0_0
      inb_S8x4096x64_S1x4096x64_0_0_0 inb_S64x32768_S64x4096_0_0 x

/-- Region 1's output block at (r, c). -/
theorem out1_8_apply (x0 : Vec Ideal S64x512 .f32) (x1 : Vec Ideal S8x64x512 .bf16) (x2 : Vec Ideal S8x64 .f32) (x3 : Vec Ideal S8x4096x64 .bf16)
    (x4 : Vec Ideal S8x64x128 .bf16) (x5 : Vec Ideal S8x64 .f32) (x6 : Vec Ideal S512x512 .bf16) (x7 : Vec Ideal S512 .f32)
    (r : Fin 64) (c : Fin 512) :
    Gen.out1_8 (F := Ideal) x0 x1 x2 x3 x4 x5 x6 x7 (ix2 r c)
      = Cert.Spec.outRow (fun h e f => x1 (ix3 h e f)) (fun h e => x2 (ix2 h e)) (fun h p e => x3 (ix3 h p e))
          (fun h e c => x4 (ix3 h e c)) (fun h e => x5 (ix2 h e)) (fun j c => x6 (ix2 j c)) (fun c => x7 (ix1 c))
          (fun f => x0 (ix2 r f)) c := by
  unfold Gen.out1_8
  rw [View.canon_unit_zero PayEq.offsets_zero2]
  rw [PayEq.k1_pay8_eq, PayEq.k1_pay13_eq, PayEq.k1_pay18_eq, PayEq.k1_pay24_eq, PayEq.k1_pay31_eq, PayEq.k1_pay37_eq,
    PayEq.k1_pay43_eq, PayEq.k1_pay1_eq]
  refine (PayEq.final_row _ _ _ _ _ _ _ _ _ _ _
    (Cert.Spec.headMlp (fun h e f => x1 (ix3 h e f)) (fun h e => x2 (ix2 h e)) (fun h p e => x3 (ix3 h p e))
      (fun h e c => x4 (ix3 h e c)) (fun h e => x5 (ix2 h e)) (fun f => x0 (ix2 r f))) r ?_ c).trans ?_
  · intro h e
    match h with
    | ⟨0, _⟩ =>
      exact PayEq.headFused_row x0 x1 x2 x3 x4 x5 ⟨0, by omega⟩ inb_S8x64x512_S1x64x512_0_0_0 inb_S8x64_S1x64_0_0
        inb_S8x4096x64_S1x4096x64_0_0_0 inb_S8x64x128_S1x64x128_0_0_0 r e
    | ⟨1, _⟩ =>
      exact PayEq.headFused_row x0 x1 x2 x3 x4 x5 ⟨1, by omega⟩ inb_S8x64x512_S1x64x512_1_0_0 inb_S8x64_S1x64_1_0
        inb_S8x4096x64_S1x4096x64_1_0_0 inb_S8x64x128_S1x64x128_1_0_0 r e
    | ⟨2, _⟩ =>
      exact PayEq.headFused_row x0 x1 x2 x3 x4 x5 ⟨2, by omega⟩ inb_S8x64x512_S1x64x512_2_0_0 inb_S8x64_S1x64_2_0
        inb_S8x4096x64_S1x4096x64_2_0_0 inb_S8x64x128_S1x64x128_2_0_0 r e
    | ⟨3, _⟩ =>
      exact PayEq.headFused_row x0 x1 x2 x3 x4 x5 ⟨3, by omega⟩ inb_S8x64x512_S1x64x512_3_0_0 inb_S8x64_S1x64_3_0
        inb_S8x4096x64_S1x4096x64_3_0_0 inb_S8x64x128_S1x64x128_3_0_0 r e
    | ⟨4, _⟩ =>
      exact PayEq.headFused_row x0 x1 x2 x3 x4 x5 ⟨4, by omega⟩ inb_S8x64x512_S1x64x512_4_0_0 inb_S8x64_S1x64_4_0
        inb_S8x4096x64_S1x4096x64_4_0_0 inb_S8x64x128_S1x64x128_4_0_0 r e
    | ⟨5, _⟩ =>
      exact PayEq.headFused_row x0 x1 x2 x3 x4 x5 ⟨5, by omega⟩ inb_S8x64x512_S1x64x512_5_0_0 inb_S8x64_S1x64_5_0
        inb_S8x4096x64_S1x4096x64_5_0_0 inb_S8x64x128_S1x64x128_5_0_0 r e
    | ⟨6, _⟩ =>
      exact PayEq.headFused_row x0 x1 x2 x3 x4 x5 ⟨6, by omega⟩ inb_S8x64x512_S1x64x512_6_0_0 inb_S8x64_S1x64_6_0
        inb_S8x4096x64_S1x4096x64_6_0_0 inb_S8x64x128_S1x64x128_6_0_0 r e
    | ⟨7, _⟩ =>
      exact PayEq.headFused_row x0 x1 x2 x3 x4 x5 ⟨7, by omega⟩ inb_S8x64x512_S1x64x512_7_0_0 inb_S8x64_S1x64_7_0
        inb_S8x4096x64_S1x4096x64_7_0_0 inb_S8x64x128_S1x64x128_7_0_0 r e
  · have e0 : View.ld x0 r1_0 (ix2 r c) = x0 (ix2 r c) := congrArg x0 (PayEq.idx_unit2 0 0 _ r c r c (by simp) (by simp))
    have e6 : ∀ j : Fin 512, View.ld x6 r1_41 (ix2 j c) = x6 (ix2 j c) := fun j =>
      congrArg x6 (PayEq.idx_unit2 0 0 _ j c j c (by simp) (by simp))
    have e7 : View.ld x7 r1_42 (ix1 c) = x7 (ix1 c) := congrArg x7 (PayEq.idx_unit1 0 _ c c (by simp))
    rw [e0, e7]
    simp only [e6]
    rfl

end Cert.KernelIdeal.Pay

end
-- ==== Proof.KernelValue0.lean ====
/-
  Region 0's output array after the run: the embedded keys as ONE function of the arrays the region is entered with.
  The grid has 8 points; point t reads rows 512·t … 512·t + 511 of the 4096×512 input (all 512 columns), the whole weight and
  bias arrays, and writes the 8×512×64 block at rows 512·t … of the 8×4096×64 output, for all 8 heads. So entry (h, p, e) of the
  output is row p of the input embedded by head h, and the blocks of the 8 points tile the output (point p / 512 covers row p).
-/
import proofs.«169984_j1580547972770_2_alg».proof.Proof.Gen.KernelIdeal.Frame
import proofs.«169984_j1580547972770_2_alg».proof.Proof.Pay
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row `p` of the 4096×512 array `A0` embedded by head `h` with the weights `A1` and biases `A2`, coordinate `e`. -/
def keyAt (A0 : S4096x512.Idx → EReal) (A1 : S8x64x512.Idx → EReal) (A2 : S8x64.Idx → EReal) (h : Fin 8) (p : Fin 4096) (e : Fin 64) : EReal :=
  Cert.Spec.emb (fun h e f => A1 (ix3 h e f)) (fun h e => A2 (ix2 h e)) (fun f => A0 (ix2 p f)) h e

/-- The embedded keys as an 8×4096×64 array. -/
def keysOf (A0 : S4096x512.Idx → EReal) (A1 : S8x64x512.Idx → EReal) (A2 : S8x64.Idx → EReal) : S8x4096x64.Idx → EReal :=
  fun i => keyAt A0 A1 A2 (i 0) (i 1) (i 2)

/-- The block's value at any block index, from its value at coordinates. -/
theorem out0_3_at (x0 : Vec Ideal S512x512 .f32) (x1 : Vec Ideal S8x64x512 .bf16) (x2 : Vec Ideal S8x64 .f32) (y : S8x512x64.Idx) :
    Gen.out0_3 (F := Ideal) x0 x1 x2 y
      = Cert.Spec.emb (fun h e f => x1 (ix3 h e f)) (fun h e => x2 (ix2 h e)) (fun f => x0 (ix2 (y 1) f)) (y 0) (y 2) := by
  rw [eq_ix3 y]
  exact Pay.out0_3_apply x0 x1 x2 (y 0) (y 1) (y 2)

/-- The printed index maps over the 8 points: the input block and the output block move with the point along the row axis; the
    weight and bias windows stay at block 0. -/
theorem idx0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- What point `t` writes back is block `t` of the embedded keys of the arrays the region is entered with. -/
theorem flushed0_3_eq (c : Dev nD) (t : Fin cfg0.N) :
    (dat0 V c).flushed 3 t = ((cfg0.win 3).blk t).view.read (Elt Ideal) (keysOf (V c main_v0) (V c main_v1) (V c main_arg3)) := by
  show (cfg0.win 3).cut (grid0.coords t) ((dat0 V c).after 3 t) = _
  rw [after0_3]
  obtain ⟨e00, e01, e10, e11, e12, e20, e21, e30, e31, e32⟩ := idx0 t
  funext y
  show out0_3 (iblk0 V c 0 t) (iblk0 V c 1 t) (iblk0 V c 2 t) y
    = keysOf (V c main_v0) (V c main_v1) (V c main_arg3) (((cfg0.win 3).blk t).view.emb y)
  refine (out0_3_at (iblk0 V c 0 t) (iblk0 V c 1 t) (iblk0 V c 2 t) y).trans ?_
  have hW : (fun (h : Fin 8) (e : Fin 64) (f : Fin 512) => iblk0 V c 1 t (ix3 h e f)) = fun h e f => V c main_v1 (ix3 h e f) := by
    funext h e f
    show V c main_v1 (((cfg0.win 1).blk t).view.emb (ix3 h e f)) = V c main_v1 (ix3 h e f)
    refine congrArg _ (funext fun a => Fin.ext ?_)
    match a with
    | ⟨0, _⟩ => show win0_1.index t (0 : Fin 3) * 8 + 1 * h.val = h.val; omega
    | ⟨1, _⟩ => show win0_1.index t (1 : Fin 3) * 64 + 1 * e.val = e.val; omega
    | ⟨2, _⟩ => show win0_1.index t (2 : Fin 3) * 512 + 1 * f.val = f.val; omega
  have hb : (fun (h : Fin 8) (e : Fin 64) => iblk0 V c 2 t (ix2 h e)) = fun h e => V c main_arg3 (ix2 h e) := by
    funext h e
    show V c main_arg3 (((cfg0.win 2).blk t).view.emb (ix2 h e)) = V c main_arg3 (ix2 h e)
    refine congrArg _ (funext fun a => Fin.ext ?_)
    match a with
    | ⟨0, _⟩ => show win0_2.index t (0 : Fin 2) * 8 + 1 * h.val = h.val; omega
    | ⟨1, _⟩ => show win0_2.index t (1 : Fin 2) * 64 + 1 * e.val = e.val; omega
  have h0 : ((cfg0.win 3).blk t).view.emb y 0 = y 0 :=
    Fin.ext (by show win0_3.index t (0 : Fin 3) * 8 + 1 * (y 0).val = (y 0).val; omega)
  have h2 : ((cfg0.win 3).blk t).view.emb y 2 = y 2 :=
    Fin.ext (by show win0_3.index t (2 : Fin 3) * 64 + 1 * (y 2).val = (y 2).val; omega)
  have hx : (fun f : Fin 512 => iblk0 V c 0 t (ix2 (y 1) f)) = fun f => V c main_v0 (ix2 (((cfg0.win 3).blk t).view.emb y 1) f) := by
    funext f
    show V c main_v0 (((cfg0.win 0).blk t).view.emb (ix2 (y 1) f)) = V c main_v0 (ix2 (((cfg0.win 3).blk t).view.emb y 1) f)
    refine congrArg _ (funext fun a => Fin.ext ?_)
    match a with
    | ⟨0, _⟩ => show win0_0.index t (0 : Fin 2) * 512 + 1 * (y 1).val = win0_3.index t (1 : Fin 3) * 512 + 1 * (y 1).val; omega
    | ⟨1, _⟩ => show win0_0.index t (1 : Fin 2) * 512 + 1 * f.val = f.val; omega
  unfold keysOf keyAt
  rw [hW, hb, hx, h0, h2]

/-- An index of the output array is in point `t`'s block iff each coordinate is in the block's range on its axis. -/
theorem mem_blk0_3 (t : Fin cfg0.N) (i : S8x4096x64.Idx) :
    i ∈ ((cfg0.win 3).blk t).view.set ↔ ∀ a : Fin 3, win0_3.index t a * S8x512x64.size a ≤ (i a).val ∧ (i a).val < win0_3.index t a * S8x512x64.size a + S8x512x64.size a := by
  show i ∈ ((View.whole main_v5).slice (win0_3.rect t)).set ↔ _
  rw [View.set_slice_whole, Rect.mem_set_unit]
  exact Iff.rfl

/-- Every index of the output array is in the block of the point its row falls to. -/
theorem covered0_3 (i : S8x4096x64.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 64 := (i 2).isLt
  have hN : grid0.N = 8 := N_0
  let t : Fin cfg0.N := ⟨(i 1).val / 512, by show (i 1).val / 512 < grid0.N; omega⟩
  have hv : t.val = (i 1).val / 512 := rfl
  refine ⟨t, flush0_3 t, ?_⟩
  rw [mem_blk0_3]
  obtain ⟨e00, e01, e10, e11, e12, e20, e21, e30, e31, e32⟩ := idx0 t
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- Region 0's output array after the run is the embedded keys of the arrays it is entered with. -/
theorem final0_3 (c : Dev nD) : (dat0 V c).arrAt 3 cfg0.N = keysOf (V c main_v0) (V c main_v1) (V c main_arg3) :=
  (dat0 V c).arrAt_eq_of_cover 3 _ (fun t _ => flushed0_3_eq V c t) covered0_3

end Cert.KernelIdeal.KV

end
-- ==== Proof.KernelValue1.lean ====
/-
  Region 1's two output arrays after the run, each as ONE function of the arrays the region is entered with.
  The grid has 32 points; point t reads query rows 64·t … 64·t + 63 (all 512 columns) and the whole of the seven weight, bias and
  key arrays, and writes rows 64·t … of the 2048×512 output and of the 2048×32768 weights array (all columns). So row x of either
  output is the specification's row function of query row x, and the blocks of the 32 points tile the rows (point x / 64 covers row x).
-/
import proofs.«169984_j1580547972770_2_alg».proof.Proof.Gen.KernelIdeal.Frame
import proofs.«169984_j1580547972770_2_alg».proof.Proof.Pay
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The attention weight of query row `x` at flat column `j` = head `j / 4096`, key `j % 4096`. -/
def wAt (A0 : S2048x512.Idx → EReal) (A1 : S8x64x512.Idx → EReal) (A2 : S8x64.Idx → EReal) (A3 : S8x4096x64.Idx → EReal)
    (x : Fin 2048) (j : Fin 32768) : EReal :=
  Cert.Spec.headW (fun h e f => A1 (ix3 h e f)) (fun h e => A2 (ix2 h e)) (fun h p e => A3 (ix3 h p e)) (fun f => A0 (ix2 x f))
    ⟨j.val / 4096, by have := j.isLt; omega⟩ ⟨j.val % 4096, Nat.mod_lt _ (by norm_num)⟩

/-- The weights as a 2048×32768 array. -/
def wFlatOf (A0 : S2048x512.Idx → EReal) (A1 : S8x64x512.Idx → EReal) (A2 : S8x64.Idx → EReal) (A3 : S8x4096x64.Idx → EReal) :
    S2048x32768.Idx → EReal :=
  fun i => wAt A0 A1 A2 A3 (i 0) (i 1)

/-- Coordinate `c` of the output row of query row `x`. -/
def outAt (A0 : S2048x512.Idx → EReal) (A1 : S8x64x512.Idx → EReal) (A2 : S8x64.Idx → EReal) (A3 : S8x4096x64.Idx → EReal)
    (A4 : S8x64x128.Idx → EReal) (A5 : S8x64.Idx → EReal) (A6 : S512x512.Idx → EReal) (A7 : S512.Idx → EReal)
    (x : Fin 2048) (c : Fin 512) : EReal :=
  Cert.Spec.outRow (fun h e f => A1 (ix3 h e f)) (fun h e => A2 (ix2 h e)) (fun h p e => A3 (ix3 h p e))
    (fun h e c => A4 (ix3 h e c)) (fun h e => A5 (ix2 h e)) (fun j c => A6 (ix2 j c)) (fun c => A7 (ix1 c)) (fun f => A0 (ix2 x f)) c

/-- The output rows as a 2048×512 array. -/
def outOf (A0 : S2048x512.Idx → EReal) (A1 : S8x64x512.Idx → EReal) (A2 : S8x64.Idx → EReal) (A3 : S8x4096x64.Idx → EReal)
    (A4 : S8x64x128.Idx → EReal) (A5 : S8x64.Idx → EReal) (A6 : S512x512.Idx → EReal) (A7 : S512.Idx → EReal) : S2048x512.Idx → EReal :=
  fun i => outAt A0 A1 A2 A3 A4 A5 A6 A7 (i 0) (i 1)

/-- The weights block at any block index: the flat column splits into head and key. -/
theorem out1_9_at (x0 : Vec Ideal S64x512 .f32) (x1 : Vec Ideal S8x64x512 .bf16) (x2 : Vec Ideal S8x64 .f32) (x3 : Vec Ideal S8x4096x64 .bf16)
    (x4 : Vec Ideal S8x64x128 .bf16) (x5 : Vec Ideal S8x64 .f32) (x6 : Vec Ideal S512x512 .bf16) (x7 : Vec Ideal S512 .f32) (y : S64x32768.Idx) :
    Gen.out1_9 (F := Ideal) x0 x1 x2 x3 x4 x5 x6 x7 y
      = Cert.Spec.headW (fun h e f => x1 (ix3 h e f)) (fun h e => x2 (ix2 h e)) (fun h p e => x3 (ix3 h p e)) (fun f => x0 (ix2 (y 0) f))
          ⟨(y 1).val / 4096, by have h : (y 1).val < 32768 := (y 1).isLt; omega⟩ ⟨(y 1).val % 4096, Nat.mod_lt _ (by norm_num)⟩ := by
  have hy1 : (y 1).val < 32768 := (y 1).isLt
  have e : y = ix2 (y 0) (⟨(⟨(y 1).val / 4096, by omega⟩ : Fin 8).val * 4096 + (⟨(y 1).val % 4096, Nat.mod_lt _ (by norm_num)⟩ : Fin 4096).val,
      by show (y 1).val / 4096 * 4096 + (y 1).val % 4096 < 32768; omega⟩ : Fin 32768) := by
    funext a
    match a with
    | ⟨0, _⟩ => rfl
    | ⟨1, _⟩ => exact Fin.ext (by show (y 1).val = (y 1).val / 4096 * 4096 + (y 1).val % 4096; omega)
  exact (congrArg (Gen.out1_9 (F := Ideal) x0 x1 x2 x3 x4 x5 x6 x7) e).trans
    (Pay.out1_9_apply x0 x1 x2 x3 x4 x5 x6 x7 (y 0) ⟨(y 1).val / 4096, by omega⟩ ⟨(y 1).val % 4096, Nat.mod_lt _ (by norm_num)⟩)

/-- The output block at any block index. -/
theorem out1_8_at (x0 : Vec Ideal S64x512 .f32) (x1 : Vec Ideal S8x64x512 .bf16) (x2 : Vec Ideal S8x64 .f32) (x3 : Vec Ideal S8x4096x64 .bf16)
    (x4 : Vec Ideal S8x64x128 .bf16) (x5 : Vec Ideal S8x64 .f32) (x6 : Vec Ideal S512x512 .bf16) (x7 : Vec Ideal S512 .f32) (y : S64x512.Idx) :
    Gen.out1_8 (F := Ideal) x0 x1 x2 x3 x4 x5 x6 x7 y
      = Cert.Spec.outRow (fun h e f => x1 (ix3 h e f)) (fun h e => x2 (ix2 h e)) (fun h p e => x3 (ix3 h p e))
          (fun h e c => x4 (ix3 h e c)) (fun h e => x5 (ix2 h e)) (fun j c => x6 (ix2 j c)) (fun c => x7 (ix1 c))
          (fun f => x0 (ix2 (y 0) f)) (y 1) :=
  (congrArg (Gen.out1_8 (F := Ideal) x0 x1 x2 x3 x4 x5 x6 x7) (eq_ix2 y)).trans (Pay.out1_8_apply x0 x1 x2 x3 x4 x5 x6 x7 (y 0) (y 1))

/-- The printed index maps over the 32 points: the query block and both output blocks move with the point along the row axis; the
    seven other windows stay at block 0. -/
theorem idx1 : ∀ t : Fin cfg1.N, win1_0.index t (0 : Fin 2) = t.val
    ∧ win1_0.index t (1 : Fin 2) = 0
    ∧ win1_1.index t (0 : Fin 3) = 0
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 3) = 0
    ∧ win1_3.index t (1 : Fin 3) = 0
    ∧ win1_3.index t (2 : Fin 3) = 0
    ∧ win1_4.index t (0 : Fin 3) = 0
    ∧ win1_4.index t (1 : Fin 3) = 0
    ∧ win1_4.index t (2 : Fin 3) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 1) = 0
    ∧ win1_8.index t (0 : Fin 2) = t.val
    ∧ win1_8.index t (1 : Fin 2) = 0
    ∧ win1_9.index t (0 : Fin 2) = t.val
    ∧ win1_9.index t (1 : Fin 2) = 0 :=
  (by decide +kernel : ∀ t : Fin grid1.N, _)

/-- What point `t` writes back to the weights array is block `t` of the flat weights of the arrays the region is entered with. -/
theorem flushed1_9_eq (c : Dev nD) (t : Fin cfg1.N) :
    (dat1 V c).flushed 9 t = ((cfg1.win 9).blk t).view.read (Elt Ideal)
      (wFlatOf (V c main_arg0) (V c main_v1) (V c main_arg3) (V c main_v5)) := by
  show (cfg1.win 9).cut (grid1.coords t) ((dat1 V c).after 9 t) = _
  rw [after1_9]
  obtain ⟨e00, e01, e10, e11, e12, e20, e21, e30, e31, e32, e40, e41, e42, e50, e51, e60, e61, e70, e80, e81, e90, e91⟩ := idx1 t
  funext y
  show out1_9 (iblk1 V c 0 t) (iblk1 V c 1 t) (iblk1 V c 2 t) (iblk1 V c 3 t) (iblk1 V c 4 t) (iblk1 V c 5 t) (iblk1 V c 6 t) (iblk1 V c 7 t) y
    = wFlatOf (V c main_arg0) (V c main_v1) (V c main_arg3) (V c main_v5) (((cfg1.win 9).blk t).view.emb y)
  refine (out1_9_at (iblk1 V c 0 t) (iblk1 V c 1 t) (iblk1 V c 2 t) (iblk1 V c 3 t) (iblk1 V c 4 t) (iblk1 V c 5 t) (iblk1 V c 6 t) (iblk1 V c 7 t) y).trans ?_
  have hW1 : (fun (a : Fin 8) (b : Fin 64) (d : Fin 512) => iblk1 V c 1 t (ix3 a b d)) = fun a b d => V c main_v1 (ix3 a b d) := by
    funext a b d
    show V c main_v1 (((cfg1.win 1).blk t).view.emb (ix3 a b d)) = V c main_v1 (ix3 a b d)
    refine congrArg _ (funext fun ax => Fin.ext ?_)
    match ax with
    | ⟨0, _⟩ => show win1_1.index t (0 : Fin 3) * 8 + 1 * a.val = a.val; omega
    | ⟨1, _⟩ => show win1_1.index t (1 : Fin 3) * 64 + 1 * b.val = b.val; omega
    | ⟨2, _⟩ => show win1_1.index t (2 : Fin 3) * 512 + 1 * d.val = d.val; omega
  have hW2 : (fun (a : Fin 8) (b : Fin 64) => iblk1 V c 2 t (ix2 a b)) = fun a b => V c main_arg3 (ix2 a b) := by
    funext a b
    show V c main_arg3 (((cfg1.win 2).blk t).view.emb (ix2 a b)) = V c main_arg3 (ix2 a b)
    refine congrArg _ (funext fun ax => Fin.ext ?_)
    match ax with
    | ⟨0, _⟩ => show win1_2.index t (0 : Fin 2) * 8 + 1 * a.val = a.val; omega
    | ⟨1, _⟩ => show win1_2.index t (1 : Fin 2) * 64 + 1 * b.val = b.val; omega
  have hW3 : (fun (a : Fin 8) (b : Fin 4096) (d : Fin 64) => iblk1 V c 3 t (ix3 a b d)) = fun a b d => V c main_v5 (ix3 a b d) := by
    funext a b d
    show V c main_v5 (((cfg1.win 3).blk t).view.emb (ix3 a b d)) = V c main_v5 (ix3 a b d)
    refine congrArg _ (funext fun ax => Fin.ext ?_)
    match ax with
    | ⟨0, _⟩ => show win1_3.index t (0 : Fin 3) * 8 + 1 * a.val = a.val; omega
    | ⟨1, _⟩ => show win1_3.index t (1 : Fin 3) * 4096 + 1 * b.val = b.val; omega
    | ⟨2, _⟩ => show win1_3.index t (2 : Fin 3) * 64 + 1 * d.val = d.val; omega
  have hx : (fun f : Fin 512 => iblk1 V c 0 t (ix2 (y 0) f)) = fun f => V c main_arg0 (ix2 (((cfg1.win 9).blk t).view.emb y 0) f) := by
    funext f
    show V c main_arg0 (((cfg1.win 0).blk t).view.emb (ix2 (y 0) f)) = V c main_arg0 (ix2 (((cfg1.win 9).blk t).view.emb y 0) f)
    refine congrArg _ (funext fun ax => Fin.ext ?_)
    match ax with
    | ⟨0, _⟩ => show win1_0.index t (0 : Fin 2) * 64 + 1 * (y 0).val = win1_9.index t (0 : Fin 2) * 64 + 1 * (y 0).val; omega
    | ⟨1, _⟩ => show win1_0.index t (1 : Fin 2) * 512 + 1 * f.val = f.val; omega
  have h1 : ((cfg1.win 9).blk t).view.emb y 1 = y 1 :=
    Fin.ext (by show win1_9.index t (1 : Fin 2) * 32768 + 1 * (y 1).val = (y 1).val; omega)
  show _ = wAt (V c main_arg0) (V c main_v1) (V c main_arg3) (V c main_v5) (((cfg1.win 9).blk t).view.emb y 0) (((cfg1.win 9).blk t).view.emb y 1)
  rw [h1]
  unfold wAt
  rw [hW1, hW2, hW3, hx]

/-- What point `t` writes back to the output array is block `t` of the output rows of the arrays the region is entered with. -/
theorem flushed1_8_eq (c : Dev nD) (t : Fin cfg1.N) :
    (dat1 V c).flushed 8 t = ((cfg1.win 8).blk t).view.read (Elt Ideal)
      (outOf (V c main_arg0) (V c main_v1) (V c main_arg3) (V c main_v5) (V c main_v2) (V c main_arg5) (V c main_v4) (V c main_arg7)) := by
  show (cfg1.win 8).cut (grid1.coords t) ((dat1 V c).after 8 t) = _
  rw [after1_8]
  obtain ⟨e00, e01, e10, e11, e12, e20, e21, e30, e31, e32, e40, e41, e42, e50, e51, e60, e61, e70, e80, e81, e90, e91⟩ := idx1 t
  funext y
  show out1_8 (iblk1 V c 0 t) (iblk1 V c 1 t) (iblk1 V c 2 t) (iblk1 V c 3 t) (iblk1 V c 4 t) (iblk1 V c 5 t) (iblk1 V c 6 t) (iblk1 V c 7 t) y
    = outOf (V c main_arg0) (V c main_v1) (V c main_arg3) (V c main_v5) (V c main_v2) (V c main_arg5) (V c main_v4) (V c main_arg7) (((cfg1.win 8).blk t).view.emb y)
  refine (out1_8_at (iblk1 V c 0 t) (iblk1 V c 1 t) (iblk1 V c 2 t) (iblk1 V c 3 t) (iblk1 V c 4 t) (iblk1 V c 5 t) (iblk1 V c 6 t) (iblk1 V c 7 t) y).trans ?_
  have hW1 : (fun (a : Fin 8) (b : Fin 64) (d : Fin 512) => iblk1 V c 1 t (ix3 a b d)) = fun a b d => V c main_v1 (ix3 a b d) := by
    funext a b d
    show V c main_v1 (((cfg1.win 1).blk t).view.emb (ix3 a b d)) = V c main_v1 (ix3 a b d)
    refine congrArg _ (funext fun ax => Fin.ext ?_)
    match ax with
    | ⟨0, _⟩ => show win1_1.index t (0 : Fin 3) * 8 + 1 * a.val = a.val; omega
    | ⟨1, _⟩ => show win1_1.index t (1 : Fin 3) * 64 + 1 * b.val = b.val; omega
    | ⟨2, _⟩ => show win1_1.index t (2 : Fin 3) * 512 + 1 * d.val = d.val; omega
  have hW2 : (fun (a : Fin 8) (b : Fin 64) => iblk1 V c 2 t (ix2 a b)) = fun a b => V c main_arg3 (ix2 a b) := by
    funext a b
    show V c main_arg3 (((cfg1.win 2).blk t).view.emb (ix2 a b)) = V c main_arg3 (ix2 a b)
    refine congrArg _ (funext fun ax => Fin.ext ?_)
    match ax with
    | ⟨0, _⟩ => show win1_2.index t (0 : Fin 2) * 8 + 1 * a.val = a.val; omega
    | ⟨1, _⟩ => show win1_2.index t (1 : Fin 2) * 64 + 1 * b.val = b.val; omega
  have hW3 : (fun (a : Fin 8) (b : Fin 4096) (d : Fin 64) => iblk1 V c 3 t (ix3 a b d)) = fun a b d => V c main_v5 (ix3 a b d) := by
    funext a b d
    show V c main_v5 (((cfg1.win 3).blk t).view.emb (ix3 a b d)) = V c main_v5 (ix3 a b d)
    refine congrArg _ (funext fun ax => Fin.ext ?_)
    match ax with
    | ⟨0, _⟩ => show win1_3.index t (0 : Fin 3) * 8 + 1 * a.val = a.val; omega
    | ⟨1, _⟩ => show win1_3.index t (1 : Fin 3) * 4096 + 1 * b.val = b.val; omega
    | ⟨2, _⟩ => show win1_3.index t (2 : Fin 3) * 64 + 1 * d.val = d.val; omega
  have hW4 : (fun (a : Fin 8) (b : Fin 64) (d : Fin 128) => iblk1 V c 4 t (ix3 a b d)) = fun a b d => V c main_v2 (ix3 a b d) := by
    funext a b d
    show V c main_v2 (((cfg1.win 4).blk t).view.emb (ix3 a b d)) = V c main_v2 (ix3 a b d)
    refine congrArg _ (funext fun ax => Fin.ext ?_)
    match ax with
    | ⟨0, _⟩ => show win1_4.index t (0 : Fin 3) * 8 + 1 * a.val = a.val; omega
    | ⟨1, _⟩ => show win1_4.index t (1 : Fin 3) * 64 + 1 * b.val = b.val; omega
    | ⟨2, _⟩ => show win1_4.index t (2 : Fin 3) * 128 + 1 * d.val = d.val; omega
  have hW5 : (fun (a : Fin 8) (b : Fin 64) => iblk1 V c 5 t (ix2 a b)) = fun a b => V c main_arg5 (ix2 a b) := by
    funext a b
    show V c main_arg5 (((cfg1.win 5).blk t).view.emb (ix2 a b)) = V c main_arg5 (ix2 a b)
    refine congrArg _ (funext fun ax => Fin.ext ?_)
    match ax with
    | ⟨0, _⟩ => show win1_5.index t (0 : Fin 2) * 8 + 1 * a.val = a.val; omega
    | ⟨1, _⟩ => show win1_5.index t (1 : Fin 2) * 64 + 1 * b.val = b.val; omega
  have hW6 : (fun (a : Fin 512) (b : Fin 512) => iblk1 V c 6 t (ix2 a b)) = fun a b => V c main_v4 (ix2 a b) := by
    funext a b
    show V c main_v4 (((cfg1.win 6).blk t).view.emb (ix2 a b)) = V c main_v4 (ix2 a b)
    refine congrArg _ (funext fun ax => Fin.ext ?_)
    match ax with
    | ⟨0, _⟩ => show win1_6.index t (0 : Fin 2) * 512 + 1 * a.val = a.val; omega
    | ⟨1, _⟩ => show win1_6.index t (1 : Fin 2) * 512 + 1 * b.val = b.val; omega
  have hW7 : (fun (a : Fin 512) => iblk1 V c 7 t (ix1 a)) = fun a => V c main_arg7 (ix1 a) := by
    funext a
    show V c main_arg7 (((cfg1.win 7).blk t).view.emb (ix1 a)) = V c main_arg7 (ix1 a)
    refine congrArg _ (funext fun ax => Fin.ext ?_)
    match ax with
    | ⟨0, _⟩ => show win1_7.index t (0 : Fin 1) * 512 + 1 * a.val = a.val; omega
  have hx : (fun f : Fin 512 => iblk1 V c 0 t (ix2 (y 0) f)) = fun f => V c main_arg0 (ix2 (((cfg1.win 8).blk t).view.emb y 0) f) := by
    funext f
    show V c main_arg0 (((cfg1.win 0).blk t).view.emb (ix2 (y 0) f)) = V c main_arg0 (ix2 (((cfg1.win 8).blk t).view.emb y 0) f)
    refine congrArg _ (funext fun ax => Fin.ext ?_)
    match ax with
    | ⟨0, _⟩ => show win1_0.index t (0 : Fin 2) * 64 + 1 * (y 0).val = win1_8.index t (0 : Fin 2) * 64 + 1 * (y 0).val; omega
    | ⟨1, _⟩ => show win1_0.index t (1 : Fin 2) * 512 + 1 * f.val = f.val; omega
  have h1 : ((cfg1.win 8).blk t).view.emb y 1 = y 1 :=
    Fin.ext (by show win1_8.index t (1 : Fin 2) * 512 + 1 * (y 1).val = (y 1).val; omega)
  show _ = outAt (V c main_arg0) (V c main_v1) (V c main_arg3) (V c main_v5) (V c main_v2) (V c main_arg5) (V c main_v4) (V c main_arg7) (((cfg1.win 8).blk t).view.emb y 0) (((cfg1.win 8).blk t).view.emb y 1)
  rw [h1]
  unfold outAt
  rw [hW1, hW2, hW3, hW4, hW5, hW6, hW7, hx]

/-- An index of the weights array is in point `t`'s block iff each coordinate is in the block's range on its axis. -/
theorem mem_blk1_9 (t : Fin cfg1.N) (i : S2048x32768.Idx) :
    i ∈ ((cfg1.win 9).blk t).view.set ↔ ∀ a : Fin 2, win1_9.index t a * S64x32768.size a ≤ (i a).val ∧ (i a).val < win1_9.index t a * S64x32768.size a + S64x32768.size a := by
  show i ∈ ((View.whole main_v6_1).slice (win1_9.rect t)).set ↔ _
  rw [View.set_slice_whole, Rect.mem_set_unit]
  exact Iff.rfl

/-- The same for the output array. -/
theorem mem_blk1_8 (t : Fin cfg1.N) (i : S2048x512.Idx) :
    i ∈ ((cfg1.win 8).blk t).view.set ↔ ∀ a : Fin 2, win1_8.index t a * S64x512.size a ≤ (i a).val ∧ (i a).val < win1_8.index t a * S64x512.size a + S64x512.size a := by
  show i ∈ ((View.whole main_v6_0).slice (win1_8.rect t)).set ↔ _
  rw [View.set_slice_whole, Rect.mem_set_unit]
  exact Iff.rfl

/-- Every index of the weights array is in the block of the point its row falls to. -/
theorem covered1_9 (i : S2048x32768.Idx) : ∃ t : Fin cfg1.N, (cfg1.win 9).flush t = true ∧ i ∈ ((cfg1.win 9).blk t).view.set := by
  have hi0 : (i 0).val < 2048 := (i 0).isLt
  have hi1 : (i 1).val < 32768 := (i 1).isLt
  have hN : grid1.N = 32 := N_1
  let t : Fin cfg1.N := ⟨(i 0).val / 64, by show (i 0).val / 64 < grid1.N; omega⟩
  have hv : t.val = (i 0).val / 64 := rfl
  refine ⟨t, flush1_9 t, ?_⟩
  rw [mem_blk1_9]
  obtain ⟨e00, e01, e10, e11, e12, e20, e21, e30, e31, e32, e40, e41, e42, e50, e51, e60, e61, e70, e80, e81, e90, e91⟩ := idx1 t
  intro a
  match a with
  | ⟨0, _⟩ => show win1_9.index t (0 : Fin 2) * 64 ≤ (i 0).val ∧ (i 0).val < win1_9.index t (0 : Fin 2) * 64 + 64; omega
  | ⟨1, _⟩ => show win1_9.index t (1 : Fin 2) * 32768 ≤ (i 1).val ∧ (i 1).val < win1_9.index t (1 : Fin 2) * 32768 + 32768; omega

/-- Every index of the output array is in the block of the point its row falls to. -/
theorem covered1_8 (i : S2048x512.Idx) : ∃ t : Fin cfg1.N, (cfg1.win 8).flush t = true ∧ i ∈ ((cfg1.win 8).blk t).view.set := by
  have hi0 : (i 0).val < 2048 := (i 0).isLt
  have hi1 : (i 1).val < 512 := (i 1).isLt
  have hN : grid1.N = 32 := N_1
  let t : Fin cfg1.N := ⟨(i 0).val / 64, by show (i 0).val / 64 < grid1.N; omega⟩
  have hv : t.val = (i 0).val / 64 := rfl
  refine ⟨t, flush1_8 t, ?_⟩
  rw [mem_blk1_8]
  obtain ⟨e00, e01, e10, e11, e12, e20, e21, e30, e31, e32, e40, e41, e42, e50, e51, e60, e61, e70, e80, e81, e90, e91⟩ := idx1 t
  intro a
  match a with
  | ⟨0, _⟩ => show win1_8.index t (0 : Fin 2) * 64 ≤ (i 0).val ∧ (i 0).val < win1_8.index t (0 : Fin 2) * 64 + 64; omega
  | ⟨1, _⟩ => show win1_8.index t (1 : Fin 2) * 512 ≤ (i 1).val ∧ (i 1).val < win1_8.index t (1 : Fin 2) * 512 + 512; omega

/-- Region 1's weights array after the run. -/
theorem final1_9 (c : Dev nD) : (dat1 V c).arrAt 9 cfg1.N = wFlatOf (V c main_arg0) (V c main_v1) (V c main_arg3) (V c main_v5) :=
  (dat1 V c).arrAt_eq_of_cover 9 _ (fun t _ => flushed1_9_eq V c t) covered1_9

/-- Region 1's output array after the run. -/
theorem final1_8 (c : Dev nD) : (dat1 V c).arrAt 8 cfg1.N
    = outOf (V c main_arg0) (V c main_v1) (V c main_arg3) (V c main_v5) (V c main_v2) (V c main_arg5) (V c main_v4) (V c main_arg7) :=
  (dat1 V c).arrAt_eq_of_cover 8 _ (fun t _ => flushed1_8_eq V c t) covered1_8

end Cert.KernelIdeal.KV

end
-- ==== Proof.KernelGlue.lean ====
/-
  The buffer contents at the boundaries of the idealized kernel's four stretches, at the buffers the regions read and write.
  Before region 0 the host has reshaped the second input to 4096×512, changed the format of three weight arrays (the identity on the
  extended reals) and transposed the output projection. Region 0 writes only the embedded keys; region 1 reads those, the first input,
  and the host's arrays, and writes the output rows and the flat weights; the last host operation reshapes the flat weights to
  [query, head, key]. The arguments are never written.
-/
import proofs.«169984_j1580547972770_2_alg».proof.Proof.Gen.KernelIdeal.Frame
import proofs.«169984_j1580547972770_2_alg».proof.Proof.KernelValue0
import proofs.«169984_j1580547972770_2_alg».proof.Proof.KernelValue1
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## Entering region 0: what the first host stretch leaves -/

theorem V1_v0 (c : Dev nD) : V1 m ρ c main_v0
    = shapeCast S4096x512 (m ((c : Thread nD τ).loc main_arg1)) shapeCasts_S1x4096x512_S4096x512 := by
  show StableHlo.after hostOps0 (W0 m ρ c) (Proc.devRef .tc main_v0) = _
  after_results <;> rfl

theorem V1_v1 (c : Dev nD) : V1 m ρ c main_v1
    = (truncf .bf16 (m ((c : Thread nD τ).loc main_arg2) : FVec Ideal S8x64x512 .f32) bitsLt_bf16_f32 : FVec Ideal S8x64x512 .bf16) := by
  show StableHlo.after hostOps0 (W0 m ρ c) (Proc.devRef .tc main_v1) = _
  after_results <;> rfl

theorem V1_v2 (c : Dev nD) : V1 m ρ c main_v2
    = (truncf .bf16 (m ((c : Thread nD τ).loc main_arg4) : FVec Ideal S8x64x128 .f32) bitsLt_bf16_f32 : FVec Ideal S8x64x128 .bf16) := by
  show StableHlo.after hostOps0 (W0 m ρ c) (Proc.devRef .tc main_v2) = _
  after_results <;> rfl

theorem V1_v4 (c : Dev nD) : V1 m ρ c main_v4
    = (truncf .bf16 (transpose S512x512 [1, 0] (m ((c : Thread nD τ).loc main_arg6) : FVec Ideal S512x512 .f32) transposes_S512x512_S512x512_1_0 : FVec Ideal S512x512 .f32) bitsLt_bf16_f32 : FVec Ideal S512x512 .bf16) := by
  show StableHlo.after hostOps0 (W0 m ρ c) (Proc.devRef .tc main_v4) = _
  after_results <;> rfl

theorem V1_arg0 (c : Dev nD) : V1 m ρ c main_arg0 = m ((c : Thread nD τ).loc main_arg0) := by
  show StableHlo.after hostOps0 (W0 m ρ c) (Proc.devRef .tc main_arg0) = _
  after_results <;> rfl

theorem V1_arg3 (c : Dev nD) : V1 m ρ c main_arg3 = m ((c : Thread nD τ).loc main_arg3) := by
  show StableHlo.after hostOps0 (W0 m ρ c) (Proc.devRef .tc main_arg3) = _
  after_results <;> rfl

theorem V1_arg5 (c : Dev nD) : V1 m ρ c main_arg5 = m ((c : Thread nD τ).loc main_arg5) := by
  show StableHlo.after hostOps0 (W0 m ρ c) (Proc.devRef .tc main_arg5) = _
  after_results <;> rfl

theorem V1_arg7 (c : Dev nD) : V1 m ρ c main_arg7 = m ((c : Thread nD τ).loc main_arg7) := by
  show StableHlo.after hostOps0 (W0 m ρ c) (Proc.devRef .tc main_arg7) = _
  after_results <;> rfl

/-! ## Entering region 1: region 0 has written the embedded keys and nothing else -/

theorem V2_v5 (c : Dev nD) : V2 m ρ c main_v5 = KV.keysOf (V1 m ρ c main_v0) (V1 m ρ c main_v1) (V1 m ρ c main_arg3) :=
  (W2_arr m ρ c 3).trans (KV.final0_3 (V1 m ρ) c)

theorem V2_v1 (c : Dev nD) : V2 m ρ c main_v1 = V1 m ρ c main_v1 :=
  (W2_arr m ρ c 1).trans (((dat0 (V1 m ρ) c).arrAt_in 1 rfl _).trans (A_eq0 (V1 m ρ) c 1))

theorem V2_arg3 (c : Dev nD) : V2 m ρ c main_arg3 = V1 m ρ c main_arg3 :=
  (W2_arr m ρ c 2).trans (((dat0 (V1 m ρ) c).arrAt_in 2 rfl _).trans (A_eq0 (V1 m ρ) c 2))

theorem V2_arg0 (c : Dev nD) : V2 m ρ c main_arg0 = V1 m ρ c main_arg0 := W2_of_ne m ρ c main_arg0 (by decide)
theorem V2_v2 (c : Dev nD) : V2 m ρ c main_v2 = V1 m ρ c main_v2 := W2_of_ne m ρ c main_v2 (by decide)
theorem V2_arg5 (c : Dev nD) : V2 m ρ c main_arg5 = V1 m ρ c main_arg5 := W2_of_ne m ρ c main_arg5 (by decide)
theorem V2_v4 (c : Dev nD) : V2 m ρ c main_v4 = V1 m ρ c main_v4 := W2_of_ne m ρ c main_v4 (by decide)
theorem V2_arg7 (c : Dev nD) : V2 m ρ c main_arg7 = V1 m ρ c main_arg7 := W2_of_ne m ρ c main_arg7 (by decide)

/-! ## Leaving region 1, and the last host operation -/

theorem W3_v6_0 (c : Dev nD) : W3 m ρ c (Proc.devRef .tc main_v6_0)
    = KV.outOf (V2 m ρ c main_arg0) (V2 m ρ c main_v1) (V2 m ρ c main_arg3) (V2 m ρ c main_v5) (V2 m ρ c main_v2) (V2 m ρ c main_arg5)
        (V2 m ρ c main_v4) (V2 m ρ c main_arg7) :=
  (W3_arr m ρ c 8).trans (KV.final1_8 (V2 m ρ) c)

theorem W3_v6_1 (c : Dev nD) : W3 m ρ c (Proc.devRef .tc main_v6_1)
    = KV.wFlatOf (V2 m ρ c main_arg0) (V2 m ρ c main_v1) (V2 m ρ c main_arg3) (V2 m ρ c main_v5) :=
  (W3_arr m ρ c 9).trans (KV.final1_9 (V2 m ρ) c)

theorem W4_v6_0 (c : Dev nD) : W4 m ρ c (Proc.devRef .tc main_v6_0) = W3 m ρ c (Proc.devRef .tc main_v6_0) := by
  show StableHlo.after hostOps2 (W3 m ρ c) (Proc.devRef .tc main_v6_0) = _
  after_results <;> rfl

theorem W4_v7 (c : Dev nD) : W4 m ρ c (Proc.devRef .tc main_v7)
    = shapeCast S2048x8x4096 (W3 m ρ c (Proc.devRef .tc main_v6_1)) shapeCasts_S2048x32768_S2048x8x4096 := by
  show StableHlo.after hostOps2 (W3 m ρ c) (Proc.devRef .tc main_v7) = _
  after_results <;> rfl

end Cert.KernelIdeal.Glue

end
-- ==== Proof.KernelRun.lean ====
/-
  The idealized kernel's run with its two results named. The program is four stretches: host operations, the key-embedding
  region, the attention region, one more host operation. Every weakly fair execution terminates, and in the final state each
  unscoped buffer holds what the fold through those four stretches leaves in it (`Gen.W4`): in particular the two result
  buffers, and the argument arrays, which nothing writes.
-/
import proofs.«169984_j1580547972770_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates without a fault; at the end the two result buffers hold
    the last boundary's contents and the arguments are as launched. -/
theorem run_values : θ_run defs (onTc (τ := τ) (main (F := F))) ⟨m, fun _ => 0, ρ⟩ (fun r => ∀ c : Dev nD,
      r.2.mem ((c.tc : Thread nD τ).loc main_v6_0) = W4 m ρ c (Proc.devRef .tc main_v6_0)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6_0 (by decide)),
       h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunV

end
-- ==== Proof.KernelFinal.lean ====
/-
  The idealized kernel's two results as the specification's arrays of the arguments.
  Region 1's closed forms are stated over the arrays it is entered with; those are the first input, the host's copies of the weights
  (a change of float format: the same values), the transposed output projection (entry (j, c) is entry (c, j) of the argument), and
  region 0's embedded keys, whose input is the second argument with its unit axis dropped (entry (p, f) is entry (0, p, f)). The last
  host operation reads the flat weights at column h·4096 + p as entry (x, h, p).
-/
import proofs.«169984_j1580547972770_2_alg».proof.Proof.KernelGlue
import proofs.«169984_j1580547972770_2_alg».proof.Proof.KernelRun
import proofs.«169984_j1580547972770_2_alg».proof.Proof.Spec

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx

section Arrays

variable (A0 : FVec Ideal S2048x512 .f32) (A1 : FVec Ideal S1x4096x512 .f32) (A2 : FVec Ideal S8x64x512 .f32) (A3 : FVec Ideal S8x64 .f32)
  (A4 : FVec Ideal S8x64x128 .f32) (A5 : FVec Ideal S8x64 .f32) (A6 : FVec Ideal S512x512 .f32) (A7 : FVec Ideal S512 .f32)

/-- The second input with its unit axis dropped: entry (p, f) is entry (0, p, f). -/
theorem reshape_at (p : Fin 4096) (f : Fin 512) :
    shapeCast S4096x512 A1 shapeCasts_S1x4096x512_S4096x512 (ix2 p f) = A1 (ix3 (0 : Fin 1) p f) :=
  shapeCast_apply A1 shapeCasts_S1x4096x512_S4096x512 (ix2 p f) (ix3 (0 : Fin 1) p f)
    (by rewrite [Shape.rowMajor_val_three, Shape.rowMajor_val_two]; show (0 * 4096 + p.val) * 512 + f.val = p.val * 512 + f.val; omega)

/-- The transposed output projection: entry (j, c) is entry (c, j). -/
theorem transpose_at (j c : Fin 512) :
    transpose S512x512 [1, 0] A6 transposes_S512x512_S512x512_1_0 (ix2 j c) = A6 (ix2 c j) :=
  transpose_apply [1, 0] A6 transposes_S512x512_S512x512_1_0 (ix2 j c) (ix2 c j) (fun b => match b with
    | ⟨0, _⟩ => rfl
    | ⟨1, _⟩ => rfl)

/-- Region 0's keys, over the host's arrays, are the specification's embedded keys of the arguments. -/
theorem keys_eq : (fun (h : Fin 8) (p : Fin 4096) (e : Fin 64) => (KV.keysOf (shapeCast S4096x512 A1 shapeCasts_S1x4096x512_S4096x512) (truncf .bf16 A2 bitsLt_bf16_f32 : FVec Ideal S8x64x512 .bf16) A3) (ix3 h p e)) = Cert.Spec.keysArr A1 A2 A3 := by
  funext h p e
  show Cert.Spec.emb (fun h e f => A2 (ix3 h e f)) (fun h e => A3 (ix2 h e))
      (fun f => shapeCast S4096x512 A1 shapeCasts_S1x4096x512_S4096x512 (ix2 p f)) h e
    = Cert.Spec.emb (Cert.Spec.embW A2) (Cert.Spec.embB A3) (fun f => A1 (ix3 (0 : Fin 1) p f)) h e
  simp only [reshape_at]
  rfl

/-- The output rows. -/
theorem out_eq : KV.outOf A0 (truncf .bf16 A2 bitsLt_bf16_f32 : FVec Ideal S8x64x512 .bf16) A3 (KV.keysOf (shapeCast S4096x512 A1 shapeCasts_S1x4096x512_S4096x512) (truncf .bf16 A2 bitsLt_bf16_f32 : FVec Ideal S8x64x512 .bf16) A3) (truncf .bf16 A4 bitsLt_bf16_f32 : FVec Ideal S8x64x128 .bf16) A5
      (truncf .bf16 (transpose S512x512 [1, 0] A6 transposes_S512x512_S512x512_1_0 : FVec Ideal S512x512 .f32) bitsLt_bf16_f32 : FVec Ideal S512x512 .bf16) A7 = Cert.Spec.outArr A0 A1 A2 A3 A4 A5 A6 A7 := by
  funext i
  show Cert.Spec.outRow (fun h e f => A2 (ix3 h e f)) (fun h e => A3 (ix2 h e)) (fun h p e => (KV.keysOf (shapeCast S4096x512 A1 shapeCasts_S1x4096x512_S4096x512) (truncf .bf16 A2 bitsLt_bf16_f32 : FVec Ideal S8x64x512 .bf16) A3) (ix3 h p e))
      (fun h e c => A4 (ix3 h e c)) (fun h e => A5 (ix2 h e))
      (fun j c => transpose S512x512 [1, 0] A6 transposes_S512x512_S512x512_1_0 (ix2 j c)) (fun c => A7 (ix1 c)) (fun f => A0 (ix2 (i 0) f)) (i 1)
    = Cert.Spec.outRow (Cert.Spec.embW A2) (Cert.Spec.embB A3) (Cert.Spec.keysArr A1 A2 A3) (fun h e c => A4 (ix3 h e c)) (fun h e => A5 (ix2 h e))
      (fun j c => A6 (ix2 c j)) (fun c => A7 (ix1 c)) (fun f => A0 (ix2 (i 0) f)) (i 1)
  rw [keys_eq]
  have hT : (fun (j c : Fin 512) => transpose S512x512 [1, 0] A6 transposes_S512x512_S512x512_1_0 (ix2 j c)) = fun j c => A6 (ix2 c j) :=
    funext fun j => funext fun c => transpose_at A6 j c
  rw [hT]
  rfl

/-- A flat column h·4096 + p is head h, key p. -/
theorem wAt_split (B0 : S2048x512.Idx → EReal) (B1 : S8x64x512.Idx → EReal) (B2 : S8x64.Idx → EReal) (B3 : S8x4096x64.Idx → EReal)
    (x : Fin 2048) (h : Fin 8) (p : Fin 4096) (hlt : h.val * 4096 + p.val < 32768) :
    KV.wAt B0 B1 B2 B3 x ⟨h.val * 4096 + p.val, hlt⟩
      = Cert.Spec.headW (fun h e f => B1 (ix3 h e f)) (fun h e => B2 (ix2 h e)) (fun h p e => B3 (ix3 h p e)) (fun f => B0 (ix2 x f)) h p := by
  have hp := p.isLt
  have e1 : (⟨(h.val * 4096 + p.val) / 4096, by omega⟩ : Fin 8) = h := Fin.ext (by show (h.val * 4096 + p.val) / 4096 = h.val; omega)
  have e2 : (⟨(h.val * 4096 + p.val) % 4096, Nat.mod_lt _ (by norm_num)⟩ : Fin 4096) = p :=
    Fin.ext (by show (h.val * 4096 + p.val) % 4096 = p.val; omega)
  show Cert.Spec.headW _ _ _ _ (⟨(h.val * 4096 + p.val) / 4096, _⟩ : Fin 8) (⟨(h.val * 4096 + p.val) % 4096, _⟩ : Fin 4096) = _
  rw [e1, e2]

/-- The weights, reshaped to [query, head, key]. -/
theorem w_eq : shapeCast S2048x8x4096 (KV.wFlatOf A0 (truncf .bf16 A2 bitsLt_bf16_f32 : FVec Ideal S8x64x512 .bf16) A3 (KV.keysOf (shapeCast S4096x512 A1 shapeCasts_S1x4096x512_S4096x512) (truncf .bf16 A2 bitsLt_bf16_f32 : FVec Ideal S8x64x512 .bf16) A3)) shapeCasts_S2048x32768_S2048x8x4096
    = Cert.Spec.wArr A0 A1 A2 A3 := by
  funext i
  obtain ⟨x, h, p, rfl⟩ : ∃ (x : Fin 2048) (h : Fin 8) (p : Fin 4096), i = ix3 x h p := ⟨i 0, i 1, i 2, eq_ix3 i⟩
  have hp := p.isLt
  have hh := h.isLt
  have hlt : h.val * 4096 + p.val < 32768 := by omega
  rw [shapeCast_apply _ shapeCasts_S2048x32768_S2048x8x4096 (ix3 x h p) (ix2 x (⟨h.val * 4096 + p.val, hlt⟩ : Fin 32768))
    (by rewrite [Shape.rowMajor_val_two, Shape.rowMajor_val_three]
        show x.val * 32768 + (h.val * 4096 + p.val) = (x.val * 8 + h.val) * 4096 + p.val; omega)]
  show KV.wAt A0 (truncf .bf16 A2 bitsLt_bf16_f32 : FVec Ideal S8x64x512 .bf16) A3 (KV.keysOf (shapeCast S4096x512 A1 shapeCasts_S1x4096x512_S4096x512) (truncf .bf16 A2 bitsLt_bf16_f32 : FVec Ideal S8x64x512 .bf16) A3) x ⟨h.val * 4096 + p.val, hlt⟩
    = Cert.Spec.headW (Cert.Spec.embW A2) (Cert.Spec.embB A3) (Cert.Spec.keysArr A1 A2 A3) (fun f => A0 (ix2 x f)) h p
  rw [wAt_split]
  show Cert.Spec.headW (fun h e f => A2 (ix3 h e f)) (fun h e => A3 (ix2 h e)) (fun h p e => (KV.keysOf (shapeCast S4096x512 A1 shapeCasts_S1x4096x512_S4096x512) (truncf .bf16 A2 bitsLt_bf16_f32 : FVec Ideal S8x64x512 .bf16) A3) (ix3 h p e)) (fun f => A0 (ix2 x f)) h p = _
  rw [keys_eq]
  rfl

end Arrays

variable (m : (ℓ : Loc nD τ sig) → Buf (Elt Ideal) ℓ) (ρ : Dev nD → PrngReg)

/-- The first result buffer at the end of the run. -/
theorem W4_out (c : Dev nD) : W4 m ρ c (Proc.devRef .tc main_v6_0) = Cert.Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Glue.W4_v6_0, Glue.W3_v6_0, Glue.V2_arg0, Glue.V2_v1, Glue.V2_arg3, Glue.V2_v5, Glue.V2_v2, Glue.V2_arg5, Glue.V2_v4, Glue.V2_arg7,
    Glue.V1_arg0, Glue.V1_v1, Glue.V1_arg3, Glue.V1_v0, Glue.V1_v2, Glue.V1_arg5, Glue.V1_v4, Glue.V1_arg7]
  exact out_eq _ _ _ _ _ _ _ _

/-- The second result buffer at the end of the run. -/
theorem W4_w (c : Dev nD) : W4 m ρ c (Proc.devRef .tc main_v7) = Cert.Spec.wArr (m ((c : Thread nD τ).loc main_arg0)) (m ((c : Thread nD τ).loc main_arg1)) (m ((c : Thread nD τ).loc main_arg2)) (m ((c : Thread nD τ).loc main_arg3)) := by
  rw [Glue.W4_v7, Glue.W3_v6_1, Glue.V2_arg0, Glue.V2_v1, Glue.V2_arg3, Glue.V2_v5, Glue.V1_arg0, Glue.V1_v1, Glue.V1_arg3, Glue.V1_v0]
  exact w_eq _ _ _ _

/-- The idealized kernel's run: every weakly fair execution terminates without a fault, the two results are the specification's
    arrays of the arguments, and the arguments are as launched. -/
theorem kernel_run : θ_run defs (onTc (τ := τ) (main (F := Ideal))) ⟨m, fun _ => 0, ρ⟩ (fun r => ∀ c : Dev nD,
      r.2.mem ((c.tc : Thread nD τ).loc main_v6_0) = Cert.Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v7) = Cert.Spec.wArr (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_out m ρ c), (h c).2.1.trans (W4_w m ρ c), (h c).2.2⟩)
    (RunV.run_values m ρ)

end Cert.KernelIdeal.Final

end
-- ==== Proof.RefSpecQK.lean ====
/-
  The reference's embedded queries and keys, read at coordinates. The reference embeds the 6144 rows of both inputs at once
  (rows below 2048 are the first input's, row 2048 + p is row p of the second input) with the weight on the left of each
  product, and slices the two groups of rows back out; each is the specification's embedding of the corresponding row.
-/
import proofs.«169984_j1580547972770_2_alg».proof.Proof.RefRead
import proofs.«169984_j1580547972770_2_alg».proof.Proof.Spec

noncomputable section

namespace Cert.ReferenceIdeal.RefSpec

open Cert.ReferenceIdeal Cert.ReferenceIdeal.Gen Cert.ReferenceIdeal.ReadP Idealize.ShloMosaic Idealize.ShloMosaic.ValueIdx

/-- Row `x` of the first input among the 6144 joined rows. -/
abbrev rowQ (x : Fin 2048) : Fin 6144 := ⟨x.val, by have := x.isLt; omega⟩
/-- Row `p` of the second input among the 6144 joined rows. -/
abbrev rowK (p : Fin 4096) : Fin 6144 := ⟨2048 + p.val, by have := p.isLt; omega⟩

section
variable (A0 : (⟨S2048x512, .f32⟩ : BufTy).Contents (Elt Ideal)) (A1 : (⟨S1x4096x512, .f32⟩ : BufTy).Contents (Elt Ideal))
    (A2 : (⟨S8x64x512, .f32⟩ : BufTy).Contents (Elt Ideal)) (A3 : (⟨S8x64, .f32⟩ : BufTy).Contents (Elt Ideal))

/-- A joined row below 2048 is that row of the first input. -/
theorem v2_rowQ (x : Fin 2048) (f : Fin 512) :
    val_main_v2 (F := Ideal) A0 A1 (ix2 (rowQ x) f) = A0 (ix2 x f) := by
  unfold val_main_v2
  exact concatenate_pair_apply_left (0 : Fin 2) A0 (val_main_v0 (F := Ideal) A1) concatenates_S2048x512_S4096x512_S6144x512_d0
    (ix2 (rowQ x) f) rfl (ix2 x f) (fun b => by match b with | ⟨0, _⟩ => rfl | ⟨1, _⟩ => rfl)

/-- Joined row 2048 + p is row `p` of the second input (whose leading axis has one entry). -/
theorem v2_rowK (p : Fin 4096) (f : Fin 512) :
    val_main_v2 (F := Ideal) A0 A1 (ix2 (rowK p) f) = A1 (ix3 (0 : Fin 1) p f) := by
  unfold val_main_v2
  refine (concatenate_pair_apply_right (0 : Fin 2) A0 (val_main_v0 (F := Ideal) A1) concatenates_S2048x512_S4096x512_S6144x512_d0
    (ix2 (rowK p) f) rfl rfl (ix2 p f) (fun b hb => by match b with | ⟨0, _⟩ => exact absurd rfl hb | ⟨1, _⟩ => rfl)
    (by show p.val + 2048 = 2048 + p.val; omega)).trans ?_
  rw [val_main_v0_apply]
  refine congrArg A1 (funext fun a => Fin.ext ?_)
  have hp := p.isLt
  have hf := f.isLt
  match a with
  | ⟨0, _⟩ => rfl
  | ⟨1, _⟩ => show (p.val * 512 + f.val) / 512 % 4096 = p.val; omega
  | ⟨2, _⟩ => show (p.val * 512 + f.val) % 512 = f.val; omega

/-- The embedded joined row `n` for head `h` at coordinate `e`: the weight on the left of each product, then the bias. -/
theorem v7_at (h : Fin 8) (n : Fin 6144) (e : Fin 64) :
    val_main_v7 (F := Ideal) A0 A1 A2 A3 (ix3 h n e)
      = (∑ k : Fin 512, A2 (ix3 h e k) * val_main_v2 (F := Ideal) A0 A1 (ix2 n k)) + A3 (ix2 h e) := by
  rw [val_main_v7_apply, val_main_v4_apply, val_main_v3_apply, val_main_v6_apply, val_main_v5_apply, Ideal.addf_def]
  refine congrArg₂ (· + ·) (Finset.sum_congr rfl fun k _ => congrArg₂ (· * ·) (congrArg A2 ?_)
    (congrArg (val_main_v2 (F := Ideal) A0 A1) ?_)) (congrArg A3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl | ⟨1, _⟩ => rfl)

/-- The reference's queries are the specification's embedding of the first input's rows. -/
theorem v8_at (h : Fin 8) (x : Fin 2048) (e : Fin 64) :
    val_main_v8 (F := Ideal) A0 A1 A2 A3 (ix3 h x e)
      = Cert.Spec.emb (Cert.Spec.embW A2) (Cert.Spec.embB A3) (fun f => A0 (ix2 x f)) h e := by
  rw [val_main_v8_apply, show idx_main_v8 (ix3 h x e) = ix3 h (rowQ x) e from
    funext fun a => Fin.ext (by match a with | ⟨0, _⟩ => rfl | ⟨1, _⟩ => rfl | ⟨2, _⟩ => rfl), v7_at]
  unfold Cert.Spec.emb Cert.Spec.embW Cert.Spec.embB
  refine congrArg (· + A3 (ix2 h e)) (Finset.sum_congr rfl fun k _ => ?_)
  rw [v2_rowQ, mul_comm]

/-- The reference's keys are the specification's embedded rows of the second input. -/
theorem v9_at (h : Fin 8) (p : Fin 4096) (e : Fin 64) :
    val_main_v9 (F := Ideal) A0 A1 A2 A3 (ix3 h p e) = Cert.Spec.keysArr A1 A2 A3 h p e := by
  rw [val_main_v9_apply, show idx_main_v9 (ix3 h p e) = ix3 h (rowK p) e from
    funext fun a => Fin.ext (by match a with | ⟨0, _⟩ => rfl | ⟨1, _⟩ => rfl | ⟨2, _⟩ => rfl), v7_at]
  unfold Cert.Spec.keysArr Cert.Spec.emb Cert.Spec.embW Cert.Spec.embB
  refine congrArg (· + A3 (ix2 h e)) (Finset.sum_congr rfl fun k _ => ?_)
  rw [v2_rowK, mul_comm]

end

end Cert.ReferenceIdeal.RefSpec

end
-- ==== Proof.LibSoftmax.lean ====
/-
  One row of scaled dot-product attention over finite index types: `T` the keys, `E` the head's coordinates.
  Two arrangements of the same number, on the extended reals:

  * `rowAttn q K v` = (Σ_t p_t · v_t) / (Σ_t p_t), with p_t = exp (s_t − max_t' s_t') and s_t = Σ_e q_e · K_{t,e}:
    the weighted sum is taken first and divided by the normaliser once (the query `q` already carrying the scale);
  * `refAttn c q K v` = Σ_t (p_t / (0 + Σ_t' p_t')) · v_t, with s_t = (Σ_e q_e · K_{t,e}) · c and the maximum taken
    once more against −∞: each weight is normalised first, and the scale multiplies the finished score.

  For REAL inputs the two agree. Both steps need finiteness: moving the scale across the sum over `e` is
  distributivity, and moving the division across the sum over `t` is distributivity again after noting that the
  normaliser is a positive real (every p_t is the exponential of a real, and there is at least one key).
-/
import Idealize.ShloMosaic.PureOps.Ideal

noncomputable section

namespace Cert.Attn

open Idealize.ShloMosaic

variable {T E : Type} [Fintype T] [Fintype E]

/-- The kernel's arrangement: scores, their maximum from −∞, the exponentials, then ONE division of the weighted sum
    by the sum of the weights. -/
def rowAttn (q : E → EReal) (K : T → E → EReal) (v : T → EReal) : EReal :=
  Ideal.div
    (∑ t, Ideal.exp ((∑ e, q e * K t e) - Finset.univ.fold max ⊥ (fun t' => ∑ e, q e * K t' e)) * v t)
    (∑ t, Ideal.exp ((∑ e, q e * K t e) - Finset.univ.fold max ⊥ (fun t' => ∑ e, q e * K t' e)))

/-- The reference's arrangement: the scale `c` multiplies each finished score, the maximum is taken once more against
    −∞, each weight is divided by `0 +` the sum of the weights, and the normalised weights are summed against `v`. -/
def refAttn (c : EReal) (q : E → EReal) (K : T → E → EReal) (v : T → EReal) : EReal :=
  ∑ t, Ideal.div
      (Ideal.exp ((∑ e, q e * K t e) * c - max ⊥ (Finset.univ.fold max ⊥ (fun t' => (∑ e, q e * K t' e) * c))))
      (0 + ∑ t'', Ideal.exp ((∑ e, q e * K t'' e) * c - max ⊥ (Finset.univ.fold max ⊥ (fun t' => (∑ e, q e * K t' e) * c))))
    * v t

/-- A finite sum of reals, read in the extended reals, is the sum there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from −∞, of finitely many reals over a nonempty index set is one of them. -/
theorem fold_max_coe [Nonempty T] (S : T → ℝ) :
    ∃ t₀ : T, Finset.univ.fold max ⊥ (fun t => (S t : EReal)) = (S t₀ : EReal) := by
  obtain ⟨t₀, -, h⟩ := Finset.exists_mem_eq_sup (Finset.univ : Finset T) Finset.univ_nonempty (fun t => (S t : EReal))
  exact ⟨t₀, h⟩

/-- **The two arrangements agree on real inputs**, the kernel's query carrying the scale the reference applies to
    the score. -/
theorem refAttn_eq_rowAttn [Nonempty T] (c : ℝ) (q : E → ℝ) (K : T → E → ℝ) (v : T → ℝ) :
    refAttn (c : EReal) (fun e => (q e : EReal)) (fun t e => (K t e : EReal)) (fun t => (v t : EReal))
      = rowAttn (fun e => (q e : EReal) * (c : EReal)) (fun t e => (K t e : EReal)) (fun t => (v t : EReal)) := by
  -- the scores are reals, the same on both sides
  have hsR : ∀ t, (∑ e, (q e : EReal) * (K t e : EReal)) * (c : EReal) = ((∑ e, q e * c * K t e : ℝ) : EReal) := fun t => by
    simp only [← EReal.coe_mul, ← coe_sum]
    exact congrArg _ (by rw [Finset.sum_mul]; exact Finset.sum_congr rfl fun e _ => by ring)
  have hsK : ∀ t, (∑ e, (q e : EReal) * (c : EReal) * (K t e : EReal)) = ((∑ e, q e * c * K t e : ℝ) : EReal) := fun t => by
    simp only [← EReal.coe_mul, ← coe_sum]
  unfold refAttn rowAttn
  simp only [hsR, hsK]
  -- their maximum is one of them
  obtain ⟨t₀, hm⟩ := fold_max_coe (fun t => ∑ e, q e * c * K t e)
  rw [hm, max_eq_right bot_le]
  -- so each weight is the exponential of a real, and the normaliser a positive real
  simp only [← EReal.coe_sub, Ideal.exp_coe]
  simp only [← coe_sum, ← EReal.coe_mul, zero_add]
  have hL : (∑ t : T, Real.exp ((∑ e, q e * c * K t e) - ∑ e, q e * c * K t₀ e)) ≠ 0 :=
    ne_of_gt (Finset.sum_pos (fun t _ => Real.exp_pos _) Finset.univ_nonempty)
  simp only [Ideal.div_coe hL, ← EReal.coe_mul, ← coe_sum]
  -- and the division moves across the sum over the keys
  refine congrArg _ ?_
  rw [Finset.sum_mul]
  exact Finset.sum_congr rfl fun t _ => by ring

end Cert.Attn

end
-- ==== Proof.RefSpecScore.lean ====
/-
  The reference's scores are the specification's. The reference divides the finished sum Σ_e q_e · k_e by sqrt 64 = 8; the
  specification puts the factor 1/8 on each query coordinate inside the sum. With real inputs every q_e and k_e is a real, and
  the two agree by distributivity in ℝ.
-/
import proofs.«169984_j1580547972770_2_alg».proof.Proof.RefSpecQK
import proofs.«169984_j1580547972770_2_alg».proof.Proof.LibSoftmax

noncomputable section

namespace Cert.ReferenceIdeal.RefSpec

open Cert.ReferenceIdeal Cert.ReferenceIdeal.Gen Cert.ReferenceIdeal.ReadP Idealize.ShloMosaic Idealize.ShloMosaic.ValueIdx

/-- The float 64.0. -/
theorem ofBits_64 : Ideal.ofBits .f32 0x42800000#32 = ((64 : ℝ) : EReal) := by
  simp [Ideal.ofBits, Ideal.ieee]
  first
  | (rw [← EReal.coe_mul]; exact congrArg _ (by norm_num))
  | (norm_cast; norm_num)

/-- The float 0.125 is exactly 1/8. -/
theorem ofBits_eighth : Ideal.ofBits .f32 0x3E000000#32 = (((1 : ℝ) / 8 : ℝ) : EReal) := by
  simp [Ideal.ofBits, Ideal.ieee]
  first
  | (rw [← EReal.coe_mul]; exact congrArg _ (by norm_num))
  | (norm_cast; norm_num)

/-- The square root of the float 64.0 is 8. -/
theorem sqrt_ofBits_64 : Ideal.sqrt (Ideal.ofBits .f32 0x42800000#32) = ((8 : ℝ) : EReal) := by
  rw [ofBits_64, Ideal.sqrt_coe, if_neg (by norm_num)]
  refine congrArg _ ?_
  rw [show (64 : ℝ) = 8 ^ 2 by norm_num]
  exact Real.sqrt_sq (by norm_num)

/-- A row of reals embedded with real weights and biases is a row of reals. -/
theorem emb_real (We : Fin 8 → Fin 64 → Fin 512 → EReal) (be : Fin 8 → Fin 64 → EReal) (r : Fin 512 → EReal)
    (hW : ∀ h e f, ∃ x : ℝ, We h e f = (x : EReal)) (hb : ∀ h e, ∃ x : ℝ, be h e = (x : EReal))
    (hr : ∀ f, ∃ x : ℝ, r f = (x : EReal)) (h : Fin 8) (e : Fin 64) :
    ∃ y : ℝ, Cert.Spec.emb We be r h e = (y : EReal) := by
  choose w hw using hW
  choose b hb' using hb
  choose ρ hρ using hr
  refine ⟨(∑ f, ρ f * w h e f) + b h e, ?_⟩
  unfold Cert.Spec.emb
  simp only [hw, hb', hρ, ← EReal.coe_mul, ← Cert.Attn.coe_sum, ← EReal.coe_add]

/-- For real vectors, the finished sum divided by sqrt 64 is the sum with 1/8 on each first factor. -/
theorem div_sqrt64_eq_scaled (q k : Fin 64 → ℝ) :
    Ideal.div (∑ e : Fin 64, (q e : EReal) * (k e : EReal)) (Ideal.sqrt (Ideal.ofBits .f32 0x42800000#32))
      = ∑ e : Fin 64, ((q e : EReal) * Cert.Spec.scale) * (k e : EReal) := by
  rw [sqrt_ofBits_64, Ideal.div_coe (by norm_num : (8 : ℝ) ≠ 0)]
  simp only [Cert.Spec.scale, ofBits_eighth, ← EReal.coe_mul, ← Cert.Attn.coe_sum]
  refine congrArg _ ?_
  rw [Finset.sum_mul]
  exact Finset.sum_congr rfl fun e _ => by ring

section
variable (A0 : (⟨S2048x512, .f32⟩ : BufTy).Contents (Elt Ideal)) (A1 : (⟨S1x4096x512, .f32⟩ : BufTy).Contents (Elt Ideal))
    (A2 : (⟨S8x64x512, .f32⟩ : BufTy).Contents (Elt Ideal)) (A3 : (⟨S8x64, .f32⟩ : BufTy).Contents (Elt Ideal))

/-- The reference's scores are the specification's scores of the embedded query row against the head's keys. -/
theorem v12_at (h0 : ∀ i, ∃ x : ℝ, A0 i = (x : EReal)) (h1 : ∀ i, ∃ x : ℝ, A1 i = (x : EReal))
    (h2 : ∀ i, ∃ x : ℝ, A2 i = (x : EReal)) (h3 : ∀ i, ∃ x : ℝ, A3 i = (x : EReal))
    (h : Fin 8) (x : Fin 2048) (p : Fin 4096) :
    val_main_v12 (F := Ideal) A0 A1 A2 A3 (ix3 h x p)
      = Cert.Spec.score (Cert.Spec.emb (Cert.Spec.embW A2) (Cert.Spec.embB A3) (fun f => A0 (ix2 x f)) h)
          (Cert.Spec.keysArr A1 A2 A3 h) p := by
  rw [val_main_v12_apply, val_main_v10_apply, val_main_v11_apply, val_main_v1_apply, val_main_cst_apply]
  simp only [Ideal.hostDivf_def, Ideal.hostUnary_sqrt_def, Ideal.ofBits_def]
  have hl : ∀ k : Fin 64, val_main_v8 (F := Ideal) A0 A1 A2 A3 (lidx_main_v10 (ix3 h x p) k)
      = Cert.Spec.emb (Cert.Spec.embW A2) (Cert.Spec.embB A3) (fun f => A0 (ix2 x f)) h k := fun k => by
    rw [show lidx_main_v10 (ix3 h x p) k = ix3 h x k from
      funext fun a => Fin.ext (by match a with | ⟨0, _⟩ => rfl | ⟨1, _⟩ => rfl | ⟨2, _⟩ => rfl), v8_at]
  have hr : ∀ k : Fin 64, val_main_v9 (F := Ideal) A0 A1 A2 A3 (ridx_main_v10 (ix3 h x p) k)
      = Cert.Spec.keysArr A1 A2 A3 h p k := fun k => by
    rw [show ridx_main_v10 (ix3 h x p) k = ix3 h p k from
      funext fun a => Fin.ext (by match a with | ⟨0, _⟩ => rfl | ⟨1, _⟩ => rfl | ⟨2, _⟩ => rfl), v9_at]
  rw [Finset.sum_congr rfl fun k _ => congrArg₂ (· * ·) (hl k) (hr k)]
  have hq : ∀ e, ∃ y : ℝ, Cert.Spec.emb (Cert.Spec.embW A2) (Cert.Spec.embB A3) (fun f => A0 (ix2 x f)) h e = (y : EReal) :=
    fun e => emb_real _ _ _ (fun _ _ _ => h2 _) (fun _ _ => h3 _) (fun _ => h0 _) h e
  have hk : ∀ e, ∃ y : ℝ, Cert.Spec.keysArr A1 A2 A3 h p e = (y : EReal) :=
    fun e => emb_real _ _ _ (fun _ _ _ => h2 _) (fun _ _ => h3 _) (fun _ => h1 _) h e
  choose q hq' using hq
  choose κ hκ using hk
  unfold Cert.Spec.score
  simp only [hq', hκ]
  exact div_sqrt64_eq_scaled q κ

end

end Cert.ReferenceIdeal.RefSpec

end
-- ==== Proof.RefSpecW.lean ====
/-
  The reference's softmax weights, read at coordinates, are the specification's weights of the row of scores. The reference
  folds the row maximum from −∞ and takes the maximum once more against −∞ (which changes nothing), and sums the exponentials
  from 0 (which changes nothing); the two keep-dims broadcasts read the row's value at every key.
-/
import proofs.«169984_j1580547972770_2_alg».proof.Proof.RefSpecScore

noncomputable section

namespace Cert.ReferenceIdeal.RefSpec

open Cert.ReferenceIdeal Cert.ReferenceIdeal.Gen Cert.ReferenceIdeal.ReadP Idealize.ShloMosaic Idealize.ShloMosaic.ValueIdx

/-- The float −∞. -/
theorem ofBits_neg_inf : Ideal.ofBits .f32 0xFF800000#32 = (⊥ : EReal) := by
  simp [Ideal.ofBits, Ideal.ieee]

section
variable (A0 : (⟨S2048x512, .f32⟩ : BufTy).Contents (Elt Ideal)) (A1 : (⟨S1x4096x512, .f32⟩ : BufTy).Contents (Elt Ideal))
    (A2 : (⟨S8x64x512, .f32⟩ : BufTy).Contents (Elt Ideal)) (A3 : (⟨S8x64, .f32⟩ : BufTy).Contents (Elt Ideal))

/-- The row maximum the reference subtracts: the fold of `max` from −∞ over the row of scores. -/
theorem v15_at (h : Fin 8) (x : Fin 2048) :
    val_main_v15 (F := Ideal) A0 A1 A2 A3 (ix2 h x)
      = Finset.univ.fold max ⊥ (fun p : Fin 4096 => val_main_v12 (F := Ideal) A0 A1 A2 A3 (ix3 h x p)) := by
  have hR : S8x2048x4096.Reduces [2] S8x2048 := by decide
  have hf : (val_main_v12 (F := Ideal) A0 A1 A2 A3 ∘ hR.lift (ix2 h x))
      = fun p : Fin 4096 => val_main_v12 (F := Ideal) A0 A1 A2 A3 (ix3 h x p) :=
    funext fun k => congrArg (val_main_v12 (F := Ideal) A0 A1 A2 A3)
      (funext fun a => Fin.ext (by match a with | ⟨0, _⟩ => rfl | ⟨1, _⟩ => rfl | ⟨2, _⟩ => rfl))
  rw [val_main_v15_apply, val_main_v14_apply, val_main_cst_1_apply]
  simp only [Ideal.maximumf_def, Ideal.ofBits_def, ofBits_neg_inf]
  rw [max_eq_right bot_le]
  unfold val_main_v13
  rw [Host.reduce_eq_fold_single (FloatOps.maximumf (F := Ideal) (φ := .f32)) _ _ reducesTo_S8x2048x4096_S8x2048_d2 hR h_S_,
    val_main_cst_0_apply, Ideal.ofBits_def, ofBits_neg_inf]
  exact congrArg (fun f => Finset.fold max (⊥ : EReal) f (Finset.univ : Finset (Fin 4096))) hf

/-- The exponentials: each score minus the row maximum. -/
theorem v19_at (h : Fin 8) (x : Fin 2048) (p : Fin 4096) :
    val_main_v19 (F := Ideal) A0 A1 A2 A3 (ix3 h x p)
      = Ideal.exp (val_main_v12 (F := Ideal) A0 A1 A2 A3 (ix3 h x p)
          - Finset.univ.fold max ⊥ (fun p' : Fin 4096 => val_main_v12 (F := Ideal) A0 A1 A2 A3 (ix3 h x p'))) := by
  rw [val_main_v19_apply, val_main_v18_apply, val_main_v17_apply, val_main_v16_apply,
    show idx_main_v16 (idx_main_v17 (ix3 h x p)) = ix2 h x from
      funext fun a => Fin.ext (by match a with | ⟨0, _⟩ => rfl | ⟨1, _⟩ => rfl), v15_at]
  simp only [Ideal.hostUnary_exp_def, Ideal.subf_def]

/-- The reference's weights are the specification's softmax of the row of scores. -/
theorem v23_at_scores (h : Fin 8) (x : Fin 2048) (p : Fin 4096) :
    val_main_v23 (F := Ideal) A0 A1 A2 A3 (ix3 h x p)
      = Cert.Spec.weight (fun p' : Fin 4096 => val_main_v12 (F := Ideal) A0 A1 A2 A3 (ix3 h x p')) p := by
  rw [val_main_v23_apply, val_main_v22_apply, val_main_v21_apply,
    show idx_main_v21 (idx_main_v22 (ix3 h x p)) = ix2 h x from
      funext fun a => Fin.ext (by match a with | ⟨0, _⟩ => rfl | ⟨1, _⟩ => rfl), val_main_v20_apply, val_main_cst_2_apply]
  simp only [Ideal.hostDivf_def, Ideal.ofBits_def, Ideal.ofBits_zero_f32, zero_add]
  rw [Finset.sum_congr rfl fun k _ => (congrArg (val_main_v19 (F := Ideal) A0 A1 A2 A3)
      (show idx_main_v20 (ix2 h x) k = ix3 h x k from
        funext fun a => Fin.ext (by match a with | ⟨0, _⟩ => rfl | ⟨1, _⟩ => rfl | ⟨2, _⟩ => rfl))).trans (v19_at A0 A1 A2 A3 h x k),
    v19_at]
  rfl

/-- With real inputs: the specification's weights of head `h` for the query row `x`. -/
theorem v23_at (h0 : ∀ i, ∃ x : ℝ, A0 i = (x : EReal)) (h1 : ∀ i, ∃ x : ℝ, A1 i = (x : EReal))
    (h2 : ∀ i, ∃ x : ℝ, A2 i = (x : EReal)) (h3 : ∀ i, ∃ x : ℝ, A3 i = (x : EReal))
    (h : Fin 8) (x : Fin 2048) (p : Fin 4096) :
    val_main_v23 (F := Ideal) A0 A1 A2 A3 (ix3 h x p)
      = Cert.Spec.headW (Cert.Spec.embW A2) (Cert.Spec.embB A3) (Cert.Spec.keysArr A1 A2 A3) (fun f => A0 (ix2 x f)) h p := by
  rw [v23_at_scores, funext fun p' => v12_at A0 A1 A2 A3 h0 h1 h2 h3 h x p']
  rfl

end

end Cert.ReferenceIdeal.RefSpec

end
-- ==== Proof.RefSpecOut.lean ====
/-
  The reference's output rows. After the weights: the attended vector is the weights summed against the keys; the
  concatenation along the last axis puts the attended vector before the query; the per-head layer multiplies by the fusing
  weights, adds the bias and clamps at 0; the transpose and reshape lay the eight heads' 64 coordinates side by side (column j
  is head j / 64, coordinate j % 64); the output projection is read transposed, then come the residual, the bias and the clamp.
-/
import proofs.«169984_j1580547972770_2_alg».proof.Proof.RefSpecW

noncomputable section

namespace Cert.ReferenceIdeal.RefSpec

open Cert.ReferenceIdeal Cert.ReferenceIdeal.Gen Cert.ReferenceIdeal.ReadP Idealize.ShloMosaic Idealize.ShloMosaic.ValueIdx

section
variable (A0 : (⟨S2048x512, .f32⟩ : BufTy).Contents (Elt Ideal)) (A1 : (⟨S1x4096x512, .f32⟩ : BufTy).Contents (Elt Ideal))
    (A2 : (⟨S8x64x512, .f32⟩ : BufTy).Contents (Elt Ideal)) (A3 : (⟨S8x64, .f32⟩ : BufTy).Contents (Elt Ideal))
    (A4 : (⟨S8x64x128, .f32⟩ : BufTy).Contents (Elt Ideal)) (A5 : (⟨S8x64, .f32⟩ : BufTy).Contents (Elt Ideal))
    (A6 : (⟨S512x512, .f32⟩ : BufTy).Contents (Elt Ideal)) (A7 : (⟨S512, .f32⟩ : BufTy).Contents (Elt Ideal))
    (h0 : ∀ i, ∃ x : ℝ, A0 i = (x : EReal)) (h1 : ∀ i, ∃ x : ℝ, A1 i = (x : EReal))
    (h2 : ∀ i, ∃ x : ℝ, A2 i = (x : EReal)) (h3 : ∀ i, ∃ x : ℝ, A3 i = (x : EReal))

include h0 h1 h2 h3

/-- The attended vector: the weights summed against the head's keys. -/
theorem v24_at (h : Fin 8) (x : Fin 2048) (e : Fin 64) :
    val_main_v24 (F := Ideal) A0 A1 A2 A3 (ix3 h x e)
      = Cert.Spec.attend (Cert.Spec.headW (Cert.Spec.embW A2) (Cert.Spec.embB A3) (Cert.Spec.keysArr A1 A2 A3)
          (fun f => A0 (ix2 x f)) h) (Cert.Spec.keysArr A1 A2 A3 h) e := by
  rw [val_main_v24_apply]
  unfold Cert.Spec.attend
  refine Finset.sum_congr rfl fun k _ => congrArg₂ (· * ·) ?_ ?_
  · rw [show lidx_main_v24 (ix3 h x e) k = ix3 h x k from funext fun a => Fin.ext (by match a with | ⟨0, _⟩ => rfl | ⟨1, _⟩ => rfl | ⟨2, _⟩ => rfl),
      v23_at A0 A1 A2 A3 h0 h1 h2 h3]
  · rw [show ridx_main_v24 (ix3 h x e) k = ix3 h k e from funext fun a => Fin.ext (by match a with | ⟨0, _⟩ => rfl | ⟨1, _⟩ => rfl | ⟨2, _⟩ => rfl),
      v9_at]

/-- The 128-vector the per-head layer reads: the attended vector, then the query. -/
theorem v25_at (h : Fin 8) (x : Fin 2048) (c : Fin 128) :
    val_main_v25 (F := Ideal) A0 A1 A2 A3 (ix3 h x c)
      = Cert.Spec.cat (Cert.Spec.attend (Cert.Spec.headW (Cert.Spec.embW A2) (Cert.Spec.embB A3) (Cert.Spec.keysArr A1 A2 A3)
            (fun f => A0 (ix2 x f)) h) (Cert.Spec.keysArr A1 A2 A3 h))
          (Cert.Spec.emb (Cert.Spec.embW A2) (Cert.Spec.embB A3) (fun f => A0 (ix2 x f)) h) c := by
  unfold Cert.Spec.cat val_main_v25
  by_cases hc : c.val < 64
  · rw [dif_pos hc]
    exact (concatenate_pair_apply_left (2 : Fin 3) (val_main_v24 (F := Ideal) A0 A1 A2 A3) (val_main_v8 (F := Ideal) A0 A1 A2 A3)
      concatenates_S8x2048x64_S8x2048x64_S8x2048x128_d2 (ix3 h x c) rfl (ix3 h x (⟨c.val, hc⟩ : Fin 64))
      (fun b => by match b with | ⟨0, _⟩ => rfl | ⟨1, _⟩ => rfl | ⟨2, _⟩ => rfl)).trans
      (v24_at A0 A1 A2 A3 h0 h1 h2 h3 h x ⟨c.val, hc⟩)
  · rw [dif_neg hc]
    exact (concatenate_pair_apply_right (2 : Fin 3) (val_main_v24 (F := Ideal) A0 A1 A2 A3) (val_main_v8 (F := Ideal) A0 A1 A2 A3)
      concatenates_S8x2048x64_S8x2048x64_S8x2048x128_d2 (ix3 h x c) rfl rfl
      (ix3 h x (⟨c.val - 64, by have := c.isLt; omega⟩ : Fin 64))
      (fun b hb => by match b with | ⟨0, _⟩ => rfl | ⟨1, _⟩ => rfl | ⟨2, _⟩ => exact absurd rfl hb)
      (by show (c.val - 64) + 64 = c.val; omega)).trans
      (v8_at A0 A1 A2 A3 h x _)

/-- The per-head layer with its clamp at 0: the specification's fused vector of head `h`. -/
theorem v30_at (h : Fin 8) (x : Fin 2048) (e : Fin 64) :
    val_main_v30 (F := Ideal) A0 A1 A2 A3 A4 A5 (ix3 h x e)
      = Cert.Spec.headMlp (Cert.Spec.embW A2) (Cert.Spec.embB A3) (Cert.Spec.keysArr A1 A2 A3)
          (fun h e c => A4 (ix3 h e c)) (fun h e => A5 (ix2 h e)) (fun f => A0 (ix2 x f)) h e := by
  rw [val_main_v30_apply, val_main_v29_apply, val_main_v26_apply, val_main_v28_apply, val_main_v27_apply,
    val_main_call0_v0_apply, val_main_call0_cst_apply]
  simp only [Ideal.maximumf_def, Ideal.addf_def, Ideal.ofBits_def, Ideal.ofBits_zero_f32]
  unfold Cert.Spec.headMlp Cert.Spec.mlp
  refine congrArg (max · 0) (congrArg₂ (· + ·) (Finset.sum_congr rfl fun k _ => congrArg₂ (· * ·) ?_ (congrArg A4 ?_))
    (congrArg A5 ?_))
  · rw [show lidx_main_v26 (ix3 h x e) k = ix3 h x k from funext fun a => Fin.ext (by match a with | ⟨0, _⟩ => rfl | ⟨1, _⟩ => rfl | ⟨2, _⟩ => rfl),
      v25_at A0 A1 A2 A3 h0 h1 h2 h3]
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The heads side by side: column `j` of the reshaped array is head `j / 64`, coordinate `j % 64`. -/
theorem v32_at (x : Fin 2048) (j : Fin 512) :
    val_main_v32 (F := Ideal) A0 A1 A2 A3 A4 A5 (ix2 x j)
      = Cert.Spec.fused (Cert.Spec.embW A2) (Cert.Spec.embB A3) (Cert.Spec.keysArr A1 A2 A3)
          (fun h e c => A4 (ix3 h e c)) (fun h e => A5 (ix2 h e)) (fun f => A0 (ix2 x f)) j := by
  rw [val_main_v32_apply, val_main_v31_apply,
    show idx_main_v31 (idx_main_v32 (ix2 x j))
        = ix3 (⟨j.val / 64, by have := j.isLt; omega⟩ : Fin 8) x (⟨j.val % 64, Nat.mod_lt _ (by norm_num)⟩ : Fin 64) from
      funext fun a => Fin.ext (by
        have hx := x.isLt
        have hj := j.isLt
        match a with
        | ⟨0, _⟩ => show (x.val * 512 + j.val) / 64 % 8 = j.val / 64; omega
        | ⟨1, _⟩ => show (x.val * 512 + j.val) / 512 = x.val; omega
        | ⟨2, _⟩ => show (x.val * 512 + j.val) % 64 = j.val % 64; omega),
    v30_at A0 A1 A2 A3 A4 A5 h0 h1 h2 h3]
  rfl

/-- The output row: residual, output projection read transposed, bias, clamp at 0. -/
theorem v39_at (x : Fin 2048) (c : Fin 512) :
    val_main_v39 (F := Ideal) A0 A1 A2 A3 A4 A5 A6 A7 (ix2 x c)
      = Cert.Spec.outRow (Cert.Spec.embW A2) (Cert.Spec.embB A3) (Cert.Spec.keysArr A1 A2 A3)
          (fun h e c => A4 (ix3 h e c)) (fun h e => A5 (ix2 h e)) (fun j c => A6 (ix2 c j)) (fun c => A7 (ix1 c))
          (fun f => A0 (ix2 x f)) c := by
  rw [val_main_v39_apply, val_main_v38_apply, val_main_v35_apply, val_main_v34_apply, val_main_v37_apply, val_main_v36_apply,
    val_main_call1_v0_apply, val_main_call1_cst_apply]
  simp only [Ideal.maximumf_def, Ideal.addf_def, Ideal.ofBits_def, Ideal.ofBits_zero_f32]
  unfold Cert.Spec.outRow
  refine congrArg (max · 0) (congrArg₂ (· + ·) (congrArg (A0 (ix2 x c) + ·)
    (Finset.sum_congr rfl fun k _ => congrArg₂ (· * ·) ?_ ?_)) (congrArg A7 ?_))
  · rw [show lidx_main_v34 (ix2 x c) k = ix2 x k from funext fun a => Fin.ext (by match a with | ⟨0, _⟩ => rfl | ⟨1, _⟩ => rfl),
      v32_at A0 A1 A2 A3 A4 A5 h0 h1 h2 h3]
  · rw [val_main_v33_apply]
    exact congrArg A6 (funext fun a => Fin.ext (by match a with | ⟨0, _⟩ => rfl | ⟨1, _⟩ => rfl))
  · exact funext fun a => Fin.ext (by match a with | ⟨0, _⟩ => rfl)

end

end Cert.ReferenceIdeal.RefSpec

end
-- ==== Proof.RefSpec.lean ====
/-
  The reference's two results, read index by index, are the specification's arrays of the arguments.
  The reference embeds the concatenation of both inputs at once (weights on the left of each product), slices the queries and the
  keys back out, divides the finished scores by sqrt 64, takes the row maximum once more against −∞ and the row sum from 0,
  and otherwise computes what the specification says. On real inputs the scores agree: 1/8 on each query coordinate inside the sum
  is the finished sum divided by 8.
-/
import proofs.«169984_j1580547972770_2_alg».proof.Proof.RefRead
import proofs.«169984_j1580547972770_2_alg».proof.Proof.Spec
import proofs.«169984_j1580547972770_2_alg».proof.Proof.RefSpecOut

noncomputable section

namespace Cert.ReferenceIdeal.RefSpec

open Cert.ReferenceIdeal Cert.ReferenceIdeal.Gen Cert.ReferenceIdeal.ReadP Idealize.ShloMosaic Idealize.ShloMosaic.ValueIdx

/-- The attention weights the reference returns. -/
theorem val_v40_eq_wArr (A0 : (⟨S2048x512, .f32⟩ : BufTy).Contents (Elt Ideal)) (A1 : (⟨S1x4096x512, .f32⟩ : BufTy).Contents (Elt Ideal))
    (A2 : (⟨S8x64x512, .f32⟩ : BufTy).Contents (Elt Ideal)) (A3 : (⟨S8x64, .f32⟩ : BufTy).Contents (Elt Ideal))
    (h0 : ∀ i, ∃ x : ℝ, A0 i = (x : EReal)) (h1 : ∀ i, ∃ x : ℝ, A1 i = (x : EReal))
    (h2 : ∀ i, ∃ x : ℝ, A2 i = (x : EReal)) (h3 : ∀ i, ∃ x : ℝ, A3 i = (x : EReal)) :
    val_main_v40 (F := Ideal) A0 A1 A2 A3 = Cert.Spec.wArr A0 A1 A2 A3 := by
  funext i
  obtain ⟨x, h, p, rfl⟩ : ∃ (x : Fin 2048) (h : Fin 8) (p : Fin 4096), i = ix3 x h p := ⟨i 0, i 1, i 2, eq_ix3 i⟩
  rw [val_main_v40_apply, show idx_main_v40 (ix3 x h p) = ix3 h x p from
    funext fun a => Fin.ext (by match a with | ⟨0, _⟩ => rfl | ⟨1, _⟩ => rfl | ⟨2, _⟩ => rfl),
    v23_at A0 A1 A2 A3 h0 h1 h2 h3]
  rfl

/-- The output rows the reference returns. -/
theorem val_v39_eq_outArr (A0 : (⟨S2048x512, .f32⟩ : BufTy).Contents (Elt Ideal)) (A1 : (⟨S1x4096x512, .f32⟩ : BufTy).Contents (Elt Ideal))
    (A2 : (⟨S8x64x512, .f32⟩ : BufTy).Contents (Elt Ideal)) (A3 : (⟨S8x64, .f32⟩ : BufTy).Contents (Elt Ideal))
    (A4 : (⟨S8x64x128, .f32⟩ : BufTy).Contents (Elt Ideal)) (A5 : (⟨S8x64, .f32⟩ : BufTy).Contents (Elt Ideal))
    (A6 : (⟨S512x512, .f32⟩ : BufTy).Contents (Elt Ideal)) (A7 : (⟨S512, .f32⟩ : BufTy).Contents (Elt Ideal))
    (h0 : ∀ i, ∃ x : ℝ, A0 i = (x : EReal)) (h1 : ∀ i, ∃ x : ℝ, A1 i = (x : EReal))
    (h2 : ∀ i, ∃ x : ℝ, A2 i = (x : EReal)) (h3 : ∀ i, ∃ x : ℝ, A3 i = (x : EReal)) :
    val_main_v39 (F := Ideal) A0 A1 A2 A3 A4 A5 A6 A7 = Cert.Spec.outArr A0 A1 A2 A3 A4 A5 A6 A7 := by
  funext i
  obtain ⟨x, c, rfl⟩ : ∃ (x : Fin 2048) (c : Fin 512), i = ix2 x c := ⟨i 0, i 1, eq_ix2 i⟩
  exact v39_at A0 A1 A2 A3 A4 A5 A6 A7 h0 h1 h2 h3 x c

end Cert.ReferenceIdeal.RefSpec

end
-- ==== Proof.Finite.lean ====
/-
  The precondition says each float input's absolute value is below +∞ everywhere; on the extended reals that makes every entry a
  real number. Stated for the four inputs whose finiteness the value proof uses (the two data arrays and the embedding's weights and
  biases): the precondition is a conjunction of eight "all entries" tests, each a reduction by `and` of entrywise comparisons.
-/
import proofs.«169984_j1580547972770_2_alg».proof.Pre_finite_inputs
import proofs.«169984_j1580547972770_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Cert.Pre_finite_inputs.Gen Idealize.ShloMosaic

/-- The scalar shape has one index. -/
instance : Subsingleton S_.Idx := ⟨fun a b => funext fun d => d.elim0⟩

/-- The f32 word of +∞ is the top of the extended reals. -/
private theorem ofBits_posInf : Ideal.ofBits .f32 0x7F800000#32 = ⊤ := by simp [Ideal.ofBits, Ideal.ieee]

/-- An extended real whose absolute value is below +∞ is a real number: at either infinity the absolute value is +∞ itself. -/
private theorem real_of_abs_lt_top (a : EReal) (h : Ideal.cmp .olt (max a (-a)) ⊤ = 1#1) : ∃ r : ℝ, a = (r : EReal) := by
  induction a using EReal.rec with
  | bot => exfalso; simp [Ideal.cmp] at h
  | top => exfalso; simp [Ideal.cmp] at h
  | coe r => exact ⟨r, rfl⟩

/-- One all-entries test read back: if the reduction by and of the entrywise comparisons |x| < +∞ is 1, every entry of x is a
    real number. -/
private theorem real_of_test {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
        (constantI S_ 1 1#1) hr hu ValueIdx.ix0 = 1#1) (i : s.Idx) : ∃ r : ℝ, x i = (r : EReal) := by
  have hi : Ideal.cmp .olt (max (x i) (-(x i))) (Ideal.ofBits .f32 0x7F800000#32) = 1#1 :=
    Host.reduce_andi_all _ _ hr hu ValueIdx.ix0 e i
  rw [ofBits_posInf] at hi
  exact real_of_abs_lt_top (x i) hi

/-- If the precondition's function is all ones on eight arrays, every entry of the first four is a real number. -/
theorem real_of_fn (x0 : FVec Ideal S2048x512 .f32) (x1 : FVec Ideal S1x4096x512 .f32) (x2 : FVec Ideal S8x64x512 .f32)
    (x3 : FVec Ideal S8x64 .f32) (x4 : FVec Ideal S8x64x128 .f32) (x5 : FVec Ideal S8x64 .f32) (x6 : FVec Ideal S512x512 .f32)
    (x7 : FVec Ideal S512 .f32) (h : fn (F := Ideal) x0 x1 x2 x3 x4 x5 x6 x7 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have e : IntOp.andi _ _ = 1#1 := congrFun h ValueIdx.ix0
  obtain ⟨e6, -⟩ := IntOp.andi_eq_one.1 e
  obtain ⟨e5, -⟩ := IntOp.andi_eq_one.1 e6
  obtain ⟨e4, -⟩ := IntOp.andi_eq_one.1 e5
  obtain ⟨e3, -⟩ := IntOp.andi_eq_one.1 e4
  obtain ⟨e2, h3⟩ := IntOp.andi_eq_one.1 e3
  obtain ⟨e1, h2⟩ := IntOp.andi_eq_one.1 e2
  obtain ⟨h0, h1⟩ := IntOp.andi_eq_one.1 e1
  exact ⟨fun i => real_of_test x0 _ _ _ h0 i, fun i => real_of_test x1 _ _ _ h1 i,
    fun i => real_of_test x2 _ _ _ h2 i, fun i => real_of_test x3 _ _ _ h3 i⟩

end Cert.Pre_finite_inputs.Finite

end
-- ==== Proof.lean ====
/-
  The certificate: a fused multi-head cross-attention block as two kernel regions (the keys' per-head embedding; then, per tile of 64
  query rows, the queries' embedding, the scaled scores against all 4096 keys, the softmax weights, the attended keys, a per-head
  fusing layer and the output projection with residual, bias and relu) against the plain array program that embeds both inputs at
  once, divides the scores by sqrt 64 and applies softmax.
  On the extended reals both programs end with the same two arrays — the output rows and the attention weights, [query, head, key] —
  as functions of the eight arguments (`Cert.Spec.outArr`, `Cert.Spec.wArr`). The kernel side: each region's blocks are tiles of one
  function of the arrays the region is entered with, the regions' blocks tile their outputs, and the host operations between them are a
  reshape, a transpose, changes of float format (the identity here) and a final reshape. The reference side: its operations read at an
  index. The one law that needs finite inputs joins the scores: 1/8 on each query coordinate inside the sum over the 64 coordinates is
  the finished sum divided by sqrt 64 = 8, which is distributivity over real numbers; the precondition makes every input entry real.
  The idealization rewrote nothing, so `preserves` has no conjunct; the three frames are the programs' runs with the results forgotten.
-/
import proofs.«169984_j1580547972770_2_alg».proof.Defs
import proofs.«169984_j1580547972770_2_alg».proof.Proof.Gen.Kernel
import proofs.«169984_j1580547972770_2_alg».proof.Proof.Gen.Kernel.Skeleton
import proofs.«169984_j1580547972770_2_alg».proof.Proof.Gen.Kernel.Launch
import proofs.«169984_j1580547972770_2_alg».proof.Proof.Gen.Kernel.Points
import proofs.«169984_j1580547972770_2_alg».proof.Proof.Gen.Kernel.Frame
import proofs.«169984_j1580547972770_2_alg».proof.Proof.Gen.KernelIdeal
import proofs.«169984_j1580547972770_2_alg».proof.Proof.Gen.KernelIdeal.Skeleton
import proofs.«169984_j1580547972770_2_alg».proof.Proof.Gen.KernelIdeal.Launch
import proofs.«169984_j1580547972770_2_alg».proof.Proof.Gen.KernelIdeal.Points
import proofs.«169984_j1580547972770_2_alg».proof.Proof.Gen.KernelIdeal.Frame
import proofs.«169984_j1580547972770_2_alg».proof.Proof.Gen.ReferenceIdeal
import proofs.«169984_j1580547972770_2_alg».proof.Proof.Gen.Pre_finite_inputs
import proofs.«169984_j1580547972770_2_alg».proof.Proof.KernelFinal
import proofs.«169984_j1580547972770_2_alg».proof.Proof.RefRun
import proofs.«169984_j1580547972770_2_alg».proof.Proof.RefRead
import proofs.«169984_j1580547972770_2_alg».proof.Proof.RefSpec
import proofs.«169984_j1580547972770_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference: its run with the two results forgotten. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the eight arguments, all of them finite, both idealized programs end with the output rows and the
    attention weights of the specification: the kernel by its two regions' closed forms, the reference by its operations read at an
    index, the scores joined on real numbers. -/
theorem algebraic : Cert.algebraic_KernelIdeal_ReferenceIdeal := by
  intro m ρ m' ρ' hpre hagree
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.wArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Final.kernel_run m ρ, ?_⟩
  refine (θ_run Cert.ReferenceIdeal.defs _ _).mono (fun _ h c => ?_) (Cert.ReferenceIdeal.ValueP.run (F := Ideal) m' ρ')
  obtain ⟨h39, h40, hargs⟩ := h c
  obtain ⟨a0, a1, a2, a3, a4, a5, a6, a7⟩ := hagree c
  obtain ⟨r0, r1, r2, r3⟩ := Cert.Pre_finite_inputs.Finite.real_of_fn _ _ _ _ _ _ _ _ (hpre c)
  refine ⟨?_, ?_, hargs⟩
  · rw [h39, Cert.ReferenceIdeal.ReadP.val_main_v39_eq, a0, a1, a2, a3, a4, a5, a6, a7]
    exact Cert.ReferenceIdeal.RefSpec.val_v39_eq_outArr _ _ _ _ _ _ _ _ r0 r1 r2 r3
  · rw [h40, Cert.ReferenceIdeal.ReadP.val_main_v40_eq, a0, a1, a2, a3]
    exact Cert.ReferenceIdeal.RefSpec.val_v40_eq_wArr _ _ _ _ r0 r1 r2 r3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
